-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x100 : Shape := ⟨2, ![2, 100]⟩
abbrev S2x2 : Shape := ⟨2, ![2, 2]⟩
abbrev S8192 : Shape := ⟨1, ![8192]⟩
abbrev S64 : Shape := ⟨1, ![64]⟩
abbrev S128 : Shape := ⟨1, ![128]⟩
abbrev S8192x8192 : Shape := ⟨2, ![8192, 8192]⟩
abbrev S2x128 : Shape := ⟨2, ![2, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S2x2 : S_.BroadcastsInDim S2x2 (![] : Fin 0 → Fin S2x2.rank)
  reducesTo_S2x2_S_d0_1 : S2x2.ReducesTo [0, 1] S_
  bcast_S_S8192 : S_.BroadcastsInDim S8192 (![] : Fin 0 → Fin S8192.rank)
  reducesTo_S8192_S_d0 : S8192.ReducesTo [0] S_
  bcast_S_S64 : S_.BroadcastsInDim S64 (![] : Fin 0 → Fin S64.rank)
  reducesTo_S64_S_d0 : S64.ReducesTo [0] S_
  bcast_S_S128 : S_.BroadcastsInDim S128 (![] : Fin 0 → Fin S128.rank)
  reducesTo_S128_S_d0 : S128.ReducesTo [0] S_
  bcast_S_S8192x8192 : S_.BroadcastsInDim S8192x8192 (![] : Fin 0 → Fin S8192x8192.rank)
  reducesTo_S8192x8192_S_d0_1 : S8192x8192.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg5 : FVec F S128 .f32) (main_arg6 : FVec F S8192x8192 .f32) (main_arg7 : FVec F S2x128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S8192x8192 .f32 := Host.absf main_arg6
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  main_v33

def fn {F : FTy → Type} [FloatOps F] (main_arg0 : FVec F S8192x128 .f32) (main_arg1 : IVec S2x100 32) (main_arg2 : FVec F S2x2 .f32) (main_arg3 : FVec F S8192 .f32) (main_arg4 : FVec F S64 .f32) (main_arg5 : FVec F S128 .f32) (main_arg6 : FVec F S8192x8192 .f32) (main_arg7 : FVec F S2x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S2x2 .f32 := Host.absf main_arg2
  let main_cst_0 : FVec F S_ .f32 := constant S_ .f32 0x7F800000#32
  let main_v5 : FVec F S2x2 .f32 := broadcastInDim S2x2 ![] bcast_S_S2x2 main_cst_0
  let main_v6 : IVec S2x2 1 := cmpf .olt main_v4 main_v5
  let main_c_1 : IVec S_ 1 := constantI S_ 1 1#1
  let main_v7 : IVec S_ 1 := (fun x v => Host.reduce IntOp.andi x v reducesTo_S2x2_S_d0_1 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S8192x128 : Shape := ⟨2, ![8192, 128]⟩
abbrev S2x100 : Shape := ⟨2, ![2, 100]⟩
abbrev S2x2 : Shape := ⟨2, ![2, 2]⟩
abbrev S8192 : Shape := ⟨1, ![8192]⟩
abbrev S64 : Shape := ⟨1, ![64]⟩
abbrev S128 : Shape := ⟨1, ![128]⟩
abbrev S8192x8192 : Shape := ⟨2, ![8192, 8192]⟩
abbrev S2x128 : Shape := ⟨2, ![2, 128]⟩
abbrev S64x1 : Shape := ⟨2, ![64, 1]⟩
abbrev S1x128 : Shape := ⟨2, ![1, 128]⟩
abbrev S64x128 : Shape := ⟨2, ![64, 128]⟩
abbrev S128x1 : Shape := ⟨2, ![128, 1]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩
abbrev S8192x1 : Shape := ⟨2, ![8192, 1]⟩
abbrev S2048x1024 : Shape := ⟨2, ![2048, 1024]⟩
abbrev S1024x128 : Shape := ⟨2, ![1024, 128]⟩
abbrev S2048x128 : Shape := ⟨2, ![2048, 128]⟩
abbrev S1024x2048 : Shape := ⟨2, ![1024, 2048]⟩

abbrev nBuf : Space → Nat
  | .hbm => 38
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S2x100, .i32⟩
  | .hbm, ⟨2, _⟩ => ⟨S2x2, .f32⟩
  | .hbm, ⟨3, _⟩ => ⟨S8192, .f32⟩
  | .hbm, ⟨4, _⟩ => ⟨S64, .f32⟩
  | .hbm, ⟨5, _⟩ => ⟨S128, .f32⟩
  | .hbm, ⟨6, _⟩ => ⟨S8192x8192, .f32⟩
  | .hbm, ⟨7, _⟩ => ⟨S2x128, .f32⟩
  | .hbm, ⟨8, _⟩ => ⟨S64x1, .f32⟩
  | .hbm, ⟨9, _⟩ => ⟨S64x1, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S64x128, .f32⟩
  | .hbm, ⟨14, _⟩ => ⟨S64x128, .f32⟩
  | .hbm, ⟨15, _⟩ => ⟨S64x128, .f32⟩
  | .hbm, ⟨16, _⟩ => ⟨S64x128, .f32⟩
  | .hbm, ⟨17, _⟩ => ⟨S128x1, .f32⟩
  | .hbm, ⟨18, _⟩ => ⟨S128x1, .f32⟩
  | .hbm, ⟨19, _⟩ => ⟨S1x128, .f32⟩
  | .hbm, ⟨20, _⟩ => ⟨S128, .f32⟩
  | .hbm, ⟨21, _⟩ => ⟨S1x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S64x1x128, .f32⟩
  | .hbm, ⟨27, _⟩ => ⟨S1x128x128, .f32⟩
  | .hbm, ⟨28, _⟩ => ⟨S64x128x128, .f32⟩
  | .hbm, ⟨29, _⟩ => ⟨S64x128x128, .f32⟩
  | .hbm, ⟨30, _⟩ => ⟨S64x128x128, .f32⟩
  | .hbm, ⟨31, _⟩ => ⟨S8192x128, .f32⟩
  | .hbm, ⟨32, _⟩ => ⟨S8192x1, .f32⟩
  | .hbm, ⟨33, _⟩ => ⟨S8192x128, .f32⟩
  | .hbm, ⟨34, _⟩ => ⟨S8192x128, .f32⟩
  | .hbm, ⟨35, _⟩ => ⟨S8192x128, .bf16⟩
  | .hbm, ⟨36, _⟩ => ⟨S8192x128, .f32⟩
  | .hbm, ⟨37, _⟩ => ⟨S8192x128, .f32⟩
  | .local _ .vmem, ⟨0, _⟩ => ⟨S2048x1024, .f32⟩
  | .local _ .vmem, ⟨1, _⟩ => ⟨S2048x1024, .f32⟩
  | .local _ .vmem, ⟨2, _⟩ => ⟨S8192x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x2048, .f32⟩
  | .local _ .vmem, ⟨7, _⟩ => ⟨S1024x2048, .f32⟩
  | .local _ .vmem, ⟨8, _⟩ => ⟨S8192x128, .f32⟩
  | .local _ .vmem, ⟨9, _⟩ => ⟨S8192x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_8 : BitVec 32 := 0#32
  let v23 : BitVec 1 := Scalar.cmpi .ne v22 c0_i32_8
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S64_S64x1_0 : S64.BroadcastsInDim S64x1 (![0] : Fin 1 → Fin S64x1.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S128_S128x1_0 : S128.BroadcastsInDim S128x1 (![0] : Fin 1 → Fin S128x1.rank)
  slices_S2x128_S1x128_1_0 : S2x128.Slices ![1, 0] S1x128
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S64x128_S64x1x128_0_2 : S64x128.BroadcastsInDim S64x1x128 (![0, 2] : Fin 2 → Fin S64x1x128.rank)
  bcast_S128x128_S1x128x128_1_2 : S128x128.BroadcastsInDim S1x128x128 (![1, 2] : Fin 2 → Fin S1x128x128.rank)
  bcast_S64x1x128_S64x128x128_0_1_2 : S64x1x128.BroadcastsInDim S64x128x128 (![0, 1, 2] : Fin 3 → Fin S64x128x128.rank)
  bcast_S1x128x128_S64x128x128_0_1_2 : S1x128x128.BroadcastsInDim S64x128x128 (![0, 1, 2] : Fin 3 → Fin S64x128x128.rank)
  shapeCasts_S64x128x128_S8192x128 : S64x128x128.ShapeCasts S8192x128
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  inb_S1024x2048_S1024x2048_0_0 : ∀ a, (![0, 0] : Fin 2 → Nat) a + S1024x2048.size a ≤ S1024x2048.size a
  h_S1024x2048 : 0 < S1024x2048.numel
  dot_S2048x1024_S2048x128_S1024x128_0_0_1_1_n_n_wf : DotDims.WF S2048x1024 S2048x128 S1024x128 [0] [0] [1] [1] [] []
  dot_S1024x2048_S2048x128_S1024x128_1_0_0_1_n_n_wf : DotDims.WF S1024x2048 S2048x128 S1024x128 [1] [0] [0] [1] [] []
  hrank0 : 0 < grid0.rank
  k0_mult1_dvd : ∀ i : grid0.Coords, 16 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  k1_mult1_dvd : ∀ i : grid1.Coords, 8 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S8192x128.size a
  hwx1_2 : ∀ i : grid1.Coords, EltTy.bits .f32 = 32 ∨ (Rect.block (s := S8192x128) S8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)

variable [Facts₀]

def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg6) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg6) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S8192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S2x100 : Shape := ⟨2, ![2, 100]⟩
abbrev S2x2 : Shape := ⟨2, ![2, 2]⟩
abbrev S8192 : Shape := ⟨1, ![8192]⟩
abbrev S64 : Shape := ⟨1, ![64]⟩
abbrev S128 : Shape := ⟨1, ![128]⟩
abbrev S8192x8192 : Shape := ⟨2, ![8192, 8192]⟩
abbrev S2x128 : Shape := ⟨2, ![2, 128]⟩
abbrev S8192x1 : Shape := ⟨2, ![8192, 1]⟩
abbrev S64x1 : Shape := ⟨2, ![64, 1]⟩
abbrev S1x128 : Shape := ⟨2, ![1, 128]⟩
abbrev S64x128 : Shape := ⟨2, ![64, 128]⟩
abbrev S128x1 : Shape := ⟨2, ![128, 1]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x100, .i32⟩
  | .hbm, ⟨2, _⟩ => ⟨S2x2, .f32⟩
  | .hbm, ⟨3, _⟩ => ⟨S8192, .f32⟩
  | .hbm, ⟨4, _⟩ => ⟨S64, .f32⟩
  | .hbm, ⟨5, _⟩ => ⟨S128, .f32⟩
  | .hbm, ⟨6, _⟩ => ⟨S8192x8192, .f32⟩
  | .hbm, ⟨7, _⟩ => ⟨S2x128, .f32⟩
  | .hbm, ⟨8, _⟩ => ⟨S8192x8192, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S64x1, .f32⟩
  | .hbm, ⟨14, _⟩ => ⟨S64x1, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S64x128, .f32⟩
  | .hbm, ⟨19, _⟩ => ⟨S64x128, .f32⟩
  | .hbm, ⟨20, _⟩ => ⟨S64x128, .f32⟩
  | .hbm, ⟨21, _⟩ => ⟨S64x128, .f32⟩
  | .hbm, ⟨22, _⟩ => ⟨S128x1, .f32⟩
  | .hbm, ⟨23, _⟩ => ⟨S128x1, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S64x1x128, .f32⟩
  | .hbm, ⟨32, _⟩ => ⟨S1x128x128, .f32⟩
  | .hbm, ⟨33, _⟩ => ⟨S64x128x128, .f32⟩
  | .hbm, ⟨34, _⟩ => ⟨S64x128x128, .f32⟩
  | .hbm, ⟨35, _⟩ => ⟨S64x128x128, .f32⟩
  | .hbm, ⟨36, _⟩ => ⟨S8192x128, .f32⟩
  | .hbm, ⟨37, _⟩ => ⟨S8192x128, .f32⟩
  | .hbm, ⟨38, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S64_S64x1_0 : S64.BroadcastsInDim S64x1 (![0] : Fin 1 → Fin S64x1.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S128_S128x1_0 : S128.BroadcastsInDim S128x1 (![0] : Fin 1 → Fin S128x1.rank)
  slices_S2x128_S1x128_1_0 : S2x128.Slices ![1, 0] S1x128
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S64x128_S64x1x128_0_2 : S64x128.BroadcastsInDim S64x1x128 (![0, 2] : Fin 2 → Fin S64x1x128.rank)
  bcast_S128x128_S1x128x128_1_2 : S128x128.BroadcastsInDim S1x128x128 (![1, 2] : Fin 2 → Fin S1x128x128.rank)
  bcast_S64x1x128_S64x128x128_0_1_2 : S64x1x128.BroadcastsInDim S64x128x128 (![0, 1, 2] : Fin 3 → Fin S64x128x128.rank)
  bcast_S1x128x128_S64x128x128_0_1_2 : S1x128x128.BroadcastsInDim S64x128x128 (![0, 1, 2] : Fin 3 → Fin S64x128x128.rank)
  shapeCasts_S64x128x128_S8192x128 : S64x128x128.ShapeCasts S8192x128
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.WordToBasisSetup.lean ====
/-
  (For the program as printed, its floats bit patterns and its operations the hardware's: the statements below do
  not depend on how floats are read, and are the same as for the exact reading.)
  The first product, x_spec = evecsᵀ · xm, as a pipelined kernel over the grid 8 × 4 (row tile i of the result, block k
  of the contracted axis): what is shared by the three control cases of its body. The body zeroes a 1024 × 128
  accumulator when k = 0, adds the product of the point's evecs block (rows 2048k.., columns 1024i..) with rows
  2048k.. of xm at every point, and copies the accumulator into the result tile when k = 3. Here: each window's block
  at a point as a function of the arrays the region is entered with, the two branch conditions in closed form over
  the grid, and where the result window is idle (every point with k ≠ 3: nothing is stored, nothing written back).
-/
import proofs.«111915_j83854941487389_2_alg».proof.Proof.Gen.Kernel.Launch
import proofs.«111915_j83854941487389_2_alg».proof.Proof.Gen.Kernel.Skeleton
import proofs.«111915_j83854941487389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, per core: the parameter everything below is stated at
variable (V : (c : Dev nD) → (b : Ref sig .tc) → Buf (Elt F) ((c : Thread nD τ).loc b))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The evecs window holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The xm window (one block: the whole array, fetched once) holds it at every point. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The two branch conditions -/

/-- k = 0: the accumulator is reset. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 4 = 0 :=
  (by decide +kernel : ∀ t : Fin grid0.N, first0 (grid0.coords t) ↔ t.val % 4 = 0)

/-- k = 3: the accumulator is copied out. -/
abbrev last0 (i : grid0.Coords) : Prop := k0_cond2 i = 1#1
theorem last0_iff : ∀ t : Fin cfg0.N, last0 (grid0.coords t) ↔ t.val % 4 = 3 :=
  (by decide +kernel : ∀ t : Fin grid0.N, last0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from k = 3 nothing is stored into the result window and its block is not written back. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a scoped buffer of the kernel's own. -/
abbrev acc0 : Memref sig .tc .vmem S1024x128 .f32 := Memref.whole cc0_scratch0
abbrev accView0 : View sig .tc .vmem S1024x128 .f32 := acc0.view
/-- One staging buffer of the result window, through which its contents are stated. -/
abbrev outView0 : View sig .tc .vmem S1024x128 .f32 := (Memref.whole cc0_stg2_0 : Memref sig .tc .vmem S1024x128 .f32).view

/-- The scoped buffers the kernel never touches: the second kernel's staging buffers and accumulator. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body besides the windows: the accumulator at some contents, the untouched scoped
    buffers, the generator register. -/
theorem restA0_eq (c : Dev nD) :
    (Pipeline.ΦA spec0 c : sProp 𝕄)
      = iprop(iprop((∃ d, owns (c : Thread nD τ) acc0 fullShare d) ∗ others0 c) ∗ (∃ r, prngReg c r)) := by
  unfold Pipeline.ΦA; rw [scopedRest0_eq]; simp only [acc0, owns_whole]; try rfl

end Cert.Kernel.Frame

end
-- ==== Proof.WordToBasisRuns.lean ====
/-
  (For the program as printed, its floats bit patterns and its operations the hardware's: the statements below do
  not depend on how floats are read, and are the same as for the exact reading.)
  The body of the first product run once per control case, on any whole staging memrefs: the evecs block and the xm
  array at read contents, the result tile's buffer handed back untouched where k ≠ 3, the accumulator at what the point
  before left (at anything where k = 0, which overwrites it). Each run ends holding the accumulator with the stores
  of that case written over it, as a list of pieces (last first) that the run itself finds; where k = 3 the result
  tile's buffer likewise.
-/
import proofs.«111915_j83854941487389_2_alg».proof.Proof.Gen.Kernel.Launch
import proofs.«111915_j83854941487389_2_alg».proof.Proof.Gen.Kernel.Skeleton
import proofs.«111915_j83854941487389_2_alg».proof.Proof.Gen.Kernel.Points
import proofs.«111915_j83854941487389_2_alg».proof.Proof.WordToBasisSetup
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: reset, then add the point's product. -/
noncomputable def runFirst0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : first0 i) (hc1 : ¬last0 i)
    (x0 : Vec F S2048x1024 .f32) (x1 : Vec F S8192x128 .bf16) :
    Σ' (L2 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__matmul1_kernel i arg2 harg2 arg3 harg3 arg4 harg4 arg5 harg5) K } := by
  refine ⟨[], ?_, fun xi E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 3: add the point's product. -/
noncomputable def runMid0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : ¬last0 i)
    (x0 : Vec F S2048x1024 .f32) (x1 : Vec F S8192x128 .bf16) (xs : Vec F S1024x128 .f32) :
    Σ' (L2 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__matmul1_kernel i arg2 harg2 arg3 harg3 arg4 harg4 arg5 harg5) K } := by
  refine ⟨[], ?_, fun xi E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 3: add the point's product, then copy the accumulator into the result tile. -/
noncomputable def runLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__matmul1_kernel i arg2 harg2 arg3 harg3 arg4 harg4 arg5 harg5) K } := by
  refine ⟨?_, ?_, fun E K => ?run⟩
  case run =>
    simp only [cc0__matmul1_kernel_eq_skeleton]; unfold cc0__matmul1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frame

end
-- ==== Proof.WordToBasisFrame.lean ====
/-
  (For the program as printed, its floats bit patterns and its operations the hardware's: the statements below do
  not depend on how floats are read, and are the same as for the exact reading.)
  The first product point by point. What the accumulator (and, at k = 3, the result tile's buffer) holds after each
  grid point: by recursion on the point, the case the point is in run on the point's blocks, over what the point
  before left in the accumulator. The region's invariant carries the accumulator at exactly those contents; with it
  the body meets its obligation at every point, and the invariant is what the region is entered with and gives back.
-/
import proofs.«111915_j83854941487389_2_alg».proof.Proof.Gen.Kernel.Launch
import proofs.«111915_j83854941487389_2_alg».proof.Proof.Gen.Kernel.Skeleton
import proofs.«111915_j83854941487389_2_alg».proof.Proof.Gen.Kernel.Points
import proofs.«111915_j83854941487389_2_alg».proof.Proof.WordToBasisRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0 leaves the accumulator covered by its stores. -/
theorem accCoverFirst0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : first0 i) (hc1 : ¬last0 i)
    (x0 : Vec F S2048x1024 .f32) (x1 : Vec F S8192x128 .bf16) (y : S1024x128.Idx) :
    ∃ pc ∈ (runFirst0 c i arg2 harg2 arg3 harg3 arg4 harg4 arg5 harg5 hc0 hc1 x0 x1).2.1, y ∈ pc.1.set :=
  View.cover_of_tiledL (runFirst0 c i arg2 harg2 arg3 harg3 arg4 harg4 arg5 harg5 hc0 hc1 x0 x1).2.1 S1024x128.size (by sl_kernel_rfl) y
def accFirst0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : first0 i) (hc1 : ¬last0 i)
    (x0 : Vec F S2048x1024 .f32) (x1 : Vec F S8192x128 .bf16) : Vec F S1024x128 .f32 :=
  accView0.read (Elt F) (accView0.writes (Elt F) accView0.junk (runFirst0 c i arg2 harg2 arg3 harg3 arg4 harg4 arg5 harg5 hc0 hc1 x0 x1).2.1)

theorem accCoverMid0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : ¬last0 i)
    (x0 : Vec F S2048x1024 .f32) (x1 : Vec F S8192x128 .bf16) (xs : Vec F S1024x128 .f32) (y : S1024x128.Idx) :
    ∃ pc ∈ (runMid0 c i arg2 harg2 arg3 harg3 arg4 harg4 arg5 harg5 hc0 hc1 x0 x1 xs).2.1, y ∈ pc.1.set :=
  View.cover_of_tiledL (runMid0 c i arg2 harg2 arg3 harg3 arg4 harg4 arg5 harg5 hc0 hc1 x0 x1 xs).2.1 S1024x128.size (by sl_kernel_rfl) y
def accMid0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : ¬last0 i)
    (x0 : Vec F S2048x1024 .f32) (x1 : Vec F S8192x128 .bf16) (xs : Vec F S1024x128 .f32) : Vec F S1024x128 .f32 :=
  accView0.read (Elt F) (accView0.writes (Elt F) accView0.junk (runMid0 c i arg2 harg2 arg3 harg3 arg4 harg4 arg5 harg5 hc0 hc1 x0 x1 xs).2.1)

theorem accCoverLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) (y : S1024x128.Idx) :
    ∃ pc ∈ (runLast0 c i arg2 harg2 arg3 harg3 arg4 harg4 arg5 harg5 hc0 hc1 x0 x1 xs).2.1, y ∈ pc.1.set :=
  View.cover_of_tiledL (runLast0 c i arg2 harg2 arg3 harg3 arg4 harg4 arg5 harg5 hc0 hc1 x0 x1 xs).2.1 S1024x128.size (by sl_kernel_rfl) y
def accLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) : Vec F S1024x128 .f32 :=
  accView0.read (Elt F) (accView0.writes (Elt F) accView0.junk (runLast0 c i arg2 harg2 arg3 harg3 arg4 harg4 arg5 harg5 hc0 hc1 x0 x1 xs).2.1)
theorem outCoverLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) (y : S1024x128.Idx) :
    ∃ pc ∈ (runLast0 c i arg2 harg2 arg3 harg3 arg4 harg4 arg5 harg5 hc0 hc1 x0 x1 xs).1, y ∈ pc.1.set :=
  View.cover_of_tiledL (runLast0 c i arg2 harg2 arg3 harg3 arg4 harg4 arg5 harg5 hc0 hc1 x0 x1 xs).1 S1024x128.size (by sl_kernel_rfl) y
def outLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) : Vec F S1024x128 .f32 :=
  outView0.read (Elt F) (outView0.writes (Elt F) outView0.junk (runLast0 c i arg2 harg2 arg3 harg3 arg4 harg4 arg5 harg5 hc0 hc1 x0 x1 xs).1)

/-! ## Point by point -/

/-- After the body at position `n`: the result tile's buffer (meaningful at k = 3 only; elsewhere the window is idle
    and nothing consults this component) and the accumulator. -/
def tileAcc0 (c : Dev nD) : (n : ℕ) → n < cfg0.N → Vec F S1024x128 .f32 × Vec F S1024x128 .f32
  | 0, hn => (outView0.junk, accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) acc0 (Memref.isWhole_whole _) ((first0_iff ⟨0, hn⟩).mpr (Nat.zero_mod _)) (fun h => (fun h => by (try dsimp only at h); omega) ((last0_iff ⟨0, hn⟩).mp h)) (blk0 V c 0 ⟨0, hn⟩) (blk0 V c 1 ⟨0, hn⟩))
  | n + 1, hn =>
    if h0 : (n + 1) % 4 = 0 then
      if h1 : (n + 1) % 4 = 3 then
        False.elim (by omega)
      else
        (outView0.junk, accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) ((first0_iff ⟨n + 1, hn⟩).mpr h0) (fun h => h1 ((last0_iff ⟨n + 1, hn⟩).mp h)) (blk0 V c 0 ⟨n + 1, hn⟩) (blk0 V c 1 ⟨n + 1, hn⟩))
    else
      if h1 : (n + 1) % 4 = 3 then
        (outLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((first0_iff ⟨n + 1, hn⟩).mp h)) ((last0_iff ⟨n + 1, hn⟩).mpr h1) (blk0 V c 0 ⟨n + 1, hn⟩) (blk0 V c 1 ⟨n + 1, hn⟩) (tileAcc0 c n (Nat.lt_of_succ_lt hn)).2,
         accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((first0_iff ⟨n + 1, hn⟩).mp h)) ((last0_iff ⟨n + 1, hn⟩).mpr h1) (blk0 V c 0 ⟨n + 1, hn⟩) (blk0 V c 1 ⟨n + 1, hn⟩) (tileAcc0 c n (Nat.lt_of_succ_lt hn)).2)
      else
        (outView0.junk, accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((first0_iff ⟨n + 1, hn⟩).mp h)) (fun h => h1 ((last0_iff ⟨n + 1, hn⟩).mp h)) (blk0 V c 0 ⟨n + 1, hn⟩) (blk0 V c 1 ⟨n + 1, hn⟩) (tileAcc0 c n (Nat.lt_of_succ_lt hn)).2)

theorem tileAcc0_first (c : Dev nD) (t : Fin cfg0.N) (h0 : t.val % 4 = 0) (h1 : ¬t.val % 4 = 3) :
    tileAcc0 V c t.val t.isLt = (outView0.junk, accFirst0 c (grid0.coords t) (ms0_0 t) (hs0_0 t) (ms0_1 t) (hs0_1 t) (ms0_2 t) (hs0_2 t) acc0 (Memref.isWhole_whole _) ((first0_iff t).mpr h0) (fun h => h1 ((last0_iff t).mp h)) (blk0 V c 0 t) (blk0 V c 1 t)) := by
  obtain ⟨n, hn⟩ := t
  cases n with
  | zero => exact rfl
  | succ n => exact (dif_pos h0).trans ((dif_neg h1).trans rfl)

theorem tileAcc0_mid (c : Dev nD) (t : Fin cfg0.N) (h0 : ¬t.val % 4 = 0) (h1 : ¬t.val % 4 = 3) :
    tileAcc0 V c t.val t.isLt = (outView0.junk, accMid0 c (grid0.coords t) (ms0_0 t) (hs0_0 t) (ms0_1 t) (hs0_1 t) (ms0_2 t) (hs0_2 t) acc0 (Memref.isWhole_whole _) (fun h => h0 ((first0_iff t).mp h)) (fun h => h1 ((last0_iff t).mp h)) (blk0 V c 0 t) (blk0 V c 1 t) (tileAcc0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem tileAcc0_last (c : Dev nD) (t : Fin cfg0.N) (h0 : ¬t.val % 4 = 0) (h1 : t.val % 4 = 3) :
    tileAcc0 V c t.val t.isLt = (outLast0 c (grid0.coords t) (ms0_0 t) (hs0_0 t) (ms0_1 t) (hs0_1 t) (ms0_2 t) (hs0_2 t) acc0 (Memref.isWhole_whole _) (fun h => h0 ((first0_iff t).mp h)) ((last0_iff t).mpr h1) (blk0 V c 0 t) (blk0 V c 1 t) (tileAcc0 V c (t.val - 1) (Nat.lt_of_le_of_lt (Nat.sub_le _ _) t.isLt)).2,
      accLast0 c (grid0.coords t) (ms0_0 t) (hs0_0 t) (ms0_1 t) (hs0_1 t) (ms0_2 t) (hs0_2 t) acc0 (Memref.isWhole_whole _) (fun h => h0 ((first0_iff t).mp h)) ((last0_iff t).mpr h1) (blk0 V c 0 t) (blk0 V c 1 t) (tileAcc0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry whatever the launch hands over; afterwards the accumulator
    at what the point before left, the untouched scoped buffers, the generator register. -/
def inv0 (c : Dev nD) : (n : ℕ) → n ≤ cfg0.N → sProp 𝕄
  | 0, _ => Pipeline.ΦA spec0 c
  | n + 1, hn => iprop(iprop(owns (c : Thread nD τ) acc0 fullShare ((tileAcc0 V c n hn).2) ∗ others0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(iprop(owns (c : Thread nD τ) acc0 fullShare ((tileAcc0 V c n hn).2) ∗ others0 c) ∗ (∃ r, prngReg c r)) := rfl
theorem inv0_pos (c : Dev nD) (n : ℕ) (h : n ≤ cfg0.N) (hz : n ≠ 0) :
    inv0 V c n h = iprop(iprop(owns (c : Thread nD τ) acc0 fullShare ((tileAcc0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (tileAcc0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (tileAcc0 V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h1 : t.val % 4 = 3
  · have h0 : ¬t.val % 4 = 0 := by omega
    have hz : t.val ≠ 0 := by omega
    rw [show (dat0 V c).leavesExact 2 t = owns (c : Thread nD τ) (ms0_2 t) fullShare ((dat0 V c).after 2 t) from by
      unfold Dat.leavesExact; rw [live0_2 t ((last0_iff t).mpr h1)], after0_2]
    rw [tileAcc0_last V c t h0 h1]
    unfold outLast0 accLast0; (try dsimp only)
    rw [inv0_castSucc V c t, inv0_pos V c _ _ hz]
    iintro ⟨⟨⟨HS, Hoth⟩, Hg⟩, Ho, ⟨%d0, H0⟩, ⟨%d1, H1⟩, ⟨%d2, H2⟩⟩
    iapply ((runLast0 c (grid0.coords t) _ _ _ _ _ _ _ _ (fun h => h0 ((first0_iff t).mp h)) ((last0_iff t).mpr h1) (blk0 V c 0 t) (blk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (accCoverLast0 c _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (outCoverLast0 c _ _ _ _ _ _ _ _ _ _ _ _ _ _)
  · have hl : ¬last0 (grid0.coords t) := fun h => h1 ((last0_iff t).mp h)
    rw [Dat.leavesExact_idle (dat0 V c) 2 t (idle0_2 t hl) (noFlush0_2 t hl)]
    by_cases h0 : t.val % 4 = 0
    · rw [tileAcc0_first V c t h0 h1]
      unfold accFirst0; (try dsimp only)
      by_cases hz : t.val = 0
      · rw [inv0_castSucc V c t, inv0_zero V c _ _ hz, restA0_eq]
        iintro ⟨⟨⟨HS, Hoth⟩, Hg⟩, Ho, ⟨%d0, H0⟩, ⟨%d1, H1⟩, ⟨%d2, H2⟩⟩
        iapply ((runFirst0 c (grid0.coords t) _ _ _ _ _ _ _ _ ((first0_iff t).mpr h0) hl (blk0 V c 0 t) (blk0 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst0 c _ _ _ _ _ _ _ _ _ _ _ _ _)
            iexact Hoth
          iexact Hg
        isplitl [Ho]; · iexact Ho
        isplitl [H0]; · iexact H0
        isplitl [H1]; · iexact H1
        iexists _; iexact H2
      · rw [inv0_castSucc V c t, inv0_pos V c _ _ hz]
        iintro ⟨⟨⟨HS, Hoth⟩, Hg⟩, Ho, ⟨%d0, H0⟩, ⟨%d1, H1⟩, ⟨%d2, H2⟩⟩
        iapply ((runFirst0 c (grid0.coords t) _ _ _ _ _ _ _ _ ((first0_iff t).mpr h0) hl (blk0 V c 0 t) (blk0 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst0 c _ _ _ _ _ _ _ _ _ _ _ _ _)
            iexact Hoth
          iexact Hg
        isplitl [Ho]; · iexact Ho
        isplitl [H0]; · iexact H0
        isplitl [H1]; · iexact H1
        iexists _; iexact H2
    · have hz : t.val ≠ 0 := by omega
      rw [tileAcc0_mid V c t h0 h1]
      unfold accMid0; (try dsimp only)
      rw [inv0_castSucc V c t, inv0_pos V c _ _ hz]
      iintro ⟨⟨⟨HS, Hoth⟩, Hg⟩, Ho, ⟨%d0, H0⟩, ⟨%d1, H1⟩, ⟨%d2, H2⟩⟩
      iapply ((runMid0 c (grid0.coords t) _ _ _ _ _ _ _ _ (fun h => h0 ((first0_iff t).mp h)) hl (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid0 c _ _ _ _ _ _ _ _ _ _ _ _ _ _)
          iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem enter0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives the same back, the accumulator's contents forgotten. -/
theorem leave0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = inv0 V c (Fin.last cfg0.N).val (Nat.le_of_lt_succ (Fin.last cfg0.N).isLt) from rfl, inv0_pos V c _ _ ht, restA0_eq]
  iintro ⟨⟨HS, Hoth⟩, Hg⟩
  isplitl [HS Hoth]
  · isplitl [HS]
    · iexists _; iexact HS
    iexact Hoth
  iexact Hg

end Cert.Kernel.Frame

end
-- ==== Proof.WordFromBasisSetup.lean ====
/-
  (For the program as printed, its floats bit patterns and its operations the hardware's: the statements below do
  not depend on how floats are read, and are the same as for the exact reading.)
  The second product, x_diffuse = evecs · (x_spec ⊙ coefs), as a pipelined kernel over the grid 8 × 4 (row tile i of
  the result, block k of the contracted axis): what is shared by the three control cases of its body. The body zeroes
  a 1024 × 128 accumulator when k = 0, adds the product of the point's evecs block (rows 1024i.., columns 2048k..) with
  rows 2048k.. of x_spec ⊙ coefs at every point, and copies the accumulator into the result tile when k = 3. Here: each
  window's block at a point as a function of the arrays the region is entered with, the two branch conditions in closed
  form over the grid, and where the result window is idle (every point with k ≠ 3).
-/
import proofs.«111915_j83854941487389_2_alg».proof.Proof.Gen.Kernel.Launch
import proofs.«111915_j83854941487389_2_alg».proof.Proof.Gen.Kernel.Skeleton
import proofs.«111915_j83854941487389_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, per core: the parameter everything below is stated at
variable (V : (c : Dev nD) → (b : Ref sig .tc) → Buf (Elt F) ((c : Thread nD τ).loc b))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The evecs window holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The x_spec window (one block: the whole array, fetched once) holds it at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The coefficient window (one block: the whole array, fetched once) holds it at every point. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two branch conditions -/

/-- k = 0: the accumulator is reset. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 4 = 0 :=
  (by decide +kernel : ∀ t : Fin grid1.N, first1 (grid1.coords t) ↔ t.val % 4 = 0)

/-- k = 3: the accumulator is copied out. -/
abbrev last1 (i : grid1.Coords) : Prop := k1_cond2 i = 1#1
theorem last1_iff : ∀ t : Fin cfg1.N, last1 (grid1.coords t) ↔ t.val % 4 = 3 :=
  (by decide +kernel : ∀ t : Fin grid1.N, last1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from k = 3 nothing is stored into the result window and its block is not written back. -/
theorem idle1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel
theorem live1_3 : ∀ t : Fin cfg1.N, last1 (grid1.coords t) → cfg1.idle 3 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a scoped buffer of the kernel's own. -/
abbrev acc1 : Memref sig .tc .vmem S1024x128 .f32 := Memref.whole cc1_scratch0
abbrev accView1 : View sig .tc .vmem S1024x128 .f32 := acc1.view
/-- One staging buffer of the result window, through which its contents are stated. -/
abbrev outView1 : View sig .tc .vmem S1024x128 .f32 := (Memref.whole cc1_stg3_0 : Memref sig .tc .vmem S1024x128 .f32).view

/-- What the region hands the body besides the windows: the accumulator at some contents, the scoped buffers the
    kernel never touches, the generator register. -/
theorem restA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) acc1 fullShare d)) ∗ (∃ r, prngReg c r)) := by
  unfold Pipeline.ΦA; rw [scopedRest1_eq]; simp only [acc1, owns_whole]; try rfl

end Cert.Kernel.Frame

end
-- ==== Proof.WordFromBasisRuns.lean ====
/-
  (For the program as printed, its floats bit patterns and its operations the hardware's: the statements below do
  not depend on how floats are read, and are the same as for the exact reading.)
  The body of the second product run once per control case, on any whole staging memrefs: the evecs block, the x_spec
  array and the coefficient array at read contents, the result tile's buffer handed back untouched where k ≠ 3, the
  accumulator at what the point before left (at anything where k = 0, which overwrites it). Each run ends holding the
  accumulator with the stores of that case written over it, as a list of pieces (last first) that the run itself
  finds; where k = 3 the result tile's buffer likewise.
-/
import proofs.«111915_j83854941487389_2_alg».proof.Proof.Gen.Kernel.Launch
import proofs.«111915_j83854941487389_2_alg».proof.Proof.Gen.Kernel.Skeleton
import proofs.«111915_j83854941487389_2_alg».proof.Proof.Gen.Kernel.Points
import proofs.«111915_j83854941487389_2_alg».proof.Proof.WordFromBasisSetup
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: reset, then add the point's product. -/
noncomputable def runFirst1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : first1 i) (hc1 : ¬last1 i)
    (x0 : Vec F S1024x2048 .f32) (x1 : Vec F S8192x128 .f32) (x2 : Vec F S8192x128 .f32) :
    Σ' (L2 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__matmul2_kernel i arg2 harg2 arg3 harg3 arg4 harg4 arg5 harg5 arg6 harg6) K } := by
  refine ⟨[], ?_, fun xi E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 1000000 in
/-- 0 < k < 3: add the point's product. -/
noncomputable def runMid1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : ¬last1 i)
    (x0 : Vec F S1024x2048 .f32) (x1 : Vec F S8192x128 .f32) (x2 : Vec F S8192x128 .f32) (xs : Vec F S1024x128 .f32) :
    Σ' (L2 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__matmul2_kernel i arg2 harg2 arg3 harg3 arg4 harg4 arg5 harg5 arg6 harg6) K } := by
  refine ⟨[], ?_, fun xi E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 1000000 in
/-- k = 3: add the point's product, then copy the accumulator into the result tile. -/
noncomputable def runLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__matmul2_kernel i arg2 harg2 arg3 harg3 arg4 harg4 arg5 harg5 arg6 harg6) K } := by
  refine ⟨?_, ?_, fun E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.Kernel.Frame

end
-- ==== Proof.WordFromBasisFrame.lean ====
/-
  (For the program as printed, its floats bit patterns and its operations the hardware's: the statements below do
  not depend on how floats are read, and are the same as for the exact reading.)
  The second product point by point. What the accumulator (and, at k = 3, the result tile's buffer) holds after each
  grid point: by recursion on the point, the case the point is in run on the point's blocks, over what the point
  before left in the accumulator. The region's invariant carries the accumulator at exactly those contents; with it
  the body meets its obligation at every point, and the invariant is what the region is entered with and gives back.
-/
import proofs.«111915_j83854941487389_2_alg».proof.Proof.Gen.Kernel.Launch
import proofs.«111915_j83854941487389_2_alg».proof.Proof.Gen.Kernel.Skeleton
import proofs.«111915_j83854941487389_2_alg».proof.Proof.Gen.Kernel.Points
import proofs.«111915_j83854941487389_2_alg».proof.Proof.WordFromBasisRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Each case's stores tile the accumulator, so they cover it; what the case leaves in it is those stores read back. -/
theorem accCoverFirst1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : first1 i) (hc1 : ¬last1 i)
    (x0 : Vec F S1024x2048 .f32) (x1 : Vec F S8192x128 .f32) (x2 : Vec F S8192x128 .f32) (y : S1024x128.Idx) :
    ∃ pc ∈ (runFirst1 c i arg2 harg2 arg3 harg3 arg4 harg4 arg5 harg5 arg6 harg6 hc0 hc1 x0 x1 x2).2.1, y ∈ pc.1.set :=
  View.cover_of_tiledL (runFirst1 c i arg2 harg2 arg3 harg3 arg4 harg4 arg5 harg5 arg6 harg6 hc0 hc1 x0 x1 x2).2.1 S1024x128.size (by sl_kernel_rfl) y
def accFirst1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : first1 i) (hc1 : ¬last1 i)
    (x0 : Vec F S1024x2048 .f32) (x1 : Vec F S8192x128 .f32) (x2 : Vec F S8192x128 .f32) : Vec F S1024x128 .f32 :=
  accView1.read (Elt F) (accView1.writes (Elt F) accView1.junk (runFirst1 c i arg2 harg2 arg3 harg3 arg4 harg4 arg5 harg5 arg6 harg6 hc0 hc1 x0 x1 x2).2.1)

theorem accCoverMid1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : ¬last1 i)
    (x0 : Vec F S1024x2048 .f32) (x1 : Vec F S8192x128 .f32) (x2 : Vec F S8192x128 .f32) (xs : Vec F S1024x128 .f32) (y : S1024x128.Idx) :
    ∃ pc ∈ (runMid1 c i arg2 harg2 arg3 harg3 arg4 harg4 arg5 harg5 arg6 harg6 hc0 hc1 x0 x1 x2 xs).2.1, y ∈ pc.1.set :=
  View.cover_of_tiledL (runMid1 c i arg2 harg2 arg3 harg3 arg4 harg4 arg5 harg5 arg6 harg6 hc0 hc1 x0 x1 x2 xs).2.1 S1024x128.size (by sl_kernel_rfl) y
def accMid1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : ¬last1 i)
    (x0 : Vec F S1024x2048 .f32) (x1 : Vec F S8192x128 .f32) (x2 : Vec F S8192x128 .f32) (xs : Vec F S1024x128 .f32) : Vec F S1024x128 .f32 :=
  accView1.read (Elt F) (accView1.writes (Elt F) accView1.junk (runMid1 c i arg2 harg2 arg3 harg3 arg4 harg4 arg5 harg5 arg6 harg6 hc0 hc1 x0 x1 x2 xs).2.1)

theorem accCoverLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) (y : S1024x128.Idx) :
    ∃ pc ∈ (runLast1 c i arg2 harg2 arg3 harg3 arg4 harg4 arg5 harg5 arg6 harg6 hc0 hc1 x0 x1 x2 xs).2.1, y ∈ pc.1.set :=
  View.cover_of_tiledL (runLast1 c i arg2 harg2 arg3 harg3 arg4 harg4 arg5 harg5 arg6 harg6 hc0 hc1 x0 x1 x2 xs).2.1 S1024x128.size (by sl_kernel_rfl) y
def accLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) : Vec F S1024x128 .f32 :=
  accView1.read (Elt F) (accView1.writes (Elt F) accView1.junk (runLast1 c i arg2 harg2 arg3 harg3 arg4 harg4 arg5 harg5 arg6 harg6 hc0 hc1 x0 x1 x2 xs).2.1)

theorem outCoverLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) (y : S1024x128.Idx) :
    ∃ pc ∈ (runLast1 c i arg2 harg2 arg3 harg3 arg4 harg4 arg5 harg5 arg6 harg6 hc0 hc1 x0 x1 x2 xs).1, y ∈ pc.1.set :=
  View.cover_of_tiledL (runLast1 c i arg2 harg2 arg3 harg3 arg4 harg4 arg5 harg5 arg6 harg6 hc0 hc1 x0 x1 x2 xs).1 S1024x128.size (by sl_kernel_rfl) y
def outLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) : Vec F S1024x128 .f32 :=
  outView1.read (Elt F) (outView1.writes (Elt F) outView1.junk (runLast1 c i arg2 harg2 arg3 harg3 arg4 harg4 arg5 harg5 arg6 harg6 hc0 hc1 x0 x1 x2 xs).1)

/-! ## Point by point -/

/-- After the body at position `n`: the result tile's buffer (meaningful at k = 3 only; elsewhere the window is idle
    and nothing consults this component) and the accumulator. -/
def tileAcc1 (c : Dev nD) : (n : ℕ) → n < cfg1.N → Vec F S1024x128 .f32 × Vec F S1024x128 .f32
  | 0, hn => (outView1.junk, accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) acc1 (Memref.isWhole_whole _) ((first1_iff ⟨0, hn⟩).mpr (Nat.zero_mod _)) (fun h => (fun h => by (try dsimp only at h); omega) ((last1_iff ⟨0, hn⟩).mp h)) (blk1 V c 0 ⟨0, hn⟩) (blk1 V c 1 ⟨0, hn⟩) (blk1 V c 2 ⟨0, hn⟩))
  | n + 1, hn =>
    if h0 : (n + 1) % 4 = 0 then
      if h1 : (n + 1) % 4 = 3 then
        False.elim (by omega)
      else
        (outView1.junk, accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) ((first1_iff ⟨n + 1, hn⟩).mpr h0) (fun h => h1 ((last1_iff ⟨n + 1, hn⟩).mp h)) (blk1 V c 0 ⟨n + 1, hn⟩) (blk1 V c 1 ⟨n + 1, hn⟩) (blk1 V c 2 ⟨n + 1, hn⟩))
    else
      if h1 : (n + 1) % 4 = 3 then
        (outLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((first1_iff ⟨n + 1, hn⟩).mp h)) ((last1_iff ⟨n + 1, hn⟩).mpr h1) (blk1 V c 0 ⟨n + 1, hn⟩) (blk1 V c 1 ⟨n + 1, hn⟩) (blk1 V c 2 ⟨n + 1, hn⟩) (tileAcc1 c n (Nat.lt_of_succ_lt hn)).2,
         accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((first1_iff ⟨n + 1, hn⟩).mp h)) ((last1_iff ⟨n + 1, hn⟩).mpr h1) (blk1 V c 0 ⟨n + 1, hn⟩) (blk1 V c 1 ⟨n + 1, hn⟩) (blk1 V c 2 ⟨n + 1, hn⟩) (tileAcc1 c n (Nat.lt_of_succ_lt hn)).2)
      else
        (outView1.junk, accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((first1_iff ⟨n + 1, hn⟩).mp h)) (fun h => h1 ((last1_iff ⟨n + 1, hn⟩).mp h)) (blk1 V c 0 ⟨n + 1, hn⟩) (blk1 V c 1 ⟨n + 1, hn⟩) (blk1 V c 2 ⟨n + 1, hn⟩) (tileAcc1 c n (Nat.lt_of_succ_lt hn)).2)

theorem tileAcc1_first (c : Dev nD) (t : Fin cfg1.N) (h0 : t.val % 4 = 0) (h1 : ¬t.val % 4 = 3) :
    tileAcc1 V c t.val t.isLt = (outView1.junk, accFirst1 c (grid1.coords t) (ms1_0 t) (hs1_0 t) (ms1_1 t) (hs1_1 t) (ms1_2 t) (hs1_2 t) (ms1_3 t) (hs1_3 t) acc1 (Memref.isWhole_whole _) ((first1_iff t).mpr h0) (fun h => h1 ((last1_iff t).mp h)) (blk1 V c 0 t) (blk1 V c 1 t) (blk1 V c 2 t)) := by
  obtain ⟨n, hn⟩ := t
  cases n with
  | zero => exact rfl
  | succ n => exact (dif_pos h0).trans ((dif_neg h1).trans rfl)

theorem tileAcc1_mid (c : Dev nD) (t : Fin cfg1.N) (h0 : ¬t.val % 4 = 0) (h1 : ¬t.val % 4 = 3) :
    tileAcc1 V c t.val t.isLt = (outView1.junk, accMid1 c (grid1.coords t) (ms1_0 t) (hs1_0 t) (ms1_1 t) (hs1_1 t) (ms1_2 t) (hs1_2 t) (ms1_3 t) (hs1_3 t) acc1 (Memref.isWhole_whole _) (fun h => h0 ((first1_iff t).mp h)) (fun h => h1 ((last1_iff t).mp h)) (blk1 V c 0 t) (blk1 V c 1 t) (blk1 V c 2 t) (tileAcc1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem tileAcc1_last (c : Dev nD) (t : Fin cfg1.N) (h0 : ¬t.val % 4 = 0) (h1 : t.val % 4 = 3) :
    tileAcc1 V c t.val t.isLt = (outLast1 c (grid1.coords t) (ms1_0 t) (hs1_0 t) (ms1_1 t) (hs1_1 t) (ms1_2 t) (hs1_2 t) (ms1_3 t) (hs1_3 t) acc1 (Memref.isWhole_whole _) (fun h => h0 ((first1_iff t).mp h)) ((last1_iff t).mpr h1) (blk1 V c 0 t) (blk1 V c 1 t) (blk1 V c 2 t) (tileAcc1 V c (t.val - 1) (Nat.lt_of_le_of_lt (Nat.sub_le _ _) t.isLt)).2,
      accLast1 c (grid1.coords t) (ms1_0 t) (hs1_0 t) (ms1_1 t) (hs1_1 t) (ms1_2 t) (hs1_2 t) (ms1_3 t) (hs1_3 t) acc1 (Memref.isWhole_whole _) (fun h => h0 ((first1_iff t).mp h)) ((last1_iff t).mpr h1) (blk1 V c 0 t) (blk1 V c 1 t) (blk1 V c 2 t) (tileAcc1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry whatever the launch hands over; afterwards the accumulator
    at what the point before left, the untouched scoped buffers, the generator register. -/
def inv1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) acc1 fullShare ((tileAcc1 V c n hn).2)) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) acc1 fullShare ((tileAcc1 V c n hn).2)) ∗ (∃ r, prngReg c r)) := rfl
theorem inv1_pos (c : Dev nD) (n : ℕ) (h : n ≤ cfg1.N) (hz : n ≠ 0) :
    inv1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) acc1 fullShare ((tileAcc1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (tileAcc1 V c t.val t.isLt).1
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem inv1_castSucc (c : Dev nD) (t : Fin cfg1.N) :
    (dat1 V c).Φ t.castSucc = inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = (tileAcc1 V c t.val t.isLt).1 := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands over the accumulator at what the point before left (at anything at the very first point) and takes
    it back at this point's contents; the result tile's buffer is handed back untouched unless k = 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = inv1 V c (t.val + 1) t.isLt from rfl, inv1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [live1_3 t ((last1_iff t).mpr h1)], after1_3]
    rw [tileAcc1_last V c t h0 h1]
    unfold outLast1 accLast1; (try dsimp only)
    rw [inv1_castSucc V c t, inv1_pos V c _ _ hz]
    iintro ⟨⟨⟨B0, B1, B2, B3, B4, B5, HS⟩, Hg⟩, Ho, ⟨%d0, H0⟩, ⟨%d1, H1⟩, ⟨%d2, H2⟩, ⟨%dO, HO⟩⟩
    iapply ((runLast1 c (grid1.coords t) _ _ _ _ _ _ _ _ _ _ (fun h => h0 ((first1_iff t).mp h)) ((last1_iff t).mpr h1) (blk1 V c 0 t) (blk1 V c 1 t) (blk1 V c 2 t) _).2.2 Set.univ _)
    isplitl [H0]; · iexact H0
    isplitl [H1]; · iexact H1
    isplitl [H2]; · iexact H2
    isplitl [HO]; · iexists _; iexact HO
    isplitl [HS]; · iexact HS
    iintro ⟨H0, H1, H2, ⟨%eO, HO⟩, ⟨%es, HS⟩⟩
    isplitl [B0 B1 B2 B3 B4 B5 HS Hg]
    · isplitl [B0 B1 B2 B3 B4 B5 HS]
      · isplitl [B0]; · iexact B0
        isplitl [B1]; · iexact B1
        isplitl [B2]; · iexact B2
        isplitl [B3]; · iexact B3
        isplitl [B4]; · iexact B4
        isplitl [B5]; · iexact B5
        unfold owns; iexists _; isplitr
        swap; · iexact HS
        ipureintro; exact View.read_writes_of_cover _ _ _ _ _ (accCoverLast1 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ (outCoverLast1 c _ _ _ _ _ _ _ _ _ _ _ _ _ _ _ _ _)
  · have hl : ¬last1 (grid1.coords t) := fun h => h1 ((last1_iff t).mp h)
    rw [Dat.leavesExact_idle (dat1 V c) 3 t (idle1_3 t hl) (noFlush1_3 t hl)]
    by_cases h0 : t.val % 4 = 0
    · rw [tileAcc1_first V c t h0 h1]
      unfold accFirst1; (try dsimp only)
      by_cases hz : t.val = 0
      · rw [inv1_castSucc V c t, inv1_zero V c _ _ hz, restA1_eq]
        iintro ⟨⟨⟨B0, B1, B2, B3, B4, B5, HS⟩, Hg⟩, Ho, ⟨%d0, H0⟩, ⟨%d1, H1⟩, ⟨%d2, H2⟩, ⟨%dO, HO⟩⟩
        iapply ((runFirst1 c (grid1.coords t) _ _ _ _ _ _ _ _ _ _ ((first1_iff t).mpr h0) hl (blk1 V c 0 t) (blk1 V c 1 t) (blk1 V c 2 t)).2.2 _ Set.univ _)
        isplitl [H0]; · iexact H0
        isplitl [H1]; · iexact H1
        isplitl [H2]; · iexact H2
        isplitl [HO]; · iexact HO
        isplitl [HS]; · iexact HS
        iintro ⟨H0, H1, H2, HO, ⟨%es, HS⟩⟩
        isplitl [B0 B1 B2 B3 B4 B5 HS Hg]
        · isplitl [B0 B1 B2 B3 B4 B5 HS]
          · isplitl [B0]; · iexact B0
            isplitl [B1]; · iexact B1
            isplitl [B2]; · iexact B2
            isplitl [B3]; · iexact B3
            isplitl [B4]; · iexact B4
            isplitl [B5]; · iexact B5
            unfold owns; iexists _; isplitr
            swap; · iexact HS
            ipureintro; exact View.read_writes_of_cover _ _ _ _ _ (accCoverFirst1 c _ _ _ _ _ _ _ _ _ _ _ _ _ _ _ _)
          iexact Hg
        isplitl [Ho]; · iexact Ho
        isplitl [H0]; · iexact H0
        isplitl [H1]; · iexact H1
        isplitl [H2]; · iexact H2
        iexists _; iexact HO
      · rw [inv1_castSucc V c t, inv1_pos V c _ _ hz]
        iintro ⟨⟨⟨B0, B1, B2, B3, B4, B5, HS⟩, Hg⟩, Ho, ⟨%d0, H0⟩, ⟨%d1, H1⟩, ⟨%d2, H2⟩, ⟨%dO, HO⟩⟩
        iapply ((runFirst1 c (grid1.coords t) _ _ _ _ _ _ _ _ _ _ ((first1_iff t).mpr h0) hl (blk1 V c 0 t) (blk1 V c 1 t) (blk1 V c 2 t)).2.2 _ Set.univ _)
        isplitl [H0]; · iexact H0
        isplitl [H1]; · iexact H1
        isplitl [H2]; · iexact H2
        isplitl [HO]; · iexact HO
        isplitl [HS]; · iexists _; iexact HS
        iintro ⟨H0, H1, H2, HO, ⟨%es, HS⟩⟩
        isplitl [B0 B1 B2 B3 B4 B5 HS Hg]
        · isplitl [B0 B1 B2 B3 B4 B5 HS]
          · isplitl [B0]; · iexact B0
            isplitl [B1]; · iexact B1
            isplitl [B2]; · iexact B2
            isplitl [B3]; · iexact B3
            isplitl [B4]; · iexact B4
            isplitl [B5]; · iexact B5
            unfold owns; iexists _; isplitr
            swap; · iexact HS
            ipureintro; exact View.read_writes_of_cover _ _ _ _ _ (accCoverFirst1 c _ _ _ _ _ _ _ _ _ _ _ _ _ _ _ _)
          iexact Hg
        isplitl [Ho]; · iexact Ho
        isplitl [H0]; · iexact H0
        isplitl [H1]; · iexact H1
        isplitl [H2]; · iexact H2
        iexists _; iexact HO
    · have hz : t.val ≠ 0 := by omega
      rw [tileAcc1_mid V c t h0 h1]
      unfold accMid1; (try dsimp only)
      rw [inv1_castSucc V c t, inv1_pos V c _ _ hz]
      iintro ⟨⟨⟨B0, B1, B2, B3, B4, B5, HS⟩, Hg⟩, Ho, ⟨%d0, H0⟩, ⟨%d1, H1⟩, ⟨%d2, H2⟩, ⟨%dO, HO⟩⟩
      iapply ((runMid1 c (grid1.coords t) _ _ _ _ _ _ _ _ _ _ (fun h => h0 ((first1_iff t).mp h)) hl (blk1 V c 0 t) (blk1 V c 1 t) (blk1 V c 2 t) _).2.2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [B0 B1 B2 B3 B4 B5 HS Hg]
      · isplitl [B0 B1 B2 B3 B4 B5 HS]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS
          ipureintro; exact View.read_writes_of_cover _ _ _ _ _ (accCoverMid1 c _ _ _ _ _ _ _ _ _ _ _ _ _ _ _ _ _)
        iexact Hg
      isplitl [Ho]; · iexact Ho
      isplitl [H0]; · iexact H0
      isplitl [H1]; · iexact H1
      isplitl [H2]; · iexact H2
      iexists _; iexact HO

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives the same back, the accumulator's contents forgotten. -/
theorem leave1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = inv1 V c (Fin.last cfg1.N).val (Nat.le_of_lt_succ (Fin.last cfg1.N).isLt) from rfl, inv1_pos V c _ _ ht, restA1_eq]
  iintro ⟨⟨B0, B1, B2, B3, B4, B5, HS⟩, Hg⟩
  isplitl [B0 B1 B2 B3 B4 B5 HS]
  · isplitl [B0]; · iexact B0
    isplitl [B1]; · iexact B1
    isplitl [B2]; · iexact B2
    isplitl [B3]; · iexact B3
    isplitl [B4]; · iexact B4
    isplitl [B5]; · iexact B5
    iexists _; iexact HS
  iexact Hg

end Cert.Kernel.Frame

end
-- ==== Proof.WordTwoProducts.lean ====
/-
  (For the program as printed, its floats bit patterns and its operations the hardware's: the statements below do
  not depend on how floats are read, and are the same as for the exact reading.)
  The run of @main: the host stretch that prepares xm and the coefficients, the first product, the second product.
  The contents of every unscoped buffer at each boundary, as a fold from the launch memory: the host operations
  applied, then the first product's arrays at what its write-backs leave, then the second product's. Each region
  enters from the buffers at the boundary's contents, hands its own scoped buffers and the generator register to its
  invariant, and leaves the buffers at the next boundary's contents. Every weakly fair execution terminates with every
  unscoped buffer at the last boundary's contents; in particular no argument array has changed.
-/
import proofs.«111915_j83854941487389_2_alg».proof.Proof.WordToBasisFrame
import proofs.«111915_j83854941487389_2_alg».proof.Proof.WordFromBasisFrame
import proofs.«111915_j83854941487389_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev atLaunch : Dev nD → Valuation τ sig (Elt F) := fun c b => (s₀ m ρ).mem ((c : Dev nD), b)
/-- After the host stretch: the first product's entry. -/
abbrev atEntry : Dev nD → Valuation τ sig (Elt F) := fun c => StableHlo.after hostOps0 (atLaunch m ρ c)
abbrev entryV : (c : Dev nD) → (b : Ref sig .tc) → Buf (Elt F) ((c : Thread nD τ).loc b) := fun c b => atEntry m ρ c b
/-- After the first product: its arrays at what the pipeline leaves, every other buffer as entered. -/
def atMid (c : Dev nD) : Valuation τ sig (Elt F) :=
  Pipeline.withArrays spec0 c (atEntry m ρ c) fun w => (dat0 (entryV m ρ) c).arrAt w cfg0.N
theorem atMid_arr (c : Dev nD) (w : Fin cfg0.W) :
    atMid m ρ c (Proc.devRef .tc (Pipeline.arrRef spec0 w)) = (dat0 (entryV m ρ) c).arrAt w cfg0.N := by
  unfold atMid; exact Pipeline.withArrays_arr spec0 launch0.win.arr_inj c _ _ w
theorem atMid_of_ne (c : Dev nD) (b : Ref sig .tc) (hb : ∀ w, Pipeline.arrRef spec0 w ≠ b) :
    atMid m ρ c (Proc.devRef .tc b) = atEntry m ρ c (Proc.devRef .tc b) := by
  unfold atMid; exact Pipeline.withArrays_of_ne spec0 c _ _ b hb
abbrev midV : (c : Dev nD) → (b : Ref sig .tc) → Buf (Elt F) ((c : Thread nD τ).loc b) := fun c b => atMid m ρ c b
theorem left0 (c : Dev nD) (w : Fin cfg0.W) : (dat0 (entryV m ρ) c).arrAt w cfg0.N = midV m ρ c (Pipeline.arrRef spec0 w) :=
  (atMid_arr m ρ c w).symm
theorem kept0 (c : Dev nD) : ∀ b, b ∉ Finset.univ.image (Pipeline.arrRef spec0) → midV m ρ c b = entryV m ρ c b :=
  fun b hb => atMid_of_ne m ρ c b fun w e => hb (Finset.mem_image.mpr ⟨w, Finset.mem_univ _, e⟩)
/-- After the second product. -/
def atEnd (c : Dev nD) : Valuation τ sig (Elt F) :=
  Pipeline.withArrays spec1 c (atMid m ρ c) fun w => (dat1 (midV m ρ) c).arrAt w cfg1.N
theorem atEnd_arr (c : Dev nD) (w : Fin cfg1.W) :
    atEnd m ρ c (Proc.devRef .tc (Pipeline.arrRef spec1 w)) = (dat1 (midV m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = atMid m ρ c (Proc.devRef .tc b) := by
  unfold atEnd; exact Pipeline.withArrays_of_ne spec1 c _ _ b hb
abbrev endV : (c : Dev nD) → (b : Ref sig .tc) → Buf (Elt F) ((c : Thread nD τ).loc b) := fun c b => atEnd m ρ c b
theorem left1 (c : Dev nD) (w : Fin cfg1.W) : (dat1 (midV m ρ) c).arrAt w cfg1.N = endV m ρ c (Pipeline.arrRef spec1 w) :=
  (atEnd_arr m ρ c w).symm
theorem kept1 (c : Dev nD) : ∀ b, b ∉ Finset.univ.image (Pipeline.arrRef spec1) → endV m ρ c b = midV m ρ c b :=
  fun b hb => atEnd_of_ne m ρ c b fun w e => hb (Finset.mem_image.mpr ⟨w, Finset.mem_univ _, e⟩)

/-! ## No boundary changes an argument: the host stretch writes none, a region reads evecs through an input window
    and bypasses the others -/

theorem atEnd_main_arg0 (c : Dev nD) : atEnd m ρ c (Proc.devRef .tc main_arg0) = m ((c : Thread nD τ).loc main_arg0) :=
  calc atEnd m ρ c (Proc.devRef .tc main_arg0)
    _ = atMid m ρ c (Proc.devRef .tc main_arg0) := atEnd_of_ne m ρ c main_arg0 (by decide)
    _ = atEntry m ρ c (Proc.devRef .tc main_arg0) := atMid_of_ne m ρ c main_arg0 (by decide)
    _ = m ((c : Thread nD τ).loc main_arg0) := Gen.V1_of m c main_arg0 (by decide)
theorem atEnd_main_arg1 (c : Dev nD) : atEnd m ρ c (Proc.devRef .tc main_arg1) = m ((c : Thread nD τ).loc main_arg1) :=
  calc atEnd m ρ c (Proc.devRef .tc main_arg1)
    _ = atMid m ρ c (Proc.devRef .tc main_arg1) := atEnd_of_ne m ρ c main_arg1 (by decide)
    _ = atEntry m ρ c (Proc.devRef .tc main_arg1) := atMid_of_ne m ρ c main_arg1 (by decide)
    _ = m ((c : Thread nD τ).loc main_arg1) := Gen.V1_of m c main_arg1 (by decide)
theorem atEnd_main_arg2 (c : Dev nD) : atEnd m ρ c (Proc.devRef .tc main_arg2) = m ((c : Thread nD τ).loc main_arg2) :=
  calc atEnd m ρ c (Proc.devRef .tc main_arg2)
    _ = atMid m ρ c (Proc.devRef .tc main_arg2) := atEnd_of_ne m ρ c main_arg2 (by decide)
    _ = atEntry m ρ c (Proc.devRef .tc main_arg2) := atMid_of_ne m ρ c main_arg2 (by decide)
    _ = m ((c : Thread nD τ).loc main_arg2) := Gen.V1_of m c main_arg2 (by decide)
theorem atEnd_main_arg3 (c : Dev nD) : atEnd m ρ c (Proc.devRef .tc main_arg3) = m ((c : Thread nD τ).loc main_arg3) :=
  calc atEnd m ρ c (Proc.devRef .tc main_arg3)
    _ = atMid m ρ c (Proc.devRef .tc main_arg3) := atEnd_of_ne m ρ c main_arg3 (by decide)
    _ = atEntry m ρ c (Proc.devRef .tc main_arg3) := atMid_of_ne m ρ c main_arg3 (by decide)
    _ = m ((c : Thread nD τ).loc main_arg3) := Gen.V1_of m c main_arg3 (by decide)
theorem atEnd_main_arg4 (c : Dev nD) : atEnd m ρ c (Proc.devRef .tc main_arg4) = m ((c : Thread nD τ).loc main_arg4) :=
  calc atEnd m ρ c (Proc.devRef .tc main_arg4)
    _ = atMid m ρ c (Proc.devRef .tc main_arg4) := atEnd_of_ne m ρ c main_arg4 (by decide)
    _ = atEntry m ρ c (Proc.devRef .tc main_arg4) := atMid_of_ne m ρ c main_arg4 (by decide)
    _ = m ((c : Thread nD τ).loc main_arg4) := Gen.V1_of m c main_arg4 (by decide)
theorem atEnd_main_arg5 (c : Dev nD) : atEnd m ρ c (Proc.devRef .tc main_arg5) = m ((c : Thread nD τ).loc main_arg5) :=
  calc atEnd m ρ c (Proc.devRef .tc main_arg5)
    _ = atMid m ρ c (Proc.devRef .tc main_arg5) := atEnd_of_ne m ρ c main_arg5 (by decide)
    _ = atEntry m ρ c (Proc.devRef .tc main_arg5) := atMid_of_ne m ρ c main_arg5 (by decide)
    _ = m ((c : Thread nD τ).loc main_arg5) := Gen.V1_of m c main_arg5 (by decide)
theorem atEnd_main_arg6 (c : Dev nD) : atEnd m ρ c (Proc.devRef .tc main_arg6) = m ((c : Thread nD τ).loc main_arg6) :=
  calc atEnd m ρ c (Proc.devRef .tc main_arg6)
    _ = atMid m ρ c (Proc.devRef .tc main_arg6) := (atEnd_arr m ρ c 0).trans (((dat1 (midV m ρ) c).arrAt_in 0 rfl _).trans (A_eq1 (midV m ρ) c 0))
    _ = atEntry m ρ c (Proc.devRef .tc main_arg6) := (atMid_arr m ρ c 0).trans (((dat0 (entryV m ρ) c).arrAt_in 0 rfl _).trans (A_eq0 (entryV m ρ) c 0))
    _ = m ((c : Thread nD τ).loc main_arg6) := Gen.V1_of m c main_arg6 (by decide)
theorem atEnd_main_arg7 (c : Dev nD) : atEnd m ρ c (Proc.devRef .tc main_arg7) = m ((c : Thread nD τ).loc main_arg7) :=
  calc atEnd m ρ c (Proc.devRef .tc main_arg7)
    _ = atMid m ρ c (Proc.devRef .tc main_arg7) := atEnd_of_ne m ρ c main_arg7 (by decide)
    _ = atEntry m ρ c (Proc.devRef .tc main_arg7) := atMid_of_ne m ρ c main_arg7 (by decide)
    _ = m ((c : Thread nD τ).loc main_arg7) := Gen.V1_of m c main_arg7 (by decide)

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (entryV m ρ) c
  | ⟨1, _⟩ => fun c => dat1 (midV m ρ) c
abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev atReturn (c : Dev nD) : sProp 𝕄 := iprop(StableHlo.held (c : Thread nD τ) (Pipeline.ucRefs τ sig) (atEnd m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entryV m ρ) c).loose
  hwaits := Pipeline.hwaits_of_owed_zero _ _ _ _ L lv 0 fun _ _ => rfl
  pre c := iprop(StableHlo.held (c : Thread nD τ) (Pipeline.ucRefs τ sig) (atEntry m ρ c) ∗ R c)
  post c := iprop(StableHlo.held (c : Thread nD τ) (Pipeline.ucRefs τ sig) (atMid m ρ c) ∗ R c)
  X c := iprop(∃ r, prngReg c r)
  Y c := iprop(∃ r, prngReg c r)
  Z c := Pipeline.unscopedRest (Ix := Unit) (Name := ℕ) (U := UR sig nD τ) (Lvl := ℕ) spec0 c (entryV m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entryV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enter0 (entryV m ρ) c)
    unfold Pipeline.ΦA
    iintro ⟨Hp, -, Hr⟩
    isplitl [Hr]; · iexact Hr
    iexact Hp
  hout c := by
    rw [Pipeline.ownSems0_none]
    refine (leave0 (entryV m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entryV m ρ c) (midV m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (midV m ρ) c).loose
  hwaits := Pipeline.hwaits_of_owed_zero _ _ _ _ L lv 1 fun _ _ => rfl
  pre c := iprop(StableHlo.held (c : Thread nD τ) (Pipeline.ucRefs τ sig) (atMid m ρ c) ∗ R c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (midV m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (midV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enter1 (midV m ρ) c)
    unfold Pipeline.ΦA
    iintro ⟨Hp, -, Hr⟩
    isplitl [Hr]; · iexact Hr
    iexact Hp
  hout c := by
    rw [Pipeline.ownSems0_none]
    refine (leave1 (midV m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (midV m ρ c) (endV m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (atLaunch m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := atReturn m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_arg0 (by decide))).trans (atEnd_main_arg0 m ρ c),
    (h c _ (mem_uc main_arg1 (by decide))).trans (atEnd_main_arg1 m ρ c),
    (h c _ (mem_uc main_arg2 (by decide))).trans (atEnd_main_arg2 m ρ c),
    (h c _ (mem_uc main_arg3 (by decide))).trans (atEnd_main_arg3 m ρ c),
    (h c _ (mem_uc main_arg4 (by decide))).trans (atEnd_main_arg4 m ρ c),
    (h c _ (mem_uc main_arg5 (by decide))).trans (atEnd_main_arg5 m ρ c),
    (h c _ (mem_uc main_arg6 (by decide))).trans (atEnd_main_arg6 m ρ c),
    (h c _ (mem_uc main_arg7 (by decide))).trans (atEnd_main_arg7 m ρ c)⟩) (run_all m ρ)

end Cert.Kernel.Frame

end
-- ==== Proof.ToBasisSetup.lean ====
/-
  The first product, x_spec = evecsᵀ · xm, as a pipelined kernel over the grid 8 × 4 (row tile i of the result, block k
  of the contracted axis): what is shared by the three control cases of its body. The body zeroes a 1024 × 128
  accumulator when k = 0, adds the product of the point's evecs block (rows 2048k.., columns 1024i..) with rows
  2048k.. of xm at every point, and copies the accumulator into the result tile when k = 3. Here: each window's block
  at a point as a function of the arrays the region is entered with, the two branch conditions in closed form over
  the grid, and where the result window is idle (every point with k ≠ 3: nothing is stored, nothing written back).
-/
import proofs.«111915_j83854941487389_2_alg».proof.Proof.Gen.KernelIdeal.Launch
import proofs.«111915_j83854941487389_2_alg».proof.Proof.Gen.KernelIdeal.Skeleton
import proofs.«111915_j83854941487389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, per core: the parameter everything below is stated at
variable (V : (c : Dev nD) → (b : Ref sig .tc) → Buf (Elt F) ((c : Thread nD τ).loc b))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The evecs window holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The xm window (one block: the whole array, fetched once) holds it at every point. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The two branch conditions -/

/-- k = 0: the accumulator is reset. -/
abbrev first0 (i : grid0.Coords) : Prop := (Scalar.cmpi .ne (Scalar.extui (Scalar.cmpi .eq (BitVec.ofNat 32 (i 1).val) 0#32)) 0#32) = 1#1
theorem first0_iff : ∀ t : Fin cfg0.N, first0 (grid0.coords t) ↔ t.val % 4 = 0 :=
  (by decide +kernel : ∀ t : Fin grid0.N, first0 (grid0.coords t) ↔ t.val % 4 = 0)

/-- k = 3: the accumulator is copied out. -/
abbrev last0 (i : grid0.Coords) : Prop := k0_cond2 i = 1#1
theorem last0_iff : ∀ t : Fin cfg0.N, last0 (grid0.coords t) ↔ t.val % 4 = 3 :=
  (by decide +kernel : ∀ t : Fin grid0.N, last0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Away from k = 3 nothing is stored into the result window and its block is not written back. -/
theorem idle0_2 : ∀ t : Fin cfg0.N, ¬last0 (grid0.coords t) → cfg0.idle 2 (grid0.coords t) = true := by decide +kernel
theorem noFlush0_2 : ∀ t : Fin cfg0.N, ¬last0 (grid0.coords t) → (cfg0.win 2).flush t = false := by decide +kernel
theorem live0_2 : ∀ t : Fin cfg0.N, last0 (grid0.coords t) → cfg0.idle 2 (grid0.coords t) = false := by decide +kernel

/-! ## The memrefs the body is called with -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a scoped buffer of the kernel's own. -/
abbrev acc0 : Memref sig .tc .vmem S1024x128 .f32 := Memref.whole cc0_scratch0
abbrev accView0 : View sig .tc .vmem S1024x128 .f32 := acc0.view
/-- One staging buffer of the result window, through which its contents are stated. -/
abbrev outView0 : View sig .tc .vmem S1024x128 .f32 := (Memref.whole cc0_stg2_0 : Memref sig .tc .vmem S1024x128 .f32).view

/-- The scoped buffers the kernel never touches: the second kernel's staging buffers and accumulator. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the region hands the body besides the windows: the accumulator at some contents, the untouched scoped
    buffers, the generator register. -/
theorem restA0_eq (c : Dev nD) :
    (Pipeline.ΦA spec0 c : sProp 𝕄)
      = iprop(iprop((∃ d, owns (c : Thread nD τ) acc0 fullShare d) ∗ others0 c) ∗ (∃ r, prngReg c r)) := by
  unfold Pipeline.ΦA; rw [scopedRest0_eq]; simp only [acc0, owns_whole]; try rfl

end Cert.KernelIdeal.Frame

end
-- ==== Proof.ToBasisRuns.lean ====
/-
  The body of the first product run once per control case, on any whole staging memrefs: the evecs block and the xm
  array at read contents, the result tile's buffer handed back untouched where k ≠ 3, the accumulator at what the point
  before left (at anything where k = 0, which overwrites it). Each run ends holding the accumulator with the stores
  of that case written over it, as a list of pieces (last first) that the run itself finds; where k = 3 the result
  tile's buffer likewise.
-/
import proofs.«111915_j83854941487389_2_alg».proof.Proof.Gen.KernelIdeal.Launch
import proofs.«111915_j83854941487389_2_alg».proof.Proof.Gen.KernelIdeal.Skeleton
import proofs.«111915_j83854941487389_2_alg».proof.Proof.Gen.KernelIdeal.Points
import proofs.«111915_j83854941487389_2_alg».proof.Proof.ToBasisSetup
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: reset, then add the point's product. -/
noncomputable def runFirst0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : first0 i) (hc1 : ¬last0 i)
    (x0 : Vec F S2048x1024 .f32) (x1 : Vec F S8192x128 .bf16) :
    Σ' (L2 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__matmul1_kernel i arg2 harg2 arg3 harg3 arg4 harg4 arg5 harg5) K } := by
  refine ⟨[], ?_, fun xi E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- 0 < k < 3: add the point's product. -/
noncomputable def runMid0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : ¬last0 i)
    (x0 : Vec F S2048x1024 .f32) (x1 : Vec F S8192x128 .bf16) (xs : Vec F S1024x128 .f32) :
    Σ' (L2 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xs
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LS)) -∗ K ⟨⟩))
          ⊢ wp frame (wpE (defs₀ (F := F)) Variants.none c none) E (cc0__matmul1_kernel i arg2 harg2 arg3 harg3 arg4 harg4 arg5 harg5) K } := by
  refine ⟨[], ?_, fun xi E K => ?run⟩
  case run =>
    simp only [cc0__matmul1_kernel_eq_skeleton]; unfold cc0__matmul1_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- k = 3: add the point's product, then copy the accumulator into the result tile. -/
noncomputable def runLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__matmul1_kernel i arg2 harg2 arg3 harg3 arg4 harg4 arg5 harg5) K } := by
  refine ⟨?_, ?_, fun E K => ?run⟩
  case run =>
    simp only [cc0__matmul1_kernel_eq_skeleton]; unfold cc0__matmul1_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frame

end
-- ==== Proof.ToBasisFrame.lean ====
/-
  The first product point by point. What the accumulator (and, at k = 3, the result tile's buffer) holds after each
  grid point: by recursion on the point, the case the point is in run on the point's blocks, over what the point
  before left in the accumulator. The region's invariant carries the accumulator at exactly those contents; with it
  the body meets its obligation at every point, and the invariant is what the region is entered with and gives back.
-/
import proofs.«111915_j83854941487389_2_alg».proof.Proof.Gen.KernelIdeal.Launch
import proofs.«111915_j83854941487389_2_alg».proof.Proof.Gen.KernelIdeal.Skeleton
import proofs.«111915_j83854941487389_2_alg».proof.Proof.Gen.KernelIdeal.Points
import proofs.«111915_j83854941487389_2_alg».proof.Proof.ToBasisRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- k = 0 leaves the accumulator covered by its stores. -/
theorem accCoverFirst0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : first0 i) (hc1 : ¬last0 i)
    (x0 : Vec F S2048x1024 .f32) (x1 : Vec F S8192x128 .bf16) (y : S1024x128.Idx) :
    ∃ pc ∈ (runFirst0 c i arg2 harg2 arg3 harg3 arg4 harg4 arg5 harg5 hc0 hc1 x0 x1).2.1, y ∈ pc.1.set :=
  View.cover_of_tiledL (runFirst0 c i arg2 harg2 arg3 harg3 arg4 harg4 arg5 harg5 hc0 hc1 x0 x1).2.1 S1024x128.size (by sl_kernel_rfl) y
def accFirst0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : first0 i) (hc1 : ¬last0 i)
    (x0 : Vec F S2048x1024 .f32) (x1 : Vec F S8192x128 .bf16) : Vec F S1024x128 .f32 :=
  accView0.read (Elt F) (accView0.writes (Elt F) accView0.junk (runFirst0 c i arg2 harg2 arg3 harg3 arg4 harg4 arg5 harg5 hc0 hc1 x0 x1).2.1)

theorem accCoverMid0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : ¬last0 i)
    (x0 : Vec F S2048x1024 .f32) (x1 : Vec F S8192x128 .bf16) (xs : Vec F S1024x128 .f32) (y : S1024x128.Idx) :
    ∃ pc ∈ (runMid0 c i arg2 harg2 arg3 harg3 arg4 harg4 arg5 harg5 hc0 hc1 x0 x1 xs).2.1, y ∈ pc.1.set :=
  View.cover_of_tiledL (runMid0 c i arg2 harg2 arg3 harg3 arg4 harg4 arg5 harg5 hc0 hc1 x0 x1 xs).2.1 S1024x128.size (by sl_kernel_rfl) y
def accMid0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : ¬last0 i)
    (x0 : Vec F S2048x1024 .f32) (x1 : Vec F S8192x128 .bf16) (xs : Vec F S1024x128 .f32) : Vec F S1024x128 .f32 :=
  accView0.read (Elt F) (accView0.writes (Elt F) accView0.junk (runMid0 c i arg2 harg2 arg3 harg3 arg4 harg4 arg5 harg5 hc0 hc1 x0 x1 xs).2.1)

theorem accCoverLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) (y : S1024x128.Idx) :
    ∃ pc ∈ (runLast0 c i arg2 harg2 arg3 harg3 arg4 harg4 arg5 harg5 hc0 hc1 x0 x1 xs).2.1, y ∈ pc.1.set :=
  View.cover_of_tiledL (runLast0 c i arg2 harg2 arg3 harg3 arg4 harg4 arg5 harg5 hc0 hc1 x0 x1 xs).2.1 S1024x128.size (by sl_kernel_rfl) y
def accLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) : Vec F S1024x128 .f32 :=
  accView0.read (Elt F) (accView0.writes (Elt F) accView0.junk (runLast0 c i arg2 harg2 arg3 harg3 arg4 harg4 arg5 harg5 hc0 hc1 x0 x1 xs).2.1)
theorem outCoverLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) (y : S1024x128.Idx) :
    ∃ pc ∈ (runLast0 c i arg2 harg2 arg3 harg3 arg4 harg4 arg5 harg5 hc0 hc1 x0 x1 xs).1, y ∈ pc.1.set :=
  View.cover_of_tiledL (runLast0 c i arg2 harg2 arg3 harg3 arg4 harg4 arg5 harg5 hc0 hc1 x0 x1 xs).1 S1024x128.size (by sl_kernel_rfl) y
def outLast0 (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) : Vec F S1024x128 .f32 :=
  outView0.read (Elt F) (outView0.writes (Elt F) outView0.junk (runLast0 c i arg2 harg2 arg3 harg3 arg4 harg4 arg5 harg5 hc0 hc1 x0 x1 xs).1)

/-! ## Point by point -/

/-- After the body at position `n`: the result tile's buffer (meaningful at k = 3 only; elsewhere the window is idle
    and nothing consults this component) and the accumulator. -/
def tileAcc0 (c : Dev nD) : (n : ℕ) → n < cfg0.N → Vec F S1024x128 .f32 × Vec F S1024x128 .f32
  | 0, hn => (outView0.junk, accFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) acc0 (Memref.isWhole_whole _) ((first0_iff ⟨0, hn⟩).mpr (Nat.zero_mod _)) (fun h => (fun h => by (try dsimp only at h); omega) ((last0_iff ⟨0, hn⟩).mp h)) (blk0 V c 0 ⟨0, hn⟩) (blk0 V c 1 ⟨0, hn⟩))
  | n + 1, hn =>
    if h0 : (n + 1) % 4 = 0 then
      if h1 : (n + 1) % 4 = 3 then
        False.elim (by omega)
      else
        (outView0.junk, accFirst0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) ((first0_iff ⟨n + 1, hn⟩).mpr h0) (fun h => h1 ((last0_iff ⟨n + 1, hn⟩).mp h)) (blk0 V c 0 ⟨n + 1, hn⟩) (blk0 V c 1 ⟨n + 1, hn⟩))
    else
      if h1 : (n + 1) % 4 = 3 then
        (outLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((first0_iff ⟨n + 1, hn⟩).mp h)) ((last0_iff ⟨n + 1, hn⟩).mpr h1) (blk0 V c 0 ⟨n + 1, hn⟩) (blk0 V c 1 ⟨n + 1, hn⟩) (tileAcc0 c n (Nat.lt_of_succ_lt hn)).2,
         accLast0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((first0_iff ⟨n + 1, hn⟩).mp h)) ((last0_iff ⟨n + 1, hn⟩).mpr h1) (blk0 V c 0 ⟨n + 1, hn⟩) (blk0 V c 1 ⟨n + 1, hn⟩) (tileAcc0 c n (Nat.lt_of_succ_lt hn)).2)
      else
        (outView0.junk, accMid0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) acc0 (Memref.isWhole_whole _) (fun h => h0 ((first0_iff ⟨n + 1, hn⟩).mp h)) (fun h => h1 ((last0_iff ⟨n + 1, hn⟩).mp h)) (blk0 V c 0 ⟨n + 1, hn⟩) (blk0 V c 1 ⟨n + 1, hn⟩) (tileAcc0 c n (Nat.lt_of_succ_lt hn)).2)

theorem tileAcc0_first (c : Dev nD) (t : Fin cfg0.N) (h0 : t.val % 4 = 0) (h1 : ¬t.val % 4 = 3) :
    tileAcc0 V c t.val t.isLt = (outView0.junk, accFirst0 c (grid0.coords t) (ms0_0 t) (hs0_0 t) (ms0_1 t) (hs0_1 t) (ms0_2 t) (hs0_2 t) acc0 (Memref.isWhole_whole _) ((first0_iff t).mpr h0) (fun h => h1 ((last0_iff t).mp h)) (blk0 V c 0 t) (blk0 V c 1 t)) := by
  obtain ⟨n, hn⟩ := t
  cases n with
  | zero => exact rfl
  | succ n => exact (dif_pos h0).trans ((dif_neg h1).trans rfl)

theorem tileAcc0_mid (c : Dev nD) (t : Fin cfg0.N) (h0 : ¬t.val % 4 = 0) (h1 : ¬t.val % 4 = 3) :
    tileAcc0 V c t.val t.isLt = (outView0.junk, accMid0 c (grid0.coords t) (ms0_0 t) (hs0_0 t) (ms0_1 t) (hs0_1 t) (ms0_2 t) (hs0_2 t) acc0 (Memref.isWhole_whole _) (fun h => h0 ((first0_iff t).mp h)) (fun h => h1 ((last0_iff t).mp h)) (blk0 V c 0 t) (blk0 V c 1 t) (tileAcc0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem tileAcc0_last (c : Dev nD) (t : Fin cfg0.N) (h0 : ¬t.val % 4 = 0) (h1 : t.val % 4 = 3) :
    tileAcc0 V c t.val t.isLt = (outLast0 c (grid0.coords t) (ms0_0 t) (hs0_0 t) (ms0_1 t) (hs0_1 t) (ms0_2 t) (hs0_2 t) acc0 (Memref.isWhole_whole _) (fun h => h0 ((first0_iff t).mp h)) ((last0_iff t).mpr h1) (blk0 V c 0 t) (blk0 V c 1 t) (tileAcc0 V c (t.val - 1) (Nat.lt_of_le_of_lt (Nat.sub_le _ _) t.isLt)).2,
      accLast0 c (grid0.coords t) (ms0_0 t) (hs0_0 t) (ms0_1 t) (hs0_1 t) (ms0_2 t) (hs0_2 t) acc0 (Memref.isWhole_whole _) (fun h => h0 ((first0_iff t).mp h)) ((last0_iff t).mpr h1) (blk0 V c 0 t) (blk0 V c 1 t) (tileAcc0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry whatever the launch hands over; afterwards the accumulator
    at what the point before left, the untouched scoped buffers, the generator register. -/
def inv0 (c : Dev nD) : (n : ℕ) → n ≤ cfg0.N → sProp 𝕄
  | 0, _ => Pipeline.ΦA spec0 c
  | n + 1, hn => iprop(iprop(owns (c : Thread nD τ) acc0 fullShare ((tileAcc0 V c n hn).2) ∗ others0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop(iprop(owns (c : Thread nD τ) acc0 fullShare ((tileAcc0 V c n hn).2) ∗ others0 c) ∗ (∃ r, prngReg c r)) := rfl
theorem inv0_pos (c : Dev nD) (n : ℕ) (h : n ≤ cfg0.N) (hz : n ≠ 0) :
    inv0 V c n h = iprop(iprop(owns (c : Thread nD τ) acc0 fullShare ((tileAcc0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => (tileAcc0 V c t.val t.isLt).1
  Φ t := inv0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem inv0_castSucc (c : Dev nD) (t : Fin cfg0.N) :
    (dat0 V c).Φ t.castSucc = inv0 V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = (tileAcc0 V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  by_cases h1 : t.val % 4 = 3
  · have h0 : ¬t.val % 4 = 0 := by omega
    have hz : t.val ≠ 0 := by omega
    rw [show (dat0 V c).leavesExact 2 t = owns (c : Thread nD τ) (ms0_2 t) fullShare ((dat0 V c).after 2 t) from by
      unfold Dat.leavesExact; rw [live0_2 t ((last0_iff t).mpr h1)], after0_2]
    rw [tileAcc0_last V c t h0 h1]
    unfold outLast0 accLast0; (try dsimp only)
    rw [inv0_castSucc V c t, inv0_pos V c _ _ hz]
    iintro ⟨⟨⟨HS, Hoth⟩, Hg⟩, Ho, ⟨%d0, H0⟩, ⟨%d1, H1⟩, ⟨%d2, H2⟩⟩
    iapply ((runLast0 c (grid0.coords t) _ _ _ _ _ _ _ _ (fun h => h0 ((first0_iff t).mp h)) ((last0_iff t).mpr h1) (blk0 V c 0 t) (blk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (accCoverLast0 c _ _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (outCoverLast0 c _ _ _ _ _ _ _ _ _ _ _ _ _ _)
  · have hl : ¬last0 (grid0.coords t) := fun h => h1 ((last0_iff t).mp h)
    rw [Dat.leavesExact_idle (dat0 V c) 2 t (idle0_2 t hl) (noFlush0_2 t hl)]
    by_cases h0 : t.val % 4 = 0
    · rw [tileAcc0_first V c t h0 h1]
      unfold accFirst0; (try dsimp only)
      by_cases hz : t.val = 0
      · rw [inv0_castSucc V c t, inv0_zero V c _ _ hz, restA0_eq]
        iintro ⟨⟨⟨HS, Hoth⟩, Hg⟩, Ho, ⟨%d0, H0⟩, ⟨%d1, H1⟩, ⟨%d2, H2⟩⟩
        iapply ((runFirst0 c (grid0.coords t) _ _ _ _ _ _ _ _ ((first0_iff t).mpr h0) hl (blk0 V c 0 t) (blk0 V c 1 t)).2.2 _ Set.univ _)
        isplitl [H0]; · iexact H0
        isplitl [H1]; · iexact H1
        isplitl [H2]; · iexact H2
        isplitl [HS]; · iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst0 c _ _ _ _ _ _ _ _ _ _ _ _ _)
            iexact Hoth
          iexact Hg
        isplitl [Ho]; · iexact Ho
        isplitl [H0]; · iexact H0
        isplitl [H1]; · iexact H1
        iexists _; iexact H2
      · rw [inv0_castSucc V c t, inv0_pos V c _ _ hz]
        iintro ⟨⟨⟨HS, Hoth⟩, Hg⟩, Ho, ⟨%d0, H0⟩, ⟨%d1, H1⟩, ⟨%d2, H2⟩⟩
        iapply ((runFirst0 c (grid0.coords t) _ _ _ _ _ _ _ _ ((first0_iff t).mpr h0) hl (blk0 V c 0 t) (blk0 V c 1 t)).2.2 _ Set.univ _)
        isplitl [H0]; · iexact H0
        isplitl [H1]; · iexact H1
        isplitl [H2]; · iexact H2
        isplitl [HS]; · iexists _; iexact HS
        iintro ⟨H0, H1, H2, ⟨%es, HS⟩⟩
        isplitl [HS Hoth Hg]
        · isplitl [HS Hoth]
          · isplitl [HS]
            · unfold owns; iexists _; isplitr
              swap; · iexact HS
              ipureintro; exact View.read_writes_of_cover _ _ _ _ _ (accCoverFirst0 c _ _ _ _ _ _ _ _ _ _ _ _ _)
            iexact Hoth
          iexact Hg
        isplitl [Ho]; · iexact Ho
        isplitl [H0]; · iexact H0
        isplitl [H1]; · iexact H1
        iexists _; iexact H2
    · have hz : t.val ≠ 0 := by omega
      rw [tileAcc0_mid V c t h0 h1]
      unfold accMid0; (try dsimp only)
      rw [inv0_castSucc V c t, inv0_pos V c _ _ hz]
      iintro ⟨⟨⟨HS, Hoth⟩, Hg⟩, Ho, ⟨%d0, H0⟩, ⟨%d1, H1⟩, ⟨%d2, H2⟩⟩
      iapply ((runMid0 c (grid0.coords t) _ _ _ _ _ _ _ _ (fun h => h0 ((first0_iff t).mp h)) hl (blk0 V c 0 t) (blk0 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accCoverMid0 c _ _ _ _ _ _ _ _ _ _ _ _ _ _)
          iexact Hoth
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem enter0 (c : Dev nD) : Pipeline.ΦA spec0 c ⊢ (dat0 V c).Φ 0 := by
  rw [show (dat0 V c).Φ 0 = inv0 V c 0 (Nat.zero_le _) from rfl, inv0_zero V c 0 _ rfl]
  try exact Idealize.SL.BI.Entails.refl _

/-- After the last point the invariant gives the same back, the accumulator's contents forgotten. -/
theorem leave0 (c : Dev nD) : (dat0 V c).Φ (Fin.last cfg0.N) ⊢ Pipeline.ΦA spec0 c := by
  have ht : (Fin.last cfg0.N).val ≠ 0 := by rw [Fin.val_last]; have : cfg0.N = 32 := N_0; omega
  rw [show (dat0 V c).Φ (Fin.last cfg0.N) = inv0 V c (Fin.last cfg0.N).val (Nat.le_of_lt_succ (Fin.last cfg0.N).isLt) from rfl, inv0_pos V c _ _ ht, restA0_eq]
  iintro ⟨⟨HS, Hoth⟩, Hg⟩
  isplitl [HS Hoth]
  · isplitl [HS]
    · iexists _; iexact HS
    iexact Hoth
  iexact Hg

end Cert.KernelIdeal.Frame

end
-- ==== Proof.FromBasisSetup.lean ====
/-
  The second product, x_diffuse = evecs · (x_spec ⊙ coefs), as a pipelined kernel over the grid 8 × 4 (row tile i of
  the result, block k of the contracted axis): what is shared by the three control cases of its body. The body zeroes
  a 1024 × 128 accumulator when k = 0, adds the product of the point's evecs block (rows 1024i.., columns 2048k..) with
  rows 2048k.. of x_spec ⊙ coefs at every point, and copies the accumulator into the result tile when k = 3. Here: each
  window's block at a point as a function of the arrays the region is entered with, the two branch conditions in closed
  form over the grid, and where the result window is idle (every point with k ≠ 3).
-/
import proofs.«111915_j83854941487389_2_alg».proof.Proof.Gen.KernelIdeal.Launch
import proofs.«111915_j83854941487389_2_alg».proof.Proof.Gen.KernelIdeal.Skeleton
import proofs.«111915_j83854941487389_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the region finds them, per core: the parameter everything below is stated at
variable (V : (c : Dev nD) → (b : Ref sig .tc) → Buf (Elt F) ((c : Thread nD τ).loc b))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The evecs window holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The x_spec window (one block: the whole array, fetched once) holds it at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The coefficient window (one block: the whole array, fetched once) holds it at every point. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The two branch conditions -/

/-- k = 0: the accumulator is reset. -/
abbrev first1 (i : grid1.Coords) : Prop := (Scalar.cmpi .ne (Scalar.extui (Scalar.cmpi .eq (BitVec.ofNat 32 (i 1).val) 0#32)) 0#32) = 1#1
theorem first1_iff : ∀ t : Fin cfg1.N, first1 (grid1.coords t) ↔ t.val % 4 = 0 :=
  (by decide +kernel : ∀ t : Fin grid1.N, first1 (grid1.coords t) ↔ t.val % 4 = 0)

/-- k = 3: the accumulator is copied out. -/
abbrev last1 (i : grid1.Coords) : Prop := k1_cond2 i = 1#1
theorem last1_iff : ∀ t : Fin cfg1.N, last1 (grid1.coords t) ↔ t.val % 4 = 3 :=
  (by decide +kernel : ∀ t : Fin grid1.N, last1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Away from k = 3 nothing is stored into the result window and its block is not written back. -/
theorem idle1_3 : ∀ t : Fin cfg1.N, ¬last1 (grid1.coords t) → cfg1.idle 3 (grid1.coords t) = true := by decide +kernel
theorem noFlush1_3 : ∀ t : Fin cfg1.N, ¬last1 (grid1.coords t) → (cfg1.win 3).flush t = false := by decide +kernel
theorem live1_3 : ∀ t : Fin cfg1.N, last1 (grid1.coords t) → cfg1.idle 3 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8192x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a scoped buffer of the kernel's own. -/
abbrev acc1 : Memref sig .tc .vmem S1024x128 .f32 := Memref.whole cc1_scratch0
abbrev accView1 : View sig .tc .vmem S1024x128 .f32 := acc1.view
/-- One staging buffer of the result window, through which its contents are stated. -/
abbrev outView1 : View sig .tc .vmem S1024x128 .f32 := (Memref.whole cc1_stg3_0 : Memref sig .tc .vmem S1024x128 .f32).view

/-- What the region hands the body besides the windows: the accumulator at some contents, the scoped buffers the
    kernel never touches, the generator register. -/
theorem restA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) acc1 fullShare d)) ∗ (∃ r, prngReg c r)) := by
  unfold Pipeline.ΦA; rw [scopedRest1_eq]; simp only [acc1, owns_whole]; try rfl

end Cert.KernelIdeal.Frame

end
-- ==== Proof.FromBasisRuns.lean ====
/-
  The body of the second product run once per control case, on any whole staging memrefs: the evecs block, the x_spec
  array and the coefficient array at read contents, the result tile's buffer handed back untouched where k ≠ 3, the
  accumulator at what the point before left (at anything where k = 0, which overwrites it). Each run ends holding the
  accumulator with the stores of that case written over it, as a list of pieces (last first) that the run itself
  finds; where k = 3 the result tile's buffer likewise.
-/
import proofs.«111915_j83854941487389_2_alg».proof.Proof.Gen.KernelIdeal.Launch
import proofs.«111915_j83854941487389_2_alg».proof.Proof.Gen.KernelIdeal.Skeleton
import proofs.«111915_j83854941487389_2_alg».proof.Proof.Gen.KernelIdeal.Points
import proofs.«111915_j83854941487389_2_alg».proof.Proof.FromBasisSetup
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- k = 0: reset, then add the point's product. -/
noncomputable def runFirst1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : first1 i) (hc1 : ¬last1 i)
    (x0 : Vec F S1024x2048 .f32) (x1 : Vec F S8192x128 .f32) (x2 : Vec F S8192x128 .f32) :
    Σ' (L2 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__matmul2_kernel i arg2 harg2 arg3 harg3 arg4 harg4 arg5 harg5 arg6 harg6) K } := by
  refine ⟨[], ?_, fun xi E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%fo, %hfo, HO⟩, ⟨%ds, %fs, -, HS⟩, Hk⟩
    obtain rfl := harg2.eq_unread hf0; obtain rfl := harg3.eq_unread hf1; obtain rfl := harg4.eq_unread hf2; obtain rfl := harg5.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 1000000 in
/-- 0 < k < 3: add the point's product. -/
noncomputable def runMid1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : ¬last1 i)
    (x0 : Vec F S1024x2048 .f32) (x1 : Vec F S8192x128 .f32) (x2 : Vec F S8192x128 .f32) (xs : Vec F S1024x128 .f32) :
    Σ' (L2 : List (View.Piece (Elt F) S1024x128 .f32)), { LS : List (View.Piece (Elt F) S1024x128 .f32) //
      ∀ (xi : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__matmul2_kernel i arg2 harg2 arg3 harg3 arg4 harg4 arg5 harg5 arg6 harg6) K } := by
  refine ⟨[], ?_, fun xi E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%fo, %hfo, HO⟩, ⟨%fs, %hfs, HS⟩, Hk⟩
    obtain rfl := harg2.eq_unread hf0; obtain rfl := harg3.eq_unread hf1; obtain rfl := harg4.eq_unread hf2; obtain rfl := harg5.eq_unread hfo; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]
    · iexists _; isplitr; · ipureintro; exact harg5.read_unread _
      iexact HO
    iexists _; iexact HS

set_option maxHeartbeats 1000000 in
/-- k = 3: add the point's product, then copy the accumulator into the result tile. -/
noncomputable def runLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) :
    Σ' (L2 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__matmul2_kernel i arg2 harg2 arg3 harg3 arg4 harg4 arg5 harg5 arg6 harg6) K } := by
  refine ⟨?_, ?_, fun E K => ?run⟩
  case run =>
    simp only [cc1__matmul2_kernel_eq_skeleton]; unfold cc1__matmul2_kernel_skel
    unfold owns
    iintro ⟨⟨%f0, %hf0, H0⟩, ⟨%f1, %hf1, H1⟩, ⟨%f2, %hf2, H2⟩, ⟨%dO, %fo, -, HO⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HO]; · iexists _; iexact HO
    iexists _; iexact HS

end Cert.KernelIdeal.Frame

end
-- ==== Proof.FromBasisFrame.lean ====
/-
  The second product point by point. What the accumulator (and, at k = 3, the result tile's buffer) holds after each
  grid point: by recursion on the point, the case the point is in run on the point's blocks, over what the point
  before left in the accumulator. The region's invariant carries the accumulator at exactly those contents; with it
  the body meets its obligation at every point, and the invariant is what the region is entered with and gives back.
-/
import proofs.«111915_j83854941487389_2_alg».proof.Proof.Gen.KernelIdeal.Launch
import proofs.«111915_j83854941487389_2_alg».proof.Proof.Gen.KernelIdeal.Skeleton
import proofs.«111915_j83854941487389_2_alg».proof.Proof.Gen.KernelIdeal.Points
import proofs.«111915_j83854941487389_2_alg».proof.Proof.FromBasisRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Each case's stores tile the accumulator, so they cover it; what the case leaves in it is those stores read back. -/
theorem accCoverFirst1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : first1 i) (hc1 : ¬last1 i)
    (x0 : Vec F S1024x2048 .f32) (x1 : Vec F S8192x128 .f32) (x2 : Vec F S8192x128 .f32) (y : S1024x128.Idx) :
    ∃ pc ∈ (runFirst1 c i arg2 harg2 arg3 harg3 arg4 harg4 arg5 harg5 arg6 harg6 hc0 hc1 x0 x1 x2).2.1, y ∈ pc.1.set :=
  View.cover_of_tiledL (runFirst1 c i arg2 harg2 arg3 harg3 arg4 harg4 arg5 harg5 arg6 harg6 hc0 hc1 x0 x1 x2).2.1 S1024x128.size (by sl_kernel_rfl) y
def accFirst1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : first1 i) (hc1 : ¬last1 i)
    (x0 : Vec F S1024x2048 .f32) (x1 : Vec F S8192x128 .f32) (x2 : Vec F S8192x128 .f32) : Vec F S1024x128 .f32 :=
  accView1.read (Elt F) (accView1.writes (Elt F) accView1.junk (runFirst1 c i arg2 harg2 arg3 harg3 arg4 harg4 arg5 harg5 arg6 harg6 hc0 hc1 x0 x1 x2).2.1)

theorem accCoverMid1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : ¬last1 i)
    (x0 : Vec F S1024x2048 .f32) (x1 : Vec F S8192x128 .f32) (x2 : Vec F S8192x128 .f32) (xs : Vec F S1024x128 .f32) (y : S1024x128.Idx) :
    ∃ pc ∈ (runMid1 c i arg2 harg2 arg3 harg3 arg4 harg4 arg5 harg5 arg6 harg6 hc0 hc1 x0 x1 x2 xs).2.1, y ∈ pc.1.set :=
  View.cover_of_tiledL (runMid1 c i arg2 harg2 arg3 harg3 arg4 harg4 arg5 harg5 arg6 harg6 hc0 hc1 x0 x1 x2 xs).2.1 S1024x128.size (by sl_kernel_rfl) y
def accMid1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : ¬last1 i)
    (x0 : Vec F S1024x2048 .f32) (x1 : Vec F S8192x128 .f32) (x2 : Vec F S8192x128 .f32) (xs : Vec F S1024x128 .f32) : Vec F S1024x128 .f32 :=
  accView1.read (Elt F) (accView1.writes (Elt F) accView1.junk (runMid1 c i arg2 harg2 arg3 harg3 arg4 harg4 arg5 harg5 arg6 harg6 hc0 hc1 x0 x1 x2 xs).2.1)

theorem accCoverLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) (y : S1024x128.Idx) :
    ∃ pc ∈ (runLast1 c i arg2 harg2 arg3 harg3 arg4 harg4 arg5 harg5 arg6 harg6 hc0 hc1 x0 x1 x2 xs).2.1, y ∈ pc.1.set :=
  View.cover_of_tiledL (runLast1 c i arg2 harg2 arg3 harg3 arg4 harg4 arg5 harg5 arg6 harg6 hc0 hc1 x0 x1 x2 xs).2.1 S1024x128.size (by sl_kernel_rfl) y
def accLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) : Vec F S1024x128 .f32 :=
  accView1.read (Elt F) (accView1.writes (Elt F) accView1.junk (runLast1 c i arg2 harg2 arg3 harg3 arg4 harg4 arg5 harg5 arg6 harg6 hc0 hc1 x0 x1 x2 xs).2.1)

theorem outCoverLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) (y : S1024x128.Idx) :
    ∃ pc ∈ (runLast1 c i arg2 harg2 arg3 harg3 arg4 harg4 arg5 harg5 arg6 harg6 hc0 hc1 x0 x1 x2 xs).1, y ∈ pc.1.set :=
  View.cover_of_tiledL (runLast1 c i arg2 harg2 arg3 harg3 arg4 harg4 arg5 harg5 arg6 harg6 hc0 hc1 x0 x1 x2 xs).1 S1024x128.size (by sl_kernel_rfl) y
def outLast1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) : Vec F S1024x128 .f32 :=
  outView1.read (Elt F) (outView1.writes (Elt F) outView1.junk (runLast1 c i arg2 harg2 arg3 harg3 arg4 harg4 arg5 harg5 arg6 harg6 hc0 hc1 x0 x1 x2 xs).1)

/-! ## Point by point -/

/-- After the body at position `n`: the result tile's buffer (meaningful at k = 3 only; elsewhere the window is idle
    and nothing consults this component) and the accumulator. -/
def tileAcc1 (c : Dev nD) : (n : ℕ) → n < cfg1.N → Vec F S1024x128 .f32 × Vec F S1024x128 .f32
  | 0, hn => (outView1.junk, accFirst1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) acc1 (Memref.isWhole_whole _) ((first1_iff ⟨0, hn⟩).mpr (Nat.zero_mod _)) (fun h => (fun h => by (try dsimp only at h); omega) ((last1_iff ⟨0, hn⟩).mp h)) (blk1 V c 0 ⟨0, hn⟩) (blk1 V c 1 ⟨0, hn⟩) (blk1 V c 2 ⟨0, hn⟩))
  | n + 1, hn =>
    if h0 : (n + 1) % 4 = 0 then
      if h1 : (n + 1) % 4 = 3 then
        False.elim (by omega)
      else
        (outView1.junk, accFirst1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) ((first1_iff ⟨n + 1, hn⟩).mpr h0) (fun h => h1 ((last1_iff ⟨n + 1, hn⟩).mp h)) (blk1 V c 0 ⟨n + 1, hn⟩) (blk1 V c 1 ⟨n + 1, hn⟩) (blk1 V c 2 ⟨n + 1, hn⟩))
    else
      if h1 : (n + 1) % 4 = 3 then
        (outLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((first1_iff ⟨n + 1, hn⟩).mp h)) ((last1_iff ⟨n + 1, hn⟩).mpr h1) (blk1 V c 0 ⟨n + 1, hn⟩) (blk1 V c 1 ⟨n + 1, hn⟩) (blk1 V c 2 ⟨n + 1, hn⟩) (tileAcc1 c n (Nat.lt_of_succ_lt hn)).2,
         accLast1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((first1_iff ⟨n + 1, hn⟩).mp h)) ((last1_iff ⟨n + 1, hn⟩).mpr h1) (blk1 V c 0 ⟨n + 1, hn⟩) (blk1 V c 1 ⟨n + 1, hn⟩) (blk1 V c 2 ⟨n + 1, hn⟩) (tileAcc1 c n (Nat.lt_of_succ_lt hn)).2)
      else
        (outView1.junk, accMid1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) acc1 (Memref.isWhole_whole _) (fun h => h0 ((first1_iff ⟨n + 1, hn⟩).mp h)) (fun h => h1 ((last1_iff ⟨n + 1, hn⟩).mp h)) (blk1 V c 0 ⟨n + 1, hn⟩) (blk1 V c 1 ⟨n + 1, hn⟩) (blk1 V c 2 ⟨n + 1, hn⟩) (tileAcc1 c n (Nat.lt_of_succ_lt hn)).2)

theorem tileAcc1_first (c : Dev nD) (t : Fin cfg1.N) (h0 : t.val % 4 = 0) (h1 : ¬t.val % 4 = 3) :
    tileAcc1 V c t.val t.isLt = (outView1.junk, accFirst1 c (grid1.coords t) (ms1_0 t) (hs1_0 t) (ms1_1 t) (hs1_1 t) (ms1_2 t) (hs1_2 t) (ms1_3 t) (hs1_3 t) acc1 (Memref.isWhole_whole _) ((first1_iff t).mpr h0) (fun h => h1 ((last1_iff t).mp h)) (blk1 V c 0 t) (blk1 V c 1 t) (blk1 V c 2 t)) := by
  obtain ⟨n, hn⟩ := t
  cases n with
  | zero => exact rfl
  | succ n => exact (dif_pos h0).trans ((dif_neg h1).trans rfl)

theorem tileAcc1_mid (c : Dev nD) (t : Fin cfg1.N) (h0 : ¬t.val % 4 = 0) (h1 : ¬t.val % 4 = 3) :
    tileAcc1 V c t.val t.isLt = (outView1.junk, accMid1 c (grid1.coords t) (ms1_0 t) (hs1_0 t) (ms1_1 t) (hs1_1 t) (ms1_2 t) (hs1_2 t) (ms1_3 t) (hs1_3 t) acc1 (Memref.isWhole_whole _) (fun h => h0 ((first1_iff t).mp h)) (fun h => h1 ((last1_iff t).mp h)) (blk1 V c 0 t) (blk1 V c 1 t) (blk1 V c 2 t) (tileAcc1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem tileAcc1_last (c : Dev nD) (t : Fin cfg1.N) (h0 : ¬t.val % 4 = 0) (h1 : t.val % 4 = 3) :
    tileAcc1 V c t.val t.isLt = (outLast1 c (grid1.coords t) (ms1_0 t) (hs1_0 t) (ms1_1 t) (hs1_1 t) (ms1_2 t) (hs1_2 t) (ms1_3 t) (hs1_3 t) acc1 (Memref.isWhole_whole _) (fun h => h0 ((first1_iff t).mp h)) ((last1_iff t).mpr h1) (blk1 V c 0 t) (blk1 V c 1 t) (blk1 V c 2 t) (tileAcc1 V c (t.val - 1) (Nat.lt_of_le_of_lt (Nat.sub_le _ _) t.isLt)).2,
      accLast1 c (grid1.coords t) (ms1_0 t) (hs1_0 t) (ms1_1 t) (hs1_1 t) (ms1_2 t) (hs1_2 t) (ms1_3 t) (hs1_3 t) acc1 (Memref.isWhole_whole _) (fun h => h0 ((first1_iff t).mp h)) ((last1_iff t).mpr h1) (blk1 V c 0 t) (blk1 V c 1 t) (blk1 V c 2 t) (tileAcc1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry whatever the launch hands over; afterwards the accumulator
    at what the point before left, the untouched scoped buffers, the generator register. -/
def inv1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) acc1 fullShare ((tileAcc1 V c n hn).2)) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) acc1 fullShare ((tileAcc1 V c n hn).2)) ∗ (∃ r, prngReg c r)) := rfl
theorem inv1_pos (c : Dev nD) (n : ℕ) (h : n ≤ cfg1.N) (hz : n ≠ 0) :
    inv1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) acc1 fullShare ((tileAcc1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (tileAcc1 V c t.val t.isLt).1
  Φ t := inv1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem inv1_castSucc (c : Dev nD) (t : Fin cfg1.N) :
    (dat1 V c).Φ t.castSucc = inv1 V c t.val (Nat.le_of_lt t.isLt) := by
  dsimp only [dat1]; simp only [Fin.coe_castSucc]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = (tileAcc1 V c t.val t.isLt).1 := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands over the accumulator at what the point before left (at anything at the very first point) and takes
    it back at this point's contents; the result tile's buffer is handed back untouched unless k = 3. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = inv1 V c (t.val + 1) t.isLt from rfl, inv1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h1 : t.val % 4 = 3
  · have h0 : ¬t.val % 4 = 0 := by omega
    have hz : t.val ≠ 0 := by omega
    rw [show (dat1 V c).leavesExact 3 t = owns (c : Thread nD τ) (ms1_3 t) fullShare ((dat1 V c).after 3 t) from by
      unfold Dat.leavesExact; rw [live1_3 t ((last1_iff t).mpr h1)], after1_3]
    rw [tileAcc1_last V c t h0 h1]
    unfold outLast1 accLast1; (try dsimp only)
    rw [inv1_castSucc V c t, inv1_pos V c _ _ hz]
    iintro ⟨⟨⟨B0, B1, B2, B3, B4, B5, HS⟩, Hg⟩, Ho, ⟨%d0, H0⟩, ⟨%d1, H1⟩, ⟨%d2, H2⟩, ⟨%dO, HO⟩⟩
    iapply ((runLast1 c (grid1.coords t) _ _ _ _ _ _ _ _ _ _ (fun h => h0 ((first1_iff t).mp h)) ((last1_iff t).mpr h1) (blk1 V c 0 t) (blk1 V c 1 t) (blk1 V c 2 t) _).2.2 Set.univ _)
    isplitl [H0]; · iexact H0
    isplitl [H1]; · iexact H1
    isplitl [H2]; · iexact H2
    isplitl [HO]; · iexists _; iexact HO
    isplitl [HS]; · iexact HS
    iintro ⟨H0, H1, H2, ⟨%eO, HO⟩, ⟨%es, HS⟩⟩
    isplitl [B0 B1 B2 B3 B4 B5 HS Hg]
    · isplitl [B0 B1 B2 B3 B4 B5 HS]
      · isplitl [B0]; · iexact B0
        isplitl [B1]; · iexact B1
        isplitl [B2]; · iexact B2
        isplitl [B3]; · iexact B3
        isplitl [B4]; · iexact B4
        isplitl [B5]; · iexact B5
        unfold owns; iexists _; isplitr
        swap; · iexact HS
        ipureintro; exact View.read_writes_of_cover _ _ _ _ _ (accCoverLast1 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact HO
    ipureintro; exact View.read_writes_of_cover _ _ _ _ _ (outCoverLast1 c _ _ _ _ _ _ _ _ _ _ _ _ _ _ _ _ _)
  · have hl : ¬last1 (grid1.coords t) := fun h => h1 ((last1_iff t).mp h)
    rw [Dat.leavesExact_idle (dat1 V c) 3 t (idle1_3 t hl) (noFlush1_3 t hl)]
    by_cases h0 : t.val % 4 = 0
    · rw [tileAcc1_first V c t h0 h1]
      unfold accFirst1; (try dsimp only)
      by_cases hz : t.val = 0
      · rw [inv1_castSucc V c t, inv1_zero V c _ _ hz, restA1_eq]
        iintro ⟨⟨⟨B0, B1, B2, B3, B4, B5, HS⟩, Hg⟩, Ho, ⟨%d0, H0⟩, ⟨%d1, H1⟩, ⟨%d2, H2⟩, ⟨%dO, HO⟩⟩
        iapply ((runFirst1 c (grid1.coords t) _ _ _ _ _ _ _ _ _ _ ((first1_iff t).mpr h0) hl (blk1 V c 0 t) (blk1 V c 1 t) (blk1 V c 2 t)).2.2 _ Set.univ _)
        isplitl [H0]; · iexact H0
        isplitl [H1]; · iexact H1
        isplitl [H2]; · iexact H2
        isplitl [HO]; · iexact HO
        isplitl [HS]; · iexact HS
        iintro ⟨H0, H1, H2, HO, ⟨%es, HS⟩⟩
        isplitl [B0 B1 B2 B3 B4 B5 HS Hg]
        · isplitl [B0 B1 B2 B3 B4 B5 HS]
          · isplitl [B0]; · iexact B0
            isplitl [B1]; · iexact B1
            isplitl [B2]; · iexact B2
            isplitl [B3]; · iexact B3
            isplitl [B4]; · iexact B4
            isplitl [B5]; · iexact B5
            unfold owns; iexists _; isplitr
            swap; · iexact HS
            ipureintro; exact View.read_writes_of_cover _ _ _ _ _ (accCoverFirst1 c _ _ _ _ _ _ _ _ _ _ _ _ _ _ _ _)
          iexact Hg
        isplitl [Ho]; · iexact Ho
        isplitl [H0]; · iexact H0
        isplitl [H1]; · iexact H1
        isplitl [H2]; · iexact H2
        iexists _; iexact HO
      · rw [inv1_castSucc V c t, inv1_pos V c _ _ hz]
        iintro ⟨⟨⟨B0, B1, B2, B3, B4, B5, HS⟩, Hg⟩, Ho, ⟨%d0, H0⟩, ⟨%d1, H1⟩, ⟨%d2, H2⟩, ⟨%dO, HO⟩⟩
        iapply ((runFirst1 c (grid1.coords t) _ _ _ _ _ _ _ _ _ _ ((first1_iff t).mpr h0) hl (blk1 V c 0 t) (blk1 V c 1 t) (blk1 V c 2 t)).2.2 _ Set.univ _)
        isplitl [H0]; · iexact H0
        isplitl [H1]; · iexact H1
        isplitl [H2]; · iexact H2
        isplitl [HO]; · iexact HO
        isplitl [HS]; · iexists _; iexact HS
        iintro ⟨H0, H1, H2, HO, ⟨%es, HS⟩⟩
        isplitl [B0 B1 B2 B3 B4 B5 HS Hg]
        · isplitl [B0 B1 B2 B3 B4 B5 HS]
          · isplitl [B0]; · iexact B0
            isplitl [B1]; · iexact B1
            isplitl [B2]; · iexact B2
            isplitl [B3]; · iexact B3
            isplitl [B4]; · iexact B4
            isplitl [B5]; · iexact B5
            unfold owns; iexists _; isplitr
            swap; · iexact HS
            ipureintro; exact View.read_writes_of_cover _ _ _ _ _ (accCoverFirst1 c _ _ _ _ _ _ _ _ _ _ _ _ _ _ _ _)
          iexact Hg
        isplitl [Ho]; · iexact Ho
        isplitl [H0]; · iexact H0
        isplitl [H1]; · iexact H1
        isplitl [H2]; · iexact H2
        iexists _; iexact HO
    · have hz : t.val ≠ 0 := by omega
      rw [tileAcc1_mid V c t h0 h1]
      unfold accMid1; (try dsimp only)
      rw [inv1_castSucc V c t, inv1_pos V c _ _ hz]
      iintro ⟨⟨⟨B0, B1, B2, B3, B4, B5, HS⟩, Hg⟩, Ho, ⟨%d0, H0⟩, ⟨%d1, H1⟩, ⟨%d2, H2⟩, ⟨%dO, HO⟩⟩
      iapply ((runMid1 c (grid1.coords t) _ _ _ _ _ _ _ _ _ _ (fun h => h0 ((first1_iff t).mp h)) hl (blk1 V c 0 t) (blk1 V c 1 t) (blk1 V c 2 t) _).2.2 _ Set.univ _)
      isplitl [H0]; · iexact H0
      isplitl [H1]; · iexact H1
      isplitl [H2]; · iexact H2
      isplitl [HO]; · iexact HO
      isplitl [HS]; · iexact HS
      iintro ⟨H0, H1, H2, HO, ⟨%es, HS⟩⟩
      isplitl [B0 B1 B2 B3 B4 B5 HS Hg]
      · isplitl [B0 B1 B2 B3 B4 B5 HS]
        · isplitl [B0]; · iexact B0
          isplitl [B1]; · iexact B1
          isplitl [B2]; · iexact B2
          isplitl [B3]; · iexact B3
          isplitl [B4]; · iexact B4
          isplitl [B5]; · iexact B5
          unfold owns; iexists _; isplitr
          swap; · iexact HS
          ipureintro; exact View.read_writes_of_cover _ _ _ _ _ (accCoverMid1 c _ _ _ _ _ _ _ _ _ _ _ _ _ _ _ _ _)
        iexact Hg
      isplitl [Ho]; · iexact Ho
      isplitl [H0]; · iexact H0
      isplitl [H1]; · iexact H1
      isplitl [H2]; · iexact H2
      iexists _; iexact HO

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem enter1 (c : Dev nD) : Pipeline.ΦA spec1 c ⊢ (dat1 V c).Φ 0 := by
  rw [show (dat1 V c).Φ 0 = inv1 V c 0 (Nat.zero_le _) from rfl, inv1_zero V c 0 _ rfl]
  try exact Idealize.SL.BI.Entails.refl _

/-- After the last point the invariant gives the same back, the accumulator's contents forgotten. -/
theorem leave1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = inv1 V c (Fin.last cfg1.N).val (Nat.le_of_lt_succ (Fin.last cfg1.N).isLt) from rfl, inv1_pos V c _ _ ht, restA1_eq]
  iintro ⟨⟨B0, B1, B2, B3, B4, B5, HS⟩, Hg⟩
  isplitl [B0 B1 B2 B3 B4 B5 HS]
  · isplitl [B0]; · iexact B0
    isplitl [B1]; · iexact B1
    isplitl [B2]; · iexact B2
    isplitl [B3]; · iexact B3
    isplitl [B4]; · iexact B4
    isplitl [B5]; · iexact B5
    iexists _; iexact HS
  iexact Hg

end Cert.KernelIdeal.Frame

end
-- ==== Proof.TwoProducts.lean ====
/-
  The run of @main: the host stretch that prepares xm and the coefficients, the first product, the second product.
  The contents of every unscoped buffer at each boundary, as a fold from the launch memory: the host operations
  applied, then the first product's arrays at what its write-backs leave, then the second product's. Each region
  enters from the buffers at the boundary's contents, hands its own scoped buffers and the generator register to its
  invariant, and leaves the buffers at the next boundary's contents. Every weakly fair execution terminates with every
  unscoped buffer at the last boundary's contents; in particular no argument array has changed.
-/
import proofs.«111915_j83854941487389_2_alg».proof.Proof.ToBasisFrame
import proofs.«111915_j83854941487389_2_alg».proof.Proof.FromBasisFrame
import proofs.«111915_j83854941487389_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev atLaunch : Dev nD → Valuation τ sig (Elt F) := fun c b => (s₀ m ρ).mem ((c : Dev nD), b)
/-- After the host stretch: the first product's entry. -/
abbrev atEntry : Dev nD → Valuation τ sig (Elt F) := fun c => StableHlo.after hostOps0 (atLaunch m ρ c)
abbrev entryV : (c : Dev nD) → (b : Ref sig .tc) → Buf (Elt F) ((c : Thread nD τ).loc b) := fun c b => atEntry m ρ c b
/-- After the first product: its arrays at what the pipeline leaves, every other buffer as entered. -/
def atMid (c : Dev nD) : Valuation τ sig (Elt F) :=
  Pipeline.withArrays spec0 c (atEntry m ρ c) fun w => (dat0 (entryV m ρ) c).arrAt w cfg0.N
theorem atMid_arr (c : Dev nD) (w : Fin cfg0.W) :
    atMid m ρ c (Proc.devRef .tc (Pipeline.arrRef spec0 w)) = (dat0 (entryV m ρ) c).arrAt w cfg0.N := by
  unfold atMid; exact Pipeline.withArrays_arr spec0 launch0.win.arr_inj c _ _ w
theorem atMid_of_ne (c : Dev nD) (b : Ref sig .tc) (hb : ∀ w, Pipeline.arrRef spec0 w ≠ b) :
    atMid m ρ c (Proc.devRef .tc b) = atEntry m ρ c (Proc.devRef .tc b) := by
  unfold atMid; exact Pipeline.withArrays_of_ne spec0 c _ _ b hb
abbrev midV : (c : Dev nD) → (b : Ref sig .tc) → Buf (Elt F) ((c : Thread nD τ).loc b) := fun c b => atMid m ρ c b
theorem left0 (c : Dev nD) (w : Fin cfg0.W) : (dat0 (entryV m ρ) c).arrAt w cfg0.N = midV m ρ c (Pipeline.arrRef spec0 w) :=
  (atMid_arr m ρ c w).symm
theorem kept0 (c : Dev nD) : ∀ b, b ∉ Finset.univ.image (Pipeline.arrRef spec0) → midV m ρ c b = entryV m ρ c b :=
  fun b hb => atMid_of_ne m ρ c b fun w e => hb (Finset.mem_image.mpr ⟨w, Finset.mem_univ _, e⟩)
/-- After the second product. -/
def atEnd (c : Dev nD) : Valuation τ sig (Elt F) :=
  Pipeline.withArrays spec1 c (atMid m ρ c) fun w => (dat1 (midV m ρ) c).arrAt w cfg1.N
theorem atEnd_arr (c : Dev nD) (w : Fin cfg1.W) :
    atEnd m ρ c (Proc.devRef .tc (Pipeline.arrRef spec1 w)) = (dat1 (midV m ρ) c).arrAt w cfg1.N := by
  unfold atEnd; exact Pipeline.withArrays_arr spec1 launch1.win.arr_inj c _ _ w
theorem atEnd_of_ne (c : Dev nD) (b : Ref sig .tc) (hb : ∀ w, Pipeline.arrRef spec1 w ≠ b) :
    atEnd m ρ c (Proc.devRef .tc b) = atMid m ρ c (Proc.devRef .tc b) := by
  unfold atEnd; exact Pipeline.withArrays_of_ne spec1 c _ _ b hb
abbrev endV : (c : Dev nD) → (b : Ref sig .tc) → Buf (Elt F) ((c : Thread nD τ).loc b) := fun c b => atEnd m ρ c b
theorem left1 (c : Dev nD) (w : Fin cfg1.W) : (dat1 (midV m ρ) c).arrAt w cfg1.N = endV m ρ c (Pipeline.arrRef spec1 w) :=
  (atEnd_arr m ρ c w).symm
theorem kept1 (c : Dev nD) : ∀ b, b ∉ Finset.univ.image (Pipeline.arrRef spec1) → endV m ρ c b = midV m ρ c b :=
  fun b hb => atEnd_of_ne m ρ c b fun w e => hb (Finset.mem_image.mpr ⟨w, Finset.mem_univ _, e⟩)

/-! ## No boundary changes an argument: the host stretch writes none, a region reads evecs through an input window
    and bypasses the others -/

theorem atEnd_main_arg0 (c : Dev nD) : atEnd m ρ c (Proc.devRef .tc main_arg0) = m ((c : Thread nD τ).loc main_arg0) :=
  calc atEnd m ρ c (Proc.devRef .tc main_arg0)
    _ = atMid m ρ c (Proc.devRef .tc main_arg0) := atEnd_of_ne m ρ c main_arg0 (by decide)
    _ = atEntry m ρ c (Proc.devRef .tc main_arg0) := atMid_of_ne m ρ c main_arg0 (by decide)
    _ = m ((c : Thread nD τ).loc main_arg0) := Gen.V1_of m c main_arg0 (by decide)
theorem atEnd_main_arg1 (c : Dev nD) : atEnd m ρ c (Proc.devRef .tc main_arg1) = m ((c : Thread nD τ).loc main_arg1) :=
  calc atEnd m ρ c (Proc.devRef .tc main_arg1)
    _ = atMid m ρ c (Proc.devRef .tc main_arg1) := atEnd_of_ne m ρ c main_arg1 (by decide)
    _ = atEntry m ρ c (Proc.devRef .tc main_arg1) := atMid_of_ne m ρ c main_arg1 (by decide)
    _ = m ((c : Thread nD τ).loc main_arg1) := Gen.V1_of m c main_arg1 (by decide)
theorem atEnd_main_arg2 (c : Dev nD) : atEnd m ρ c (Proc.devRef .tc main_arg2) = m ((c : Thread nD τ).loc main_arg2) :=
  calc atEnd m ρ c (Proc.devRef .tc main_arg2)
    _ = atMid m ρ c (Proc.devRef .tc main_arg2) := atEnd_of_ne m ρ c main_arg2 (by decide)
    _ = atEntry m ρ c (Proc.devRef .tc main_arg2) := atMid_of_ne m ρ c main_arg2 (by decide)
    _ = m ((c : Thread nD τ).loc main_arg2) := Gen.V1_of m c main_arg2 (by decide)
theorem atEnd_main_arg3 (c : Dev nD) : atEnd m ρ c (Proc.devRef .tc main_arg3) = m ((c : Thread nD τ).loc main_arg3) :=
  calc atEnd m ρ c (Proc.devRef .tc main_arg3)
    _ = atMid m ρ c (Proc.devRef .tc main_arg3) := atEnd_of_ne m ρ c main_arg3 (by decide)
    _ = atEntry m ρ c (Proc.devRef .tc main_arg3) := atMid_of_ne m ρ c main_arg3 (by decide)
    _ = m ((c : Thread nD τ).loc main_arg3) := Gen.V1_of m c main_arg3 (by decide)
theorem atEnd_main_arg4 (c : Dev nD) : atEnd m ρ c (Proc.devRef .tc main_arg4) = m ((c : Thread nD τ).loc main_arg4) :=
  calc atEnd m ρ c (Proc.devRef .tc main_arg4)
    _ = atMid m ρ c (Proc.devRef .tc main_arg4) := atEnd_of_ne m ρ c main_arg4 (by decide)
    _ = atEntry m ρ c (Proc.devRef .tc main_arg4) := atMid_of_ne m ρ c main_arg4 (by decide)
    _ = m ((c : Thread nD τ).loc main_arg4) := Gen.V1_of m c main_arg4 (by decide)
theorem atEnd_main_arg5 (c : Dev nD) : atEnd m ρ c (Proc.devRef .tc main_arg5) = m ((c : Thread nD τ).loc main_arg5) :=
  calc atEnd m ρ c (Proc.devRef .tc main_arg5)
    _ = atMid m ρ c (Proc.devRef .tc main_arg5) := atEnd_of_ne m ρ c main_arg5 (by decide)
    _ = atEntry m ρ c (Proc.devRef .tc main_arg5) := atMid_of_ne m ρ c main_arg5 (by decide)
    _ = m ((c : Thread nD τ).loc main_arg5) := Gen.V1_of m c main_arg5 (by decide)
theorem atEnd_main_arg6 (c : Dev nD) : atEnd m ρ c (Proc.devRef .tc main_arg6) = m ((c : Thread nD τ).loc main_arg6) :=
  calc atEnd m ρ c (Proc.devRef .tc main_arg6)
    _ = atMid m ρ c (Proc.devRef .tc main_arg6) := (atEnd_arr m ρ c 0).trans (((dat1 (midV m ρ) c).arrAt_in 0 rfl _).trans (A_eq1 (midV m ρ) c 0))
    _ = atEntry m ρ c (Proc.devRef .tc main_arg6) := (atMid_arr m ρ c 0).trans (((dat0 (entryV m ρ) c).arrAt_in 0 rfl _).trans (A_eq0 (entryV m ρ) c 0))
    _ = m ((c : Thread nD τ).loc main_arg6) := Gen.V1_of m c main_arg6 (by decide)
theorem atEnd_main_arg7 (c : Dev nD) : atEnd m ρ c (Proc.devRef .tc main_arg7) = m ((c : Thread nD τ).loc main_arg7) :=
  calc atEnd m ρ c (Proc.devRef .tc main_arg7)
    _ = atMid m ρ c (Proc.devRef .tc main_arg7) := atEnd_of_ne m ρ c main_arg7 (by decide)
    _ = atEntry m ρ c (Proc.devRef .tc main_arg7) := atMid_of_ne m ρ c main_arg7 (by decide)
    _ = m ((c : Thread nD τ).loc main_arg7) := Gen.V1_of m c main_arg7 (by decide)

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (entryV m ρ) c
  | ⟨1, _⟩ => fun c => dat1 (midV m ρ) c
abbrev 𝒱₀ : Variants := Variants.none
abbrev L : GSem nD τ sig → Finset Unit := fun _ => ∅
abbrev lv : GSem nD τ sig → Unit → ℕ := fun _ _ => 0
/-- The generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev atReturn (c : Dev nD) : sProp 𝕄 := iprop(StableHlo.held (c : Thread nD τ) (Pipeline.ucRefs τ sig) (atEnd m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entryV m ρ) c).loose
  hwaits := Pipeline.hwaits_of_owed_zero _ _ _ _ L lv 0 fun _ _ => rfl
  pre c := iprop(StableHlo.held (c : Thread nD τ) (Pipeline.ucRefs τ sig) (atEntry m ρ c) ∗ R c)
  post c := iprop(StableHlo.held (c : Thread nD τ) (Pipeline.ucRefs τ sig) (atMid m ρ c) ∗ R c)
  X c := iprop(∃ r, prngReg c r)
  Y c := iprop(∃ r, prngReg c r)
  Z c := Pipeline.unscopedRest (Ix := Unit) (Name := ℕ) (U := UR sig nD τ) (Lvl := ℕ) spec0 c (entryV m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (entryV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enter0 (entryV m ρ) c)
    unfold Pipeline.ΦA
    iintro ⟨Hp, -, Hr⟩
    isplitl [Hr]; · iexact Hr
    iexact Hp
  hout c := by
    rw [Pipeline.ownSems0_none]
    refine (leave0 (entryV m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (entryV m ρ c) (midV m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (midV m ρ) c).loose
  hwaits := Pipeline.hwaits_of_owed_zero _ _ _ _ L lv 1 fun _ _ => rfl
  pre c := iprop(StableHlo.held (c : Thread nD τ) (Pipeline.ucRefs τ sig) (atMid m ρ c) ∗ R c)
  post c := iprop(atReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (midV m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (midV m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enter1 (midV m ρ) c)
    unfold Pipeline.ΦA
    iintro ⟨Hp, -, Hr⟩
    isplitl [Hr]; · iexact Hr
    iexact Hp
  hout c := by
    rw [Pipeline.ownSems0_none]
    refine (leave1 (midV m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (midV m ρ c) (endV m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (atLaunch m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := atReturn m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_arg0 (by decide))).trans (atEnd_main_arg0 m ρ c),
    (h c _ (mem_uc main_arg1 (by decide))).trans (atEnd_main_arg1 m ρ c),
    (h c _ (mem_uc main_arg2 (by decide))).trans (atEnd_main_arg2 m ρ c),
    (h c _ (mem_uc main_arg3 (by decide))).trans (atEnd_main_arg3 m ρ c),
    (h c _ (mem_uc main_arg4 (by decide))).trans (atEnd_main_arg4 m ρ c),
    (h c _ (mem_uc main_arg5 (by decide))).trans (atEnd_main_arg5 m ρ c),
    (h c _ (mem_uc main_arg6 (by decide))).trans (atEnd_main_arg6 m ρ c),
    (h c _ (mem_uc main_arg7 (by decide))).trans (atEnd_main_arg7 m ρ c)⟩) (run_all m ρ)

end Cert.KernelIdeal.Frame

end
-- ==== Proof.ToBasisPieces.lean ====
/-
  The first product, `Eᵀ·X`, one grid point at a time: what the step's stores leave, as the step's arithmetic.
  At every point the body loads the point's block of `E` (2048 rows × 1024 columns), 2048 rows of `X` starting at row
  `2048·k` (`rows0`), and the accumulator, and stores the accumulator plus the product of the two blocks; where k = 0 the
  accumulator is first overwritten with zeros and that is what is read back; where k = 3 the accumulator is then
  copied into the result tile's buffer. So, in each of the three control cases, the accumulator — and at k = 3 the
  result tile — ends at ONE term: the step's arithmetic of the two blocks and of what the accumulator held (the zero
  block at k = 0). Stated for any float values. Also here, decided once over the 32 grid points t = 4·i + k: the block
  indices of the three windows and the row offset `2048·k`.
-/
import proofs.«111915_j83854941487389_2_alg».proof.Proof.ToBasisFrame
import Idealize.ShloMosaic.Lib.Pipeline.Value
import Idealize.ShloMosaic.Lib.Tactic

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.Tactic Idealize.SL.Sem

variable {F : FTy → Type} [FloatOps F]

theorem hz0 : (![0, 0] : Fin 2 → Nat) = fun _ => 0 := funext fun a => by fin_cases a <;> rfl

/-- The rows of the second operand that the step at grid coordinates `i` reads: 2048 rows from row `2048·k`. -/
abbrev rows0 (i : grid0.Coords) (x1 : Vec F S8192x128 .bf16) : Vec F S2048x128 .bf16 :=
  View.ld x1 (Rect.unit (s := S8192x128) (k0_off1 i) S2048x128.size (k0_off1_inb i))

/-- 0 < k < 3: the accumulator ends at the step's arithmetic of the two blocks and what it held. -/
theorem accMid0_eq (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : ¬last0 i)
    (x0 : Vec F S2048x1024 .f32) (x1 : Vec F S8192x128 .bf16) (xs : Vec F S1024x128 .f32) :
    accMid0 c i arg2 harg2 arg3 harg3 arg4 harg4 arg5 harg5 hc0 hc1 x0 x1 xs = k0_pay2 (rows0 i x1) x0 xs := by
  unfold accMid0
  rw [View.read_writes_eq_canon _ _ _ (accCoverMid0 c i arg2 harg2 arg3 harg3 arg4 harg4 arg5 harg5 hc0 hc1 x0 x1 xs)]
  unfold runMid0
  dsimp only
  rw [View.canon_unit_zero hz0]
  simp only [View.readAt_eq_ld, harg2.read_unread, harg3.read_unread, harg5.read_unread,
    View.ld_unit_zero (S := S2048x1024) hz0, View.ld_unit_zero (S := S1024x128) hz0]

/-- k = 0: the accumulator is zeroed, read back, and ends at the step's arithmetic over the zero block. -/
theorem accFirst0_eq (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : first0 i) (hc1 : ¬last0 i)
    (x0 : Vec F S2048x1024 .f32) (x1 : Vec F S8192x128 .bf16) :
    accFirst0 c i arg2 harg2 arg3 harg3 arg4 harg4 arg5 harg5 hc0 hc1 x0 x1 = k0_pay2 (rows0 i x1) x0 k0_pay1 := by
  unfold accFirst0
  rw [View.read_writes_eq_canon _ _ _ (accCoverFirst0 c i arg2 harg2 arg3 harg3 arg4 harg4 arg5 harg5 hc0 hc1 x0 x1)]
  unfold runFirst0
  dsimp only
  sl_unfold_words
  rw [View.canon_cons_unit_zero (S := S1024x128) hz0, View.readCov_unit_zero (S := S1024x128) _ hz0]
  simp only [View.readAt_eq_ld, harg2.read_unread, harg3.read_unread, View.ld_unit_zero (S := S2048x1024) hz0]
  rfl

/-- k = 3: the accumulator ends at the step's arithmetic, as at the middle points; -/
theorem accLast0_eq (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) :
    accLast0 c i arg2 harg2 arg3 harg3 arg4 harg4 arg5 harg5 hc0 hc1 x0 x1 xs = k0_pay2 (rows0 i x1) x0 xs := by
  unfold accLast0
  rw [View.read_writes_eq_canon _ _ _ (accCoverLast0 c i arg2 harg2 arg3 harg3 arg4 harg4 arg5 harg5 hc0 hc1 x0 x1 xs)]
  unfold runLast0
  dsimp only
  sl_unfold_words
  rw [View.canon_unit_zero hz0]
  simp only [View.readAt_eq_ld, harg2.read_unread, harg3.read_unread, harg5.read_unread,
    View.ld_unit_zero (S := S2048x1024) hz0, View.ld_unit_zero (S := S1024x128) hz0]
  rfl

/-- and the result tile's buffer receives a copy of it. -/
theorem outLast0_eq (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S1024x128 .f32) (harg4 : arg4.IsWhole) (arg5 : Memref sig .tc .vmem S1024x128 .f32) (harg5 : arg5.IsWhole) (hc0 : ¬first0 i) (hc1 : last0 i)
    (x0 : Vec F S2048x1024 .f32) (x1 : Vec F S8192x128 .bf16) (xs : Vec F S1024x128 .f32) :
    outLast0 c i arg2 harg2 arg3 harg3 arg4 harg4 arg5 harg5 hc0 hc1 x0 x1 xs = k0_pay2 (rows0 i x1) x0 xs := by
  unfold outLast0
  rw [View.read_writes_eq_canon _ _ _ (outCoverLast0 c i arg2 harg2 arg3 harg3 arg4 harg4 arg5 harg5 hc0 hc1 x0 x1 xs)]
  unfold runLast0
  dsimp only
  sl_unfold_words
  rw [View.canon_unit_zero hz0, View.readCov_unit_zero (S := S1024x128) _ hz0]
  simp only [View.readAt_eq_ld, harg2.read_unread, harg3.read_unread, harg5.read_unread,
    View.ld_unit_zero (S := S2048x1024) hz0, View.ld_unit_zero (S := S1024x128) hz0]
  rfl

/-- The grid's 32 points are t = 4·i + k. Window 0 (the basis) is at block (k, i), windows 1 (the signal, one block)
    at block (0, 0), window 2 (the result) at block (i, 0); the step reads the signal's rows from row 2048·k. -/
theorem idx_facts0 : ∀ t : Fin cfg0.N,
    win0_0.index t (0 : Fin 2) = t.val % 4 ∧ win0_0.index t (1 : Fin 2) = t.val / 4
    ∧ win0_1.index t (0 : Fin 2) = 0 ∧ win0_1.index t (1 : Fin 2) = 0
    ∧ win0_2.index t (0 : Fin 2) = t.val / 4 ∧ win0_2.index t (1 : Fin 2) = 0
    ∧ k0_off1 (grid0.coords t) 0 = (t.val % 4) * 2048 ∧ k0_off1 (grid0.coords t) 1 = 0 :=
  (by decide +kernel : ∀ t : Fin grid0.N, _)

end Cert.KernelIdeal.Value

end
-- ==== Proof.PayIdx.lean ====
/-
  THE ARITHMETIC OF ONE ACCUMULATION STEP, read at one element. Each of the two kernels stores, at a grid step, either
  the zero block (the first step of an output block) or the block it had plus a product of two operand blocks. At the
  ideal values — the extended reals, every operation exact, the change of format to bf16 the identity — these are:
    kernel 0 (the change TO the basis, `Eᵀ·X`): the stored block at (r, c) is `0`, or the accumulator at (r, c) plus
      `∑ j, E[j, r] · X[j, c]` over the 2048 rows `j` of the two operand blocks (both contract their axis 0);
    kernel 1 (the change BACK, `E·(S ⊙ CF)`): the stored block at (r, c) is `0`, or the accumulator at (r, c) plus
      `∑ j, E[r, j] · (S[j, c] · CF[j, c])` over the 2048 columns `j` of the left block (its axis 1, the right's axis 0).
  The four statements are over arbitrary operand blocks and explicit coordinates `r < 1024`, `c < 128`. A shape cast to
  the same shape is the identity, the accumulator of the product is the zero constant, and the contraction's index set
  (one axis of extent 2048) is re-indexed by its one coordinate.
-/
import proofs.«111915_j83854941487389_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.PayIdx

open Cert.KernelIdeal Cert.KernelIdeal.Gen
open Idealize.ShloMosaic Idealize.SL.Sem Idealize.ShloMosaic.ValueIdx

/-! ## The zero block -/

/-- Kernel 0's first-step block is zero everywhere. -/
theorem pay1_0 (r : Fin 1024) (c : Fin 128) : k0_pay1 (F := Ideal) (ValueIdx.ix2 r c) = 0 := by
  unfold k0_pay1
  rw [shapeCast_self]
  exact Ideal.ofBits_zero_f32

/-- Kernel 1's first-step block is zero everywhere. -/
theorem pay1_1 (r : Fin 1024) (c : Fin 128) : k1_pay1 (F := Ideal) (ValueIdx.ix2 r c) = 0 := by
  unfold k1_pay1
  rw [shapeCast_self]
  exact Ideal.ofBits_zero_f32

/-! ## Kernel 0: both operands contract their axis 0 -/

theorem lhs0_0 (i : S1024x128.Idx) (q : dot_S2048x1024_S2048x128_S1024x128_0_0_1_1_n_n.contr.Idx) :
    (dot_S2048x1024_S2048x128_S1024x128_0_0_1_1_n_n.lhsIdx i q 0).val = (q ⟨0, by decide⟩).val :=
  dot_S2048x1024_S2048x128_S1024x128_0_0_1_1_n_n.lhsIdx_val_of_single rfl i q
theorem lhs0_1 (i : S1024x128.Idx) (q : dot_S2048x1024_S2048x128_S1024x128_0_0_1_1_n_n.contr.Idx) :
    (dot_S2048x1024_S2048x128_S1024x128_0_0_1_1_n_n.lhsIdx i q 1).val = (i 0).val := by
  unfold DotDims.lhsIdx
  rw [dif_neg (show ¬(1 : Fin S2048x1024.rank) ∈ dot_S2048x1024_S2048x128_S1024x128_0_0_1_1_n_n.lhsBatch by decide),
    dif_pos (show (1 : Fin S2048x1024.rank) ∈ dot_S2048x1024_S2048x128_S1024x128_0_0_1_1_n_n.lhsNonContracting by decide)]
  rfl
theorem rhs0_0 (i : S1024x128.Idx) (q : dot_S2048x1024_S2048x128_S1024x128_0_0_1_1_n_n.contr.Idx) :
    (dot_S2048x1024_S2048x128_S1024x128_0_0_1_1_n_n.rhsIdx i q 0).val = (q ⟨0, by decide⟩).val :=
  dot_S2048x1024_S2048x128_S1024x128_0_0_1_1_n_n.rhsIdx_val_of_single rfl i q
theorem rhs0_1 (i : S1024x128.Idx) (q : dot_S2048x1024_S2048x128_S1024x128_0_0_1_1_n_n.contr.Idx) :
    (dot_S2048x1024_S2048x128_S1024x128_0_0_1_1_n_n.rhsIdx i q 1).val = (i 1).val := by
  unfold DotDims.rhsIdx
  rw [dif_neg (show ¬(1 : Fin S2048x128.rank) ∈ dot_S2048x1024_S2048x128_S1024x128_0_0_1_1_n_n.rhsBatch by decide),
    dif_pos (show (1 : Fin S2048x128.rank) ∈ dot_S2048x1024_S2048x128_S1024x128_0_0_1_1_n_n.rhsNonContracting by decide)]
  rfl

/-- Kernel 0's product into the zero accumulator, at (r, c): `∑ j, A[j, r] · B[j, c]`. -/
theorem matmul0_apply (A : FVec Ideal S2048x1024 .bf16) (B : FVec Ideal S2048x128 .bf16) (r : Fin 1024) (c : Fin 128) :
    matmul (F := Ideal) dot_S2048x1024_S2048x128_S1024x128_0_0_1_1_n_n none A B (constant (F := Ideal) S1024x128 .f32 0x00000000#32)
      (ValueIdx.ix2 r c) = ∑ j : Fin 2048, A (ValueIdx.ix2 j r) * B (ValueIdx.ix2 j c) := by
  simp only [matmul]
  rw [Ideal.matmul_constant_zero_apply,
    ← Equiv.sum_comp (ValueIdx.contrEquiv1 dot_S2048x1024_S2048x128_S1024x128_0_0_1_1_n_n 2048 rfl rfl).symm]
  refine Finset.sum_congr rfl fun k _ => ?_
  have hk := ValueIdx.contrEquiv1_symm_val dot_S2048x1024_S2048x128_S1024x128_0_0_1_1_n_n 2048 rfl rfl k
  have el : dot_S2048x1024_S2048x128_S1024x128_0_0_1_1_n_n.lhsIdx (ValueIdx.ix2 r c)
      ((ValueIdx.contrEquiv1 dot_S2048x1024_S2048x128_S1024x128_0_0_1_1_n_n 2048 rfl rfl).symm k) = ValueIdx.ix2 k r :=
    funext fun a => Fin.ext (by
      match a with
      | ⟨0, _⟩ => exact (lhs0_0 _ _).trans hk
      | ⟨1, _⟩ => exact lhs0_1 _ _)
  have er : dot_S2048x1024_S2048x128_S1024x128_0_0_1_1_n_n.rhsIdx (ValueIdx.ix2 r c)
      ((ValueIdx.contrEquiv1 dot_S2048x1024_S2048x128_S1024x128_0_0_1_1_n_n 2048 rfl rfl).symm k) = ValueIdx.ix2 k c :=
    funext fun a => Fin.ext (by
      match a with
      | ⟨0, _⟩ => exact (rhs0_0 _ _).trans hk
      | ⟨1, _⟩ => exact rhs0_1 _ _)
  rw [el, er]

/-- Kernel 0's accumulation step at (r, c): the accumulator plus `∑ j, E[j, r] · X[j, c]`. -/
theorem pay2_0 (v6 : Vec Ideal S2048x128 .bf16) (v8 : Vec Ideal S2048x1024 .f32) (v10 : Vec Ideal S1024x128 .f32)
    (r : Fin 1024) (c : Fin 128) :
    k0_pay2 (F := Ideal) v6 v8 v10 (ValueIdx.ix2 r c)
      = v10 (ValueIdx.ix2 r c) + ∑ j : Fin 2048, v8 (ValueIdx.ix2 j r) * v6 (ValueIdx.ix2 j c) := by
  unfold k0_pay2
  simp only [shapeCast_self]
  show v10 (ValueIdx.ix2 r c) + _ = _
  rw [matmul0_apply]
  rfl

/-! ## Kernel 1: the left operand contracts its axis 1, the right its axis 0 -/

theorem lhs1_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide),
    dif_pos (show (0 : Fin S1024x2048.rank) ∈ dot_S1024x2048_S2048x128_S1024x128_1_0_0_1_n_n.lhsNonContracting by decide)]
  rfl
theorem lhs1_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs1_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs1_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide),
    dif_pos (show (1 : Fin S2048x128.rank) ∈ dot_S1024x2048_S2048x128_S1024x128_1_0_0_1_n_n.rhsNonContracting by decide)]
  rfl

/-- Kernel 1's product into the zero accumulator, at (r, c): `∑ j, A[r, j] · B[j, c]`. -/
theorem matmul1_apply (A : FVec Ideal S1024x2048 .bf16) (B : FVec Ideal S2048x128 .bf16) (r : Fin 1024) (c : Fin 128) :
    matmul (F := Ideal) dot_S1024x2048_S2048x128_S1024x128_1_0_0_1_n_n none A B (constant (F := Ideal) S1024x128 .f32 0x00000000#32)
      (ValueIdx.ix2 r c) = ∑ j : Fin 2048, A (ValueIdx.ix2 r j) * B (ValueIdx.ix2 j c) := by
  simp only [matmul]
  rw [Ideal.matmul_constant_zero_apply,
    ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ValueIdx.ix2 r c)
      ((ValueIdx.contrEquiv1 dot_S1024x2048_S2048x128_S1024x128_1_0_0_1_n_n 2048 rfl rfl).symm k) = ValueIdx.ix2 r k :=
    funext fun a => Fin.ext (by
      match a with
      | ⟨0, _⟩ => exact lhs1_0 _ _
      | ⟨1, _⟩ => exact (lhs1_1 _ _).trans hk)
  have er : dot_S1024x2048_S2048x128_S1024x128_1_0_0_1_n_n.rhsIdx (ValueIdx.ix2 r c)
      ((ValueIdx.contrEquiv1 dot_S1024x2048_S2048x128_S1024x128_1_0_0_1_n_n 2048 rfl rfl).symm k) = ValueIdx.ix2 k c :=
    funext fun a => Fin.ext (by
      match a with
      | ⟨0, _⟩ => exact (rhs1_0 _ _).trans hk
      | ⟨1, _⟩ => exact rhs1_1 _ _)
  rw [el, er]

/-- Kernel 1's accumulation step at (r, c): the accumulator plus `∑ j, E[r, j] · (S[j, c] · CF[j, c])`. -/
theorem pay2_1 (v6 : Vec Ideal S2048x128 .f32) (v9 : Vec Ideal S2048x128 .f32) (v13 : Vec Ideal S1024x2048 .f32)
    (v15 : Vec Ideal S1024x128 .f32) (r : Fin 1024) (c : Fin 128) :
    k1_pay2 (F := Ideal) v6 v9 v13 v15 (ValueIdx.ix2 r c)
      = v15 (ValueIdx.ix2 r c) + ∑ j : Fin 2048, v13 (ValueIdx.ix2 r j) * (v6 (ValueIdx.ix2 j c) * v9 (ValueIdx.ix2 j c)) := by
  unfold k1_pay2
  simp only [shapeCast_self]
  show v15 (ValueIdx.ix2 r c) + _ = _
  rw [matmul1_apply]
  rfl

end Cert.KernelIdeal.PayIdx

end
-- ==== Proof.Basis.lean ====
/-
  THE MATHEMATICS OF SPECTRAL DIFFUSION, free of any program: for a square array `E` (the eigenvector basis, 8192 × 8192)
  and arrays `X`, `CO` of 8192 rows and 128 columns over the extended reals,
    `toBasis E X`   is the change to the basis, `(Eᵀ·X)[M,c] = ∑ J, E[J,M] · X[J,c]`,
    `fromBasis E B` is the change back,         `(E·B)[R,c]  = ∑ K, E[R,K] · B[K,c]`,
    `diffuse E X CO` is `E · (CO ⊙ (Eᵀ·X))`: every spectral coefficient scaled by its own factor, then brought back.
  Both changes of basis are sums of 8192 terms. A program that accumulates such a sum in 4 steps of 2048 consecutive
  terms computes the same sum: `sum_blocks` (the index set `Fin 8192` is `Fin 4 × Fin 2048` through `K = 2048·k + j`,
  in any additive commutative monoid), `four_blocks` (the four steps written out, starting from `0`) and
  `sum_blocks_upto` (the first `n` steps are the sum of the terms below `2048·n`). The extended reals' addition is
  commutative and associative with `0` neutral, so no finiteness is asked anywhere.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Basis

open Idealize.ShloMosaic Idealize.ShloMosaic.ValueIdx

/-- The shape of the basis: 8192 × 8192. -/
abbrev SVV : Idealize.ShloMosaic.Shape := ⟨2, ![8192, 8192]⟩
/-- The shape of the signal and of the coefficients: 8192 × 128. -/
abbrev SVC : Idealize.ShloMosaic.Shape := ⟨2, ![8192, 128]⟩

/-- (Eᵀ·X)[M,c] -/
def toBasis (E : SVV.Idx → EReal) (X : SVC.Idx → EReal) (M : Fin 8192) (c : Fin 128) : EReal :=
  ∑ J : Fin 8192, E (ValueIdx.ix2 J M) * X (ValueIdx.ix2 J c)

/-- (E·B)[R,c] -/
def fromBasis (E : SVV.Idx → EReal) (B : SVC.Idx → EReal) (R : Fin 8192) (c : Fin 128) : EReal :=
  ∑ K : Fin 8192, E (ValueIdx.ix2 R K) * B (ValueIdx.ix2 K c)

/-- E · (CO ⊙ (Eᵀ·X)) -/
def diffuse (E : SVV.Idx → EReal) (X CO : SVC.Idx → EReal) : SVC.Idx → EReal := fun i =>
  fromBasis E (fun j => CO j * toBasis E X ⟨(j 0).val, (j 0).isLt⟩ ⟨(j 1).val, (j 1).isLt⟩)
    ⟨(i 0).val, (i 0).isLt⟩ ⟨(i 1).val, (i 1).isLt⟩

/-- A sum of 8192 terms is the sum of its 4 blocks of 2048 consecutive terms. -/
theorem sum_blocks {M : Type*} [AddCommMonoid M] (f : Fin 8192 → M) :
    ∑ K : Fin 8192, f K = ∑ k : Fin 4, ∑ j : Fin 2048, f ⟨k.val * 2048 + j.val, by omega⟩ := by
  rw [← Equiv.sum_comp (finProdFinEquiv : Fin 4 × Fin 2048 ≃ Fin 8192) f, Fintype.sum_prod_type]
  refine Finset.sum_congr rfl fun k _ => Finset.sum_congr rfl fun j _ => ?_
  congr 1
  apply Fin.ext
  simp only [finProdFinEquiv_apply_val]
  omega

/-- The four accumulation steps, written out from `0`, add up to the whole sum. -/
theorem four_blocks (f : Fin 8192 → EReal) :
    (((0 + ∑ j : Fin 2048, f ⟨0 * 2048 + j.val, by omega⟩) + ∑ j : Fin 2048, f ⟨1 * 2048 + j.val, by omega⟩)
      + ∑ j : Fin 2048, f ⟨2 * 2048 + j.val, by omega⟩) + ∑ j : Fin 2048, f ⟨3 * 2048 + j.val, by omega⟩
    = ∑ K : Fin 8192, f K := by
  rw [sum_blocks f, Fin.sum_univ_four, zero_add]
  rfl

/-- The first `n` accumulation steps (`n ≤ 4`) add up the terms below `2048·n`; a step past the fourth adds nothing. -/
theorem sum_blocks_upto (f : Fin 8192 → EReal) (n : ℕ) (hn : n ≤ 4) :
    (∑ k ∈ Finset.range n, ∑ j : Fin 2048, if h : k < 4 then f ⟨k * 2048 + j.val, by omega⟩ else 0)
    = ∑ K : Fin 8192, if K.val < n * 2048 then f K else 0 := by
  rw [sum_blocks (fun K => if K.val < n * 2048 then f K else 0)]
  have h1 : ∀ k : Fin 4,
      (∑ j : Fin 2048, (fun K : Fin 8192 => if K.val < n * 2048 then f K else 0) ⟨k.val * 2048 + j.val, by omega⟩)
      = if k.val < n then (∑ j : Fin 2048, if h : k.val < 4 then f ⟨k.val * 2048 + j.val, by omega⟩ else 0) else 0 := by
    intro k
    by_cases hk : k.val < n
    · rw [if_pos hk]
      refine Finset.sum_congr rfl fun j _ => ?_
      have hlt : k.val * 2048 + j.val < n * 2048 := by omega
      rw [dif_pos k.isLt]
      exact if_pos hlt
    · rw [if_neg hk]
      refine Finset.sum_eq_zero fun j _ => ?_
      have hge : ¬ k.val * 2048 + j.val < n * 2048 := by omega
      exact if_neg hge
  rw [Finset.sum_congr rfl (fun k _ => h1 k),
    Fin.sum_univ_eq_sum_range
      (fun k => if k < n then (∑ j : Fin 2048, if h : k < 4 then f ⟨k * 2048 + j.val, by omega⟩ else 0) else 0) 4,
    ← Finset.sum_filter]
  congr 1
  ext k
  simp only [Finset.mem_filter, Finset.mem_range]
  omega

/-- All four steps: the whole sum. -/
theorem sum_blocks_upto_four (f : Fin 8192 → EReal) :
    (∑ k ∈ Finset.range 4, ∑ j : Fin 2048, if h : k < 4 then f ⟨k * 2048 + j.val, by omega⟩ else 0)
    = ∑ K : Fin 8192, f K := by
  rw [sum_blocks_upto f 4 le_rfl]
  exact Finset.sum_congr rfl fun K _ => if_pos (by omega)

end Cert.Basis

end
-- ==== Proof.ToBasisSteps.lean ====
/-
  The first product, `Eᵀ·X`, summed block by block. At the ideal values (the extended reals, every operation exact) the
  step at grid point t = 4·i + k adds to the accumulator, at (r, cc), the products `E[2048·k + j, 1024·i + r] · X[2048·k + j, cc]`
  over j < 2048: the point's block of `E` is rows 2048·k.. and columns 1024·i.. of the array, and the rows of `X` it reads are
  rows 2048·k.. — a block's coordinate in its array is ALWAYS block index × block size + the coordinate inside the block.
  So after the point with k = 0 the accumulator holds block 0 of the sum `∑ K < 8192, E[K, R] · X[K, cc]` (R = 1024·i + r) over
  the zero it was reset to, after each later point one block more (induction over the four points of a row tile), and
  at k = 3, where the accumulator is copied to the result tile, all four: the whole sum, `(Eᵀ·X)[R, cc]`
  (`Cert.Basis.sum_blocks_upto_four`; addition of extended reals is associative and `0` is neutral, no finiteness asked).
-/
import proofs.«111915_j83854941487389_2_alg».proof.Proof.ToBasisPieces
import proofs.«111915_j83854941487389_2_alg».proof.Proof.PayIdx
import proofs.«111915_j83854941487389_2_alg».proof.Proof.Basis
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The basis `E` as the region finds it. -/
abbrev E0 (c : Dev nD) : S8192x8192.Idx → EReal := V c main_arg6
/-- The signal `X` as the region finds it. -/
abbrev X0 (c : Dev nD) : S8192x128.Idx → EReal := V c main_v27

/-- One term of `(Eᵀ·X)[R, cc]`. -/
def term0 (c : Dev nD) (R : Fin 8192) (cc : Fin 128) (K : Fin 8192) : EReal :=
  E0 V c (ix2 K R) * X0 V c (ix2 K cc)

/-- Block `k` (2048 consecutive terms) of `(Eᵀ·X)[R, cc]`; nothing past the fourth block. -/
def blockSum0 (c : Dev nD) (R : Fin 8192) (cc : Fin 128) (k : ℕ) : EReal :=
  ∑ j : Fin 2048, if h : k < 4 then term0 V c R cc ⟨k * 2048 + j.val, by omega⟩ else 0

/-- The basis block at point t = 4·i + k holds rows 2048·k.. and columns 1024·i.. of `E`. -/
theorem blk0_0_apply (c : Dev nD) (t : Fin cfg0.N) (i : Fin 8) (k : ℕ) (hk : k < 4) (ht : t.val = 4 * i.val + k)
    (j : Fin 2048) (r : Fin 1024) :
    (blk0 V c 0 t : Vec Ideal S2048x1024 .f32) (ix2 j r)
      = E0 V c (ix2 ⟨k * 2048 + j.val, by omega⟩ ⟨i.val * 1024 + r.val, by omega⟩) := by
  obtain ⟨e0, e1, -⟩ := idx_facts0 t
  show V c main_arg6 (((cfg0.win 0).blk t).view.emb (ix2 j r)) = V c main_arg6 _
  refine congrArg (V c main_arg6) (funext fun a => Fin.ext ?_)
  match a with
  | ⟨0, _⟩ => show win0_0.index t (0 : Fin 2) * 2048 + 1 * j.val = k * 2048 + j.val; rw [e0]; omega
  | ⟨1, _⟩ => show win0_0.index t (1 : Fin 2) * 1024 + 1 * r.val = i.val * 1024 + r.val; rw [e1]; omega

/-- The rows of the signal that point t = 4·i + k reads are rows 2048·k.. of `X`. -/
theorem rows0_apply (c : Dev nD) (t : Fin cfg0.N) (i : Fin 8) (k : ℕ) (hk : k < 4) (ht : t.val = 4 * i.val + k)
    (j : Fin 2048) (cc : Fin 128) :
    rows0 (grid0.coords t) (blk0 V c 1 t : Vec Ideal S8192x128 .bf16) (ix2 j cc)
      = X0 V c (ix2 ⟨k * 2048 + j.val, by omega⟩ cc) := by
  obtain ⟨-, -, e2, e3, -, -, e6, e7⟩ := idx_facts0 t
  show V c main_v27 (((cfg0.win 1).blk t).view.emb
    ((Rect.unit (s := S8192x128) (k0_off1 (grid0.coords t)) S2048x128.size (k0_off1_inb (grid0.coords t))).idx (ix2 j cc))) = V c main_v27 _
  refine congrArg (V c main_v27) (funext fun a => Fin.ext ?_)
  match a with
  | ⟨0, _⟩ => show win0_1.index t (0 : Fin 2) * 8192 + 1 * (k0_off1 (grid0.coords t) 0 + 1 * j.val) = k * 2048 + j.val; rw [e2, e6]; omega
  | ⟨1, _⟩ => show win0_1.index t (1 : Fin 2) * 128 + 1 * (k0_off1 (grid0.coords t) 1 + 1 * cc.val) = cc.val; rw [e3, e7]; omega

/-- One accumulation step at point t = 4·i + k, at (r, cc): the accumulator plus block `k` of the row's sum. -/
theorem step0_apply (c : Dev nD) (t : Fin cfg0.N) (i : Fin 8) (k : ℕ) (hk : k < 4) (ht : t.val = 4 * i.val + k)
    (acc : Vec Ideal S1024x128 .f32) (r : Fin 1024) (cc : Fin 128) :
    k0_pay2 (F := Ideal) (rows0 (grid0.coords t) (blk0 V c 1 t)) (blk0 V c 0 t) acc (ix2 r cc)
      = acc (ix2 r cc) + blockSum0 V c ⟨i.val * 1024 + r.val, by omega⟩ cc k := by
  refine (PayIdx.pay2_0 (rows0 (grid0.coords t) (blk0 V c 1 t)) (blk0 V c 0 t) acc r cc).trans ?_
  refine congrArg (fun s => acc (ix2 r cc) + s) ?_
  unfold blockSum0
  refine Finset.sum_congr rfl fun j _ => ?_
  rw [dif_pos hk]
  unfold term0
  rw [blk0_0_apply V c t i k hk ht j r, rows0_apply V c t i k hk ht j cc]

/-- The second component of a pair known by an equation, through an equation for that component. -/
theorem snd_of_eq {α β : Type} {p : α × β} {a : α} {b b' : β} (h : p = (a, b)) (hb : b = b') : p.2 = b' := by
  subst hb; rw [h]
/-- The first component likewise. -/
theorem fst_of_eq {α β : Type} {p : α × β} {a a' : α} {b : β} (h : p = (a, b)) (ha : a = a') : p.1 = a' := by
  subst ha; rw [h]

/-- Where k = 0 the accumulator ends at the step's arithmetic over the zero block; -/
theorem accStep0_first (c : Dev nD) (t : Fin cfg0.N) (h0 : t.val % 4 = 0) (h1 : ¬t.val % 4 = 3) :
    (tileAcc0 (F := Ideal) V c t.val t.isLt).2
      = k0_pay2 (F := Ideal) (rows0 (grid0.coords t) (blk0 V c 1 t)) (blk0 V c 0 t) (k0_pay1 (F := Ideal)) :=
  snd_of_eq (tileAcc0_first (F := Ideal) V c t h0 h1)
    (accFirst0_eq (F := Ideal) c (grid0.coords t) (ms0_0 t) (hs0_0 t) (ms0_1 t) (hs0_1 t) (ms0_2 t) (hs0_2 t) acc0 (Memref.isWhole_whole _) ((first0_iff t).mpr h0) (fun h => h1 ((last0_iff t).mp h)) (blk0 V c 0 t) (blk0 V c 1 t))

/-- at the later points, at the step's arithmetic over what the point before left. -/
theorem accStep0_next (c : Dev nD) (t : Fin cfg0.N) (h0 : ¬t.val % 4 = 0) :
    (tileAcc0 (F := Ideal) V c t.val t.isLt).2
      = k0_pay2 (F := Ideal) (rows0 (grid0.coords t) (blk0 V c 1 t)) (blk0 V c 0 t)
          (tileAcc0 (F := Ideal) V c (t.val - 1) (Nat.lt_of_le_of_lt (Nat.sub_le _ _) t.isLt)).2 := by
  by_cases h1 : t.val % 4 = 3
  · exact snd_of_eq (tileAcc0_last (F := Ideal) V c t h0 h1)
      (accLast0_eq (F := Ideal) c (grid0.coords t) (ms0_0 t) (hs0_0 t) (ms0_1 t) (hs0_1 t) (ms0_2 t) (hs0_2 t) acc0 (Memref.isWhole_whole _) (fun h => h0 ((first0_iff t).mp h)) ((last0_iff t).mpr h1) (blk0 V c 0 t) (blk0 V c 1 t) (tileAcc0 (F := Ideal) V c (t.val - 1) (Nat.lt_of_le_of_lt (Nat.sub_le _ _) t.isLt)).2)
  · exact snd_of_eq (tileAcc0_mid (F := Ideal) V c t h0 h1)
      (accMid0_eq (F := Ideal) c (grid0.coords t) (ms0_0 t) (hs0_0 t) (ms0_1 t) (hs0_1 t) (ms0_2 t) (hs0_2 t) acc0 (Memref.isWhole_whole _) (fun h => h0 ((first0_iff t).mp h)) (fun h => h1 ((last0_iff t).mp h)) (blk0 V c 0 t) (blk0 V c 1 t) (tileAcc0 (F := Ideal) V c (t.val - 1) (Nat.lt_of_le_of_lt (Nat.sub_le _ _) t.isLt)).2)

/-- Where k = 3 the result tile's buffer receives the same. -/
theorem outStep0_last (c : Dev nD) (t : Fin cfg0.N) (h0 : ¬t.val % 4 = 0) (h1 : t.val % 4 = 3) :
    (tileAcc0 (F := Ideal) V c t.val t.isLt).1
      = k0_pay2 (F := Ideal) (rows0 (grid0.coords t) (blk0 V c 1 t)) (blk0 V c 0 t)
          (tileAcc0 (F := Ideal) V c (t.val - 1) (Nat.lt_of_le_of_lt (Nat.sub_le _ _) t.isLt)).2 :=
  fst_of_eq (tileAcc0_last (F := Ideal) V c t h0 h1)
    (outLast0_eq (F := Ideal) c (grid0.coords t) (ms0_0 t) (hs0_0 t) (ms0_1 t) (hs0_1 t) (ms0_2 t) (hs0_2 t) acc0 (Memref.isWhole_whole _) (fun h => h0 ((first0_iff t).mp h)) ((last0_iff t).mpr h1) (blk0 V c 0 t) (blk0 V c 1 t) (tileAcc0 (F := Ideal) V c (t.val - 1) (Nat.lt_of_le_of_lt (Nat.sub_le _ _) t.isLt)).2)

/-- After point t = 4·i + k the accumulator holds, at (r, cc), the first k + 1 blocks of `(Eᵀ·X)[1024·i + r, cc]`. -/
theorem acc0_eq (c : Dev nD) (i : Fin 8) : ∀ (k : ℕ) (hk : k < 4) (t : Fin cfg0.N) (ht : t.val = 4 * i.val + k)
    (r : Fin 1024) (cc : Fin 128),
    (tileAcc0 (F := Ideal) V c t.val t.isLt).2 (ix2 r cc)
      = ∑ k' ∈ Finset.range (k + 1), blockSum0 V c ⟨i.val * 1024 + r.val, by omega⟩ cc k'
  | 0, hk, t, ht, r, cc => by
    have h0 : t.val % 4 = 0 := by omega
    have h1 : ¬t.val % 4 = 3 := by omega
    refine (congrFun (accStep0_first V c t h0 h1) (ix2 r cc)).trans ?_
    refine (step0_apply V c t i 0 hk ht (k0_pay1 (F := Ideal)) r cc).trans ?_
    rw [PayIdx.pay1_0, zero_add, Finset.sum_range_one]
  | k + 1, hk, t, ht, r, cc => by
    have h0 : ¬t.val % 4 = 0 := by omega
    have hlt : t.val - 1 < cfg0.N := Nat.lt_of_le_of_lt (Nat.sub_le _ _) t.isLt
    have ih : (tileAcc0 (F := Ideal) V c (t.val - 1) hlt).2 (ix2 r cc) = _ :=
      acc0_eq c i k (by omega) ⟨t.val - 1, hlt⟩ (by show t.val - 1 = _; omega) r cc
    refine (congrFun (accStep0_next V c t h0) (ix2 r cc)).trans ?_
    refine (step0_apply V c t i (k + 1) hk ht (tileAcc0 (F := Ideal) V c (t.val - 1) hlt).2 r cc).trans ?_
    rw [ih, Finset.sum_range_succ _ (k + 1)]

/-- At the last point of row tile `i` (k = 3) the result tile's buffer holds the whole sums: rows 1024·i.. of `Eᵀ·X`. -/
theorem tile0_last (c : Dev nD) (i : Fin 8) (t : Fin cfg0.N) (ht : t.val = 4 * i.val + 3) (r : Fin 1024) (cc : Fin 128) :
    (tileAcc0 (F := Ideal) V c t.val t.isLt).1 (ix2 r cc)
      = Cert.Basis.toBasis (E0 V c) (X0 V c) ⟨i.val * 1024 + r.val, by omega⟩ cc := by
  have h0 : ¬t.val % 4 = 0 := by omega
  have h1 : t.val % 4 = 3 := by omega
  have hfst : (tileAcc0 (F := Ideal) V c t.val t.isLt).1 = (tileAcc0 (F := Ideal) V c t.val t.isLt).2 :=
    (outStep0_last V c t h0 h1).trans (accStep0_next V c t h0).symm
  refine (congrFun hfst (ix2 r cc)).trans ?_
  refine (acc0_eq V c i 3 (by omega) t ht r cc).trans ?_
  unfold blockSum0
  exact Cert.Basis.sum_blocks_upto_four (term0 V c ⟨i.val * 1024 + r.val, by omega⟩ cc)

end Cert.KernelIdeal.Value

end
-- ==== Proof.ToBasisValue.lean ====
/-
  The first product's result array is `Eᵀ·X`. The result window's block at grid point t = 4·i + k is rows 1024·i.. of
  the array, written back exactly at the points with k = 3, where the result tile's buffer holds the whole sums
  `∑ K < 8192, E[K, 1024·i + r] · X[K, cc]` (`tile0_last`). So what every writing point writes back is ITS BLOCK of one
  whole-array function, `(Eᵀ·X)[R, cc]` (`flushed0_eq`: an element of the block sits in the array at block index × block
  size + its coordinate in the block), every row R of the array lies in the block written back at the point
  4·(R / 1024) + 3 (`cover0`), and therefore the array ends holding that function (`toBasis_array`).
-/
import proofs.«111915_j83854941487389_2_alg».proof.Proof.ToBasisSteps
import proofs.«111915_j83854941487389_2_alg».proof.Proof.PayIdx
import proofs.«111915_j83854941487389_2_alg».proof.Proof.Basis
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The array the first product leaves: `Eᵀ·X`, index by index. -/
abbrev G0 (c : Dev nD) : S8192x128.Idx → EReal := fun i =>
  Cert.Basis.toBasis (E0 V c) (X0 V c) ⟨(i 0).val, (i 0).isLt⟩ ⟨(i 1).val, (i 1).isLt⟩

/-- What a point with k = 3 writes back is its block — rows 1024·i.. — of `Eᵀ·X`. -/
theorem flushed0_eq (c : Dev nD) (t : Fin cfg0.N) (hf : (cfg0.win 2).flush t = true) :
    (dat0 (F := Ideal) V c).flushed 2 t = ((cfg0.win 2).blk t).view.read (Elt Ideal) (G0 V c) := by
  have h3 : t.val % 4 = 3 := (flush0_2 t).mp hf
  have hN : t.val < 32 := lt_of_lt_of_eq t.isLt (show cfg0.N = 32 from N_0)
  obtain ⟨-, -, -, -, e4, e5, -⟩ := idx_facts0 t
  show (cfg0.win 2).cut (grid0.coords t) ((dat0 (F := Ideal) V c).after 2 t) = _
  rw [after0_2 (F := Ideal) V c t]
  funext y
  have hy0 : (y 0).val < 1024 := (y 0).isLt
  have hy1 : (y 1).val < 128 := (y 1).isLt
  have ex : (cfg0.win 2).xinj (grid0.coords t) y = ix2 (⟨(y 0).val, hy0⟩ : Fin 1024) (⟨(y 1).val, hy1⟩ : Fin 128) :=
    funext fun a => Fin.ext (by match a with | ⟨0, _⟩ => rfl | ⟨1, _⟩ => rfl)
  refine (congrArg (tileAcc0 (F := Ideal) V c t.val t.isLt).1 ex).trans ?_
  refine (tile0_last V c ⟨t.val / 4, by omega⟩ t (by show t.val = 4 * (t.val / 4) + 3; omega) ⟨(y 0).val, hy0⟩ ⟨(y 1).val, hy1⟩).trans ?_
  show _ = G0 V c (((cfg0.win 2).blk t).view.emb y)
  unfold G0
  have hr : (⟨(⟨t.val / 4, by omega⟩ : Fin 8).val * 1024 + (⟨(y 0).val, hy0⟩ : Fin 1024).val, by show t.val / 4 * 1024 + (y 0).val < 8192; omega⟩ : Fin 8192)
      = ⟨((((cfg0.win 2).blk t).view.emb y) 0).val, ((((cfg0.win 2).blk t).view.emb y) 0).isLt⟩ :=
    Fin.ext (by show t.val / 4 * 1024 + (y 0).val = win0_2.index t (0 : Fin 2) * 1024 + 1 * (y 0).val; rw [e4]; omega)
  have hc : (⟨(y 1).val, hy1⟩ : Fin 128)
      = ⟨((((cfg0.win 2).blk t).view.emb y) 1).val, ((((cfg0.win 2).blk t).view.emb y) 1).isLt⟩ :=
    Fin.ext (by show (y 1).val = win0_2.index t (1 : Fin 2) * 128 + 1 * (y 1).val; rw [e5]; omega)
  rw [hr, hc]

/-- Every row R of the array is in the block written back at point 4·(R / 1024) + 3. -/
theorem cover0 (c : Dev nD) (idx : ((cfg0.win 2).arr.view.loc (c.tc : Thread nD τ)).2.ty.Idx) :
    ∃ t : Fin cfg0.N, (cfg0.win 2).flush t = true ∧ idx ∈ ((cfg0.win 2).blk t).view.set := by
  have hN : cfg0.N = 32 := N_0
  have h0 : (idx 0).val < 8192 := (idx 0).isLt
  have h1 : (idx 1).val < 128 := (idx 1).isLt
  obtain ⟨t, ht⟩ : ∃ t : Fin cfg0.N, t.val = 4 * ((idx 0).val / 1024) + 3 :=
    ⟨⟨4 * ((idx 0).val / 1024) + 3, by omega⟩, rfl⟩
  obtain ⟨-, -, -, -, e4, e5, -⟩ := idx_facts0 t
  refine ⟨t, (flush0_2 t).mpr (by omega), ?_⟩
  show idx ∈ ((View.whole main_v28).slice (win0_2.rect t)).set
  rw [View.set_slice_whole, Rect.mem_set_unit]
  intro a
  match a with
  | ⟨0, _⟩ =>
    show win0_2.index t (0 : Fin 2) * 1024 ≤ (idx 0).val ∧ (idx 0).val < win0_2.index t (0 : Fin 2) * 1024 + 1024
    rw [e4]; omega
  | ⟨1, _⟩ =>
    show win0_2.index t (1 : Fin 2) * 128 ≤ (idx 1).val ∧ (idx 1).val < win0_2.index t (1 : Fin 2) * 128 + 128
    rw [e5]; omega

/-- The first product's result array after the run is `Eᵀ·X` of the arrays the region was entered with. -/
theorem toBasis_array (c : Dev nD) :
    (dat0 (F := Ideal) V c).arrAt 2 cfg0.N
      = fun i => Cert.Basis.toBasis (V c main_arg6) (V c main_v27) ⟨(i 0).val, (i 0).isLt⟩ ⟨(i 1).val, (i 1).isLt⟩ :=
  (dat0 (F := Ideal) V c).arrAt_eq_of_cover 2 (G0 V c) (flushed0_eq V c) (cover0 c)

end Cert.KernelIdeal.Value

end
-- ==== Proof.FromBasisPieces.lean ====
/-
  The second product, E·B with B = x_spec ⊙ coefs, one grid point at a time: what the step's stores leave, as the step's
  arithmetic. At every point the body loads the point's block of E (1024 rows × 2048 columns), 2048 rows of x_spec and of
  coefs starting at row 2048·k, and the accumulator, and stores the accumulator plus the product of the E block with
  the rows' pointwise product; where k = 0 the accumulator is first overwritten with zeros and that is what is read
  back; where k = 3 the accumulator is then copied into the result tile's buffer. So in each of the three control cases
  the accumulator — and at k = 3 the result tile — ends at one term: the step's arithmetic of the blocks and of what the
  accumulator held (the zero block at k = 0). Stated for any float values. Also here, decided once over the 32 grid
  points t = 4·i + k: the block indices of the four windows and the row offset 2048·k.
-/
import proofs.«111915_j83854941487389_2_alg».proof.Proof.FromBasisFrame
import Idealize.ShloMosaic.Lib.Pipeline.Value
import Idealize.ShloMosaic.Lib.Tactic

set_option maxRecDepth 16384

noncomputable section

namespace Cert.KernelIdeal.Value

open Cert.KernelIdeal Cert.KernelIdeal.Gen Cert.KernelIdeal.Frame
open Idealize.ShloMosaic Idealize.ShloMosaic.TcCoe Idealize.ShloMosaic.Tactic Idealize.SL.Sem

variable {F : FTy → Type} [FloatOps F]

theorem hz1 : (![0, 0] : Fin 2 → Nat) = fun _ => 0 := funext fun a => by fin_cases a <;> rfl

/-- The rows of a whole [8192,128] operand that the step at grid coordinates `i` reads: 2048 rows from row 2048·k. -/
abbrev rows1 (i : grid1.Coords) (x : Vec F S8192x128 .f32) : Vec F S2048x128 .f32 :=
  View.ld x (Rect.unit (s := S8192x128) (k1_off1 i) S2048x128.size (k1_off1_inb i))

/-- 0 < k < 3: the accumulator ends at the step's arithmetic of the blocks and what it held. -/
theorem accMid1_eq (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : ¬last1 i)
    (x0 : Vec F S1024x2048 .f32) (x1 : Vec F S8192x128 .f32) (x2 : Vec F S8192x128 .f32) (xs : Vec F S1024x128 .f32) :
    accMid1 c i arg2 harg2 arg3 harg3 arg4 harg4 arg5 harg5 arg6 harg6 hc0 hc1 x0 x1 x2 xs = k1_pay2 (rows1 i x1) (rows1 i x2) x0 xs := by
  unfold accMid1
  rw [View.read_writes_eq_canon _ _ _ (accCoverMid1 c i arg2 harg2 arg3 harg3 arg4 harg4 arg5 harg5 arg6 harg6 hc0 hc1 x0 x1 x2 xs)]
  unfold runMid1
  dsimp only
  sl_unfold_words
  rw [View.canon_unit_zero hz1]
  simp only [View.readAt_eq_ld, harg2.read_unread, harg3.read_unread, harg4.read_unread, harg6.read_unread,
    View.ld_unit_zero (S := S1024x2048) hz1, View.ld_unit_zero (S := S1024x128) hz1]
  try rfl

/-- k = 0: the accumulator is zeroed, read back, and ends at the step's arithmetic over the zero block. -/
theorem accFirst1_eq (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : first1 i) (hc1 : ¬last1 i)
    (x0 : Vec F S1024x2048 .f32) (x1 : Vec F S8192x128 .f32) (x2 : Vec F S8192x128 .f32) :
    accFirst1 c i arg2 harg2 arg3 harg3 arg4 harg4 arg5 harg5 arg6 harg6 hc0 hc1 x0 x1 x2 = k1_pay2 (rows1 i x1) (rows1 i x2) x0 k1_pay1 := by
  unfold accFirst1
  rw [View.read_writes_eq_canon _ _ _ (accCoverFirst1 c i arg2 harg2 arg3 harg3 arg4 harg4 arg5 harg5 arg6 harg6 hc0 hc1 x0 x1 x2)]
  unfold runFirst1
  dsimp only
  sl_unfold_words
  rw [View.canon_cons_unit_zero (S := S1024x128) hz1, View.readCov_unit_zero (S := S1024x128) _ hz1]
  simp only [View.readAt_eq_ld, harg2.read_unread, harg3.read_unread, harg4.read_unread, View.ld_unit_zero (S := S1024x2048) hz1]
  try rfl

/-- k = 3: the accumulator ends at the step's arithmetic, as at the middle points; -/
theorem accLast1_eq (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) :
    accLast1 c i arg2 harg2 arg3 harg3 arg4 harg4 arg5 harg5 arg6 harg6 hc0 hc1 x0 x1 x2 xs = k1_pay2 (rows1 i x1) (rows1 i x2) x0 xs := by
  unfold accLast1
  rw [View.read_writes_eq_canon _ _ _ (accCoverLast1 c i arg2 harg2 arg3 harg3 arg4 harg4 arg5 harg5 arg6 harg6 hc0 hc1 x0 x1 x2 xs)]
  unfold runLast1
  dsimp only
  sl_unfold_words
  rw [View.canon_unit_zero hz1]
  simp only [View.readAt_eq_ld, harg2.read_unread, harg3.read_unread, harg4.read_unread, harg6.read_unread,
    View.ld_unit_zero (S := S1024x2048) hz1, View.ld_unit_zero (S := S1024x128) hz1]
  try rfl

/-- and the result tile's buffer receives a copy of it. -/
theorem outLast1_eq (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1024x128 .f32) (harg5 : arg5.IsWhole) (arg6 : Memref sig .tc .vmem S1024x128 .f32) (harg6 : arg6.IsWhole) (hc0 : ¬first1 i) (hc1 : last1 i)
    (x0 : Vec F S1024x2048 .f32) (x1 : Vec F S8192x128 .f32) (x2 : Vec F S8192x128 .f32) (xs : Vec F S1024x128 .f32) :
    outLast1 c i arg2 harg2 arg3 harg3 arg4 harg4 arg5 harg5 arg6 harg6 hc0 hc1 x0 x1 x2 xs = k1_pay2 (rows1 i x1) (rows1 i x2) x0 xs := by
  unfold outLast1
  rw [View.read_writes_eq_canon _ _ _ (outCoverLast1 c i arg2 harg2 arg3 harg3 arg4 harg4 arg5 harg5 arg6 harg6 hc0 hc1 x0 x1 x2 xs)]
  unfold runLast1
  dsimp only
  sl_unfold_words
  rw [View.canon_unit_zero hz1, View.readCov_unit_zero (S := S1024x128) _ hz1]
  simp only [View.readAt_eq_ld, harg2.read_unread, harg3.read_unread, harg4.read_unread, harg6.read_unread,
    View.ld_unit_zero (S := S1024x2048) hz1, View.ld_unit_zero (S := S1024x128) hz1]
  try rfl

/-- The grid's 32 points are t = 4·i + k. Window 0 (the basis) is at block (i, k), windows 1 and 2 (x_spec and the
    coefficients, one block each) at block (0, 0), window 3 (the result) at block (i, 0); the step reads the rows of
    x_spec and of the coefficients from row 2048·k. -/
theorem idx_facts1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ k1_off1 (grid1.coords t) 0 = (t.val % 4) * 2048 ∧ k1_off1 (grid1.coords t) 1 = 0 :=
  (by decide +kernel : ∀ t : Fin grid1.N, _)

end Cert.KernelIdeal.Value

end
-- ==== Proof.FromBasisSums.lean ====
/-
  The second product's accumulator as partial sums. With E the basis, S the spectral signal and C the coefficients as
  the region finds them, entry (R, c) of E · (S ⊙ C) is the sum over K of E[R,K] · (S[K,c] · C[K,c]), which splits into
  four blocks of 2048 consecutive K. The step at grid point t = 4·i + k adds block k of the sums of rows 1024·i.. to the
  accumulator, which the step at k = 0 starts from zero; so after point 4·i + k the accumulator holds the first k + 1
  blocks, and at k = 3 the result tile's buffer holds the whole sums.
-/
import proofs.«111915_j83854941487389_2_alg».proof.Proof.FromBasisPieces
import proofs.«111915_j83854941487389_2_alg».proof.Proof.PayIdx
import proofs.«111915_j83854941487389_2_alg».proof.Proof.Basis
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The basis E as the region finds it. -/
abbrev E1 (c : Dev nD) : S8192x8192.Idx → EReal := V c main_arg6
/-- The spectral signal S as the region finds it. -/
abbrev S1 (c : Dev nD) : S8192x128.Idx → EReal := V c main_v28
/-- The coefficients C as the region finds them. -/
abbrev C1 (c : Dev nD) : S8192x128.Idx → EReal := V c main_v23

/-- One term of (E·(S ⊙ C))[R, cc]. -/
def term1 (c : Dev nD) (R : Fin 8192) (cc : Fin 128) (K : Fin 8192) : EReal :=
  E1 V c (ix2 R K) * (S1 V c (ix2 K cc) * C1 V c (ix2 K cc))

/-- Block k (2048 consecutive terms) of (E·(S ⊙ C))[R, cc]; nothing past the fourth block. -/
def blockSum1 (c : Dev nD) (R : Fin 8192) (cc : Fin 128) (k : ℕ) : EReal :=
  ∑ j : Fin 2048, if h : k < 4 then term1 V c R cc ⟨k * 2048 + j.val, by omega⟩ else 0

/-- The basis block at point t = 4·i + k holds rows 1024·i.. and columns 2048·k.. of E. -/
theorem blk1_0_apply (c : Dev nD) (t : Fin cfg1.N) (i : Fin 8) (k : ℕ) (hk : k < 4) (ht : t.val = 4 * i.val + k)
    (r : Fin 1024) (j : Fin 2048) :
    (blk1 V c 0 t : Vec Ideal S1024x2048 .f32) (ix2 r j)
      = E1 V c (ix2 ⟨i.val * 1024 + r.val, by omega⟩ ⟨k * 2048 + j.val, by omega⟩) := by
  obtain ⟨e0, e1, -⟩ := idx_facts1 t
  show V c main_arg6 (((cfg1.win 0).blk t).view.emb (ix2 r j)) = V c main_arg6 _
  refine congrArg (V c main_arg6) (funext fun a => Fin.ext ?_)
  match a with
  | ⟨0, _⟩ => show win1_0.index t (0 : Fin 2) * 1024 + 1 * r.val = i.val * 1024 + r.val; rw [e0]; omega
  | ⟨1, _⟩ => show win1_0.index t (1 : Fin 2) * 2048 + 1 * j.val = k * 2048 + j.val; rw [e1]; omega

/-- The rows of S that point t = 4·i + k reads are rows 2048·k.. -/
theorem rowsS_apply (c : Dev nD) (t : Fin cfg1.N) (i : Fin 8) (k : ℕ) (hk : k < 4) (ht : t.val = 4 * i.val + k)
    (j : Fin 2048) (cc : Fin 128) :
    rows1 (grid1.coords t) (blk1 V c 1 t : Vec Ideal S8192x128 .f32) (ix2 j cc)
      = S1 V c (ix2 ⟨k * 2048 + j.val, by omega⟩ cc) := by
  obtain ⟨-, -, e2, e3, -, -, -, -, e8, e9⟩ := idx_facts1 t
  show V c main_v28 (((cfg1.win 1).blk t).view.emb
    ((Rect.unit (s := S8192x128) (k1_off1 (grid1.coords t)) S2048x128.size (k1_off1_inb (grid1.coords t))).idx (ix2 j cc))) = V c main_v28 _
  refine congrArg (V c main_v28) (funext fun a => Fin.ext ?_)
  match a with
  | ⟨0, _⟩ => show win1_1.index t (0 : Fin 2) * 8192 + 1 * (k1_off1 (grid1.coords t) 0 + 1 * j.val) = k * 2048 + j.val; rw [e2, e8]; omega
  | ⟨1, _⟩ => show win1_1.index t (1 : Fin 2) * 128 + 1 * (k1_off1 (grid1.coords t) 1 + 1 * cc.val) = cc.val; rw [e3, e9]; omega

/-- and the same rows of C. -/
theorem rowsC_apply (c : Dev nD) (t : Fin cfg1.N) (i : Fin 8) (k : ℕ) (hk : k < 4) (ht : t.val = 4 * i.val + k)
    (j : Fin 2048) (cc : Fin 128) :
    rows1 (grid1.coords t) (blk1 V c 2 t : Vec Ideal S8192x128 .f32) (ix2 j cc)
      = C1 V c (ix2 ⟨k * 2048 + j.val, by omega⟩ cc) := by
  obtain ⟨-, -, -, -, e4, e5, -, -, e8, e9⟩ := idx_facts1 t
  show V c main_v23 (((cfg1.win 2).blk t).view.emb
    ((Rect.unit (s := S8192x128) (k1_off1 (grid1.coords t)) S2048x128.size (k1_off1_inb (grid1.coords t))).idx (ix2 j cc))) = V c main_v23 _
  refine congrArg (V c main_v23) (funext fun a => Fin.ext ?_)
  match a with
  | ⟨0, _⟩ => show win1_2.index t (0 : Fin 2) * 8192 + 1 * (k1_off1 (grid1.coords t) 0 + 1 * j.val) = k * 2048 + j.val; rw [e4, e8]; omega
  | ⟨1, _⟩ => show win1_2.index t (1 : Fin 2) * 128 + 1 * (k1_off1 (grid1.coords t) 1 + 1 * cc.val) = cc.val; rw [e5, e9]; omega

/-- One accumulation step at point t = 4·i + k, at (r, cc): the accumulator plus block k of the row's sum. -/
theorem step1_apply (c : Dev nD) (t : Fin cfg1.N) (i : Fin 8) (k : ℕ) (hk : k < 4) (ht : t.val = 4 * i.val + k)
    (acc : Vec Ideal S1024x128 .f32) (r : Fin 1024) (cc : Fin 128) :
    k1_pay2 (F := Ideal) (rows1 (grid1.coords t) (blk1 V c 1 t)) (rows1 (grid1.coords t) (blk1 V c 2 t)) (blk1 V c 0 t) acc (ix2 r cc)
      = acc (ix2 r cc) + blockSum1 V c ⟨i.val * 1024 + r.val, by omega⟩ cc k := by
  refine (PayIdx.pay2_1 (rows1 (grid1.coords t) (blk1 V c 1 t)) (rows1 (grid1.coords t) (blk1 V c 2 t)) (blk1 V c 0 t) acc r cc).trans ?_
  refine congrArg (fun s => acc (ix2 r cc) + s) ?_
  unfold blockSum1
  refine Finset.sum_congr rfl fun j _ => ?_
  rw [dif_pos hk]
  unfold term1
  rw [blk1_0_apply V c t i k hk ht r j, rowsS_apply V c t i k hk ht j cc, rowsC_apply V c t i k hk ht j cc]

/-- The second component of a pair known by an equation, rewritten by an equation of that component. -/
theorem snd_eq_of {α β : Type} {p : α × β} {a : α} {b b' : β} (h : p = (a, b)) (hb : b = b') : p.2 = b' := by
  subst h; exact hb
theorem fst_eq_of {α β : Type} {p : α × β} {a a' : α} {b : β} (h : p = (a, b)) (ha : a = a') : p.1 = a' := by
  subst h; exact ha

/-- Where k = 0 the accumulator ends at the step's arithmetic over the zero block; -/
theorem accStep1_first (c : Dev nD) (t : Fin cfg1.N) (h0 : t.val % 4 = 0) (h1 : ¬t.val % 4 = 3) :
    (tileAcc1 V c t.val t.isLt).2 = k1_pay2 (rows1 (grid1.coords t) (blk1 V c 1 t)) (rows1 (grid1.coords t) (blk1 V c 2 t)) (blk1 V c 0 t) (k1_pay1 (F := Ideal)) :=
  snd_eq_of (tileAcc1_first (F := Ideal) V c t h0 h1)
    (accFirst1_eq (F := Ideal) c (grid1.coords t) (ms1_0 t) (hs1_0 t) (ms1_1 t) (hs1_1 t) (ms1_2 t) (hs1_2 t) (ms1_3 t) (hs1_3 t) acc1 (Memref.isWhole_whole _) ((first1_iff t).mpr h0) (fun h => h1 ((last1_iff t).mp h)) (blk1 V c 0 t) (blk1 V c 1 t) (blk1 V c 2 t))

/-- at the later points, at the step's arithmetic over what the point before left. -/
theorem accStep1_next (c : Dev nD) (t : Fin cfg1.N) (h0 : ¬t.val % 4 = 0) (hlt : t.val - 1 < cfg1.N) :
    (tileAcc1 V c t.val t.isLt).2
      = k1_pay2 (rows1 (grid1.coords t) (blk1 V c 1 t)) (rows1 (grid1.coords t) (blk1 V c 2 t)) (blk1 V c 0 t) (tileAcc1 V c (t.val - 1) hlt).2 := by
  by_cases h1 : t.val % 4 = 3
  · exact snd_eq_of (tileAcc1_last (F := Ideal) V c t h0 h1)
      (accLast1_eq (F := Ideal) c (grid1.coords t) (ms1_0 t) (hs1_0 t) (ms1_1 t) (hs1_1 t) (ms1_2 t) (hs1_2 t) (ms1_3 t) (hs1_3 t) acc1 (Memref.isWhole_whole _) (fun h => h0 ((first1_iff t).mp h)) ((last1_iff t).mpr h1) (blk1 V c 0 t) (blk1 V c 1 t) (blk1 V c 2 t) (tileAcc1 V c (t.val - 1) hlt).2)
  · exact snd_eq_of (tileAcc1_mid (F := Ideal) V c t h0 h1)
      (accMid1_eq (F := Ideal) c (grid1.coords t) (ms1_0 t) (hs1_0 t) (ms1_1 t) (hs1_1 t) (ms1_2 t) (hs1_2 t) (ms1_3 t) (hs1_3 t) acc1 (Memref.isWhole_whole _) (fun h => h0 ((first1_iff t).mp h)) (fun h => h1 ((last1_iff t).mp h)) (blk1 V c 0 t) (blk1 V c 1 t) (blk1 V c 2 t) (tileAcc1 V c (t.val - 1) hlt).2)

/-- Where k = 3 the result tile's buffer receives what the accumulator ends at. -/
theorem outStep1_last (c : Dev nD) (t : Fin cfg1.N) (h0 : ¬t.val % 4 = 0) (h1 : t.val % 4 = 3) :
    (tileAcc1 V c t.val t.isLt).1 = (tileAcc1 V c t.val t.isLt).2 := by
  have hlt : t.val - 1 < cfg1.N := Nat.lt_of_le_of_lt (Nat.sub_le _ _) t.isLt
  have ha := fst_eq_of (tileAcc1_last (F := Ideal) V c t h0 h1)
    (outLast1_eq (F := Ideal) c (grid1.coords t) (ms1_0 t) (hs1_0 t) (ms1_1 t) (hs1_1 t) (ms1_2 t) (hs1_2 t) (ms1_3 t) (hs1_3 t) acc1 (Memref.isWhole_whole _) (fun h => h0 ((first1_iff t).mp h)) ((last1_iff t).mpr h1) (blk1 V c 0 t) (blk1 V c 1 t) (blk1 V c 2 t) (tileAcc1 V c (t.val - 1) hlt).2)
  have hb := snd_eq_of (tileAcc1_last (F := Ideal) V c t h0 h1)
    (accLast1_eq (F := Ideal) c (grid1.coords t) (ms1_0 t) (hs1_0 t) (ms1_1 t) (hs1_1 t) (ms1_2 t) (hs1_2 t) (ms1_3 t) (hs1_3 t) acc1 (Memref.isWhole_whole _) (fun h => h0 ((first1_iff t).mp h)) ((last1_iff t).mpr h1) (blk1 V c 0 t) (blk1 V c 1 t) (blk1 V c 2 t) (tileAcc1 V c (t.val - 1) hlt).2)
  exact ha.trans hb.symm

/-- After point t = 4·i + k the accumulator holds, at (r, cc), the first k + 1 blocks of (E·(S ⊙ C))[1024·i + r, cc]. -/
theorem acc1_eq (c : Dev nD) (i : Fin 8) (k : ℕ) : ∀ (hk : k < 4) (t : Fin cfg1.N) (ht : t.val = 4 * i.val + k)
    (r : Fin 1024) (cc : Fin 128),
    (tileAcc1 V c t.val t.isLt).2 (ix2 r cc)
      = ∑ k' ∈ Finset.range (k + 1), blockSum1 V c ⟨i.val * 1024 + r.val, by omega⟩ cc k' := by
  induction k with
  | zero =>
    intro hk t ht r cc
    have h0 : t.val % 4 = 0 := by omega
    have h1 : ¬t.val % 4 = 3 := by omega
    refine (congrFun (accStep1_first V c t h0 h1) (ix2 r cc)).trans ?_
    refine (step1_apply V c t i 0 hk ht (k1_pay1 (F := Ideal)) r cc).trans ?_
    rw [PayIdx.pay1_1, zero_add, Finset.sum_range_one]
  | succ k ih =>
    intro hk t ht r cc
    have h0 : ¬t.val % 4 = 0 := by omega
    have hlt : t.val - 1 < cfg1.N := Nat.lt_of_le_of_lt (Nat.sub_le _ _) t.isLt
    have ih' := ih (by omega) ⟨t.val - 1, hlt⟩ (by show t.val - 1 = _; omega) r cc
    refine (congrFun (accStep1_next V c t h0 hlt) (ix2 r cc)).trans ?_
    refine (step1_apply V c t i (k + 1) hk ht (tileAcc1 V c (t.val - 1) hlt).2 r cc).trans ?_
    rw [Finset.sum_range_succ _ (k + 1)]
    exact congrArg (· + blockSum1 V c ⟨i.val * 1024 + r.val, by omega⟩ cc (k + 1)) ih'

/-- At the last point of row tile i (k = 3) the result tile's buffer holds the whole sums: rows 1024·i.. of E·(S ⊙ C). -/
theorem tile1_last (c : Dev nD) (i : Fin 8) (t : Fin cfg1.N) (ht : t.val = 4 * i.val + 3) (r : Fin 1024) (cc : Fin 128) :
    (tileAcc1 V c t.val t.isLt).1 (ix2 r cc)
      = Cert.Basis.fromBasis (E1 V c) (fun j => S1 V c j * C1 V c j) ⟨i.val * 1024 + r.val, by omega⟩ cc := by
  have h0 : ¬t.val % 4 = 0 := by omega
  have h1 : t.val % 4 = 3 := by omega
  refine (congrFun (outStep1_last V c t h0 h1) (ix2 r cc)).trans ?_
  refine (acc1_eq V c i 3 (by omega) t ht r cc).trans ?_
  unfold blockSum1
  exact Cert.Basis.sum_blocks_upto_four (term1 V c ⟨i.val * 1024 + r.val, by omega⟩ cc)

end Cert.KernelIdeal.Value

end
-- ==== Proof.FromBasisValue.lean ====
/-
  The second product's result array. Its write-backs happen at the points k = 3, one per row tile; what point 4·i + 3
  writes back is rows 1024·i.. of E · (S ⊙ C) (the accumulated sums), and the eight tiles cover the array. So the array
  ends holding E · (S ⊙ C) of the arrays the region is entered with, whatever the order of the write-backs.
-/
import proofs.«111915_j83854941487389_2_alg».proof.Proof.FromBasisSums

set_option maxRecDepth 16384

noncomputable section

open scoped BigOperators

namespace Cert.KernelIdeal.Value

open Cert.KernelIdeal Cert.KernelIdeal.Gen Cert.KernelIdeal.Frame
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- What the result array ends holding: entry (R, c) is (E · (S ⊙ C))[R, c]. -/
abbrev whole1 (c : Dev nD) : S8192x128.Idx → EReal := fun i =>
  Cert.Basis.fromBasis (E1 V c) (fun j => S1 V c j * C1 V c j) ⟨(i 0).val, (i 0).isLt⟩ ⟨(i 1).val, (i 1).isLt⟩

/-- What a point with k = 3 writes back is its block of that array. -/
theorem flushed1_eq (c : Dev nD) (t : Fin cfg1.N) (hf : (cfg1.win 3).flush t = true) :
    (dat1 (F := Ideal) V c).flushed 3 t = ((cfg1.win 3).blk t).view.read (Elt Ideal) (whole1 V c) := by
  show (cfg1.win 3).cut (grid1.coords t) ((dat1 (F := Ideal) V c).after 3 t) = _
  rw [after1_3]
  have h3 : t.val % 4 = 3 := (flush1_3 t).mp hf
  have hN : t.val < 32 := lt_of_lt_of_eq t.isLt (show cfg1.N = 32 from N_1)
  obtain ⟨-, -, -, -, -, -, e6, e7, -, -⟩ := idx_facts1 t
  funext y
  have hy0 : (y 0).val < 1024 := (y 0).isLt
  have hy1 : (y 1).val < 128 := (y 1).isLt
  have hyy : (ix2 (⟨(y 0).val, hy0⟩ : Fin 1024) (⟨(y 1).val, hy1⟩ : Fin 128) : S1024x128.Idx) = y :=
    funext fun a => Fin.ext (by match a with | ⟨0, _⟩ => rfl | ⟨1, _⟩ => rfl)
  have key := tile1_last V c ⟨t.val / 4, by omega⟩ t (by show t.val = 4 * (t.val / 4) + 3; omega) ⟨(y 0).val, hy0⟩ ⟨(y 1).val, hy1⟩
  rw [hyy] at key
  refine key.trans ?_
  show _ = whole1 V c (((cfg1.win 3).blk t).view.emb y)
  unfold whole1
  have hr : (⟨t.val / 4 * 1024 + (y 0).val, by omega⟩ : Fin 8192) = ⟨((((cfg1.win 3).blk t).view.emb y) 0).val, ((((cfg1.win 3).blk t).view.emb y) 0).isLt⟩ :=
    Fin.ext (by show t.val / 4 * 1024 + (y 0).val = win1_3.index t (0 : Fin 2) * 1024 + 1 * (y 0).val; rw [e6]; omega)
  have hc : (⟨(y 1).val, hy1⟩ : Fin 128) = ⟨((((cfg1.win 3).blk t).view.emb y) 1).val, ((((cfg1.win 3).blk t).view.emb y) 1).isLt⟩ :=
    Fin.ext (by show (y 1).val = win1_3.index t (1 : Fin 2) * 128 + 1 * (y 1).val; rw [e7]; omega)
  rw [hr, hc]

/-- An index of the array is in point t's block iff each coordinate is in the block's range on its axis. -/
theorem mem_blk1 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v29).slice (win1_3.rect t)).set ↔ _
  rw [View.set_slice_whole, Rect.mem_set_unit]
  exact Iff.rfl

/-- Row R of the array is written back by the last point of its row tile. -/
theorem cover1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 32 := N_1
  refine ⟨⟨4 * ((i 0).val / 1024) + 3, by rw [hN]; omega⟩, (flush1_3 _).mpr (by show (4 * ((i 0).val / 1024) + 3) % 4 = 3; omega), ?_⟩
  rw [mem_blk1]
  obtain ⟨-, -, -, -, -, -, e6, e7, -, -⟩ := idx_facts1 ⟨4 * ((i 0).val / 1024) + 3, by rw [hN]; omega⟩
  intro a
  match a with
  | ⟨0, _⟩ =>
    show win1_3.index _ (0 : Fin 2) * 1024 ≤ (i 0).val ∧ (i 0).val < win1_3.index _ (0 : Fin 2) * 1024 + 1024
    rw [e6]; show (4 * ((i 0).val / 1024) + 3) / 4 * 1024 ≤ (i 0).val ∧ (i 0).val < (4 * ((i 0).val / 1024) + 3) / 4 * 1024 + 1024; omega
  | ⟨1, _⟩ =>
    show win1_3.index _ (1 : Fin 2) * 128 ≤ (i 1).val ∧ (i 1).val < win1_3.index _ (1 : Fin 2) * 128 + 128
    rw [e7]; omega

/-- The result array after the region: E · (S ⊙ C) of the arrays the region is entered with. -/
theorem fromBasis_array (c : Dev nD) : (dat1 (F := Ideal) V c).arrAt 3 cfg1.N = whole1 V c :=
  (dat1 (F := Ideal) V c).arrAt_eq_of_cover 3 (whole1 V c) (fun t hf => flushed1_eq V c t hf) (cover1)

end Cert.KernelIdeal.Value

end
-- ==== Proof.HostChain.lean ====
/-
  What the host stretch hands the two products, at the exact instance: xm = x ⊙ mass (its rounding to the narrower
  format is the identity on extended reals) and the coefficient array, each the same term of the argument arrays
  that the reference computes for them — the two programs prepare them by the same operations.
-/
import proofs.«111915_j83854941487389_2_alg».proof.Proof.TwoProducts
import proofs.«111915_j83854941487389_2_alg».proof.Proof.Gen.ReferenceIdeal.Read

noncomputable section

namespace Cert.KernelIdeal.Value

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ) (ρ : Dev nD → PrngReg)

/-- xm as the first product finds it. -/
theorem entry_xm (c : Dev nD) (i : S8192x128.Idx) :
    (entryV m ρ c main_v27 : S8192x128.Idx → EReal) i
      = Cert.ReferenceIdeal.Read.val_main_v3 (F := Ideal) (m ((c.tc : Thread nD τ).loc main_arg0)) (m ((c.tc : Thread nD τ).loc main_arg3)) i := by
  have e : (entryV m ρ c main_v27 : S8192x128.Idx → EReal)
      = (Cert.ReferenceIdeal.Read.val_main_v3 (F := Ideal) (m ((c.tc : Thread nD τ).loc main_arg0)) (m ((c.tc : Thread nD τ).loc main_arg3)) : S8192x128.Idx → EReal) := by
    show StableHlo.after hostOps0 (fun b => m (c, b)) (Proc.devRef .tc main_v27) = _
    after_results_simp <;> rfl
  exact congrFun e i

/-- The coefficients as the second product finds them. -/
theorem entry_coefs (c : Dev nD) (i : S8192x128.Idx) :
    (entryV m ρ c main_v23 : S8192x128.Idx → EReal) i
      = Cert.ReferenceIdeal.Read.val_main_v28 (F := Ideal) (m ((c.tc : Thread nD τ).loc main_arg4)) (m ((c.tc : Thread nD τ).loc main_arg5)) (m ((c.tc : Thread nD τ).loc main_arg7)) i := by
  have e : (entryV m ρ c main_v23 : S8192x128.Idx → EReal)
      = (Cert.ReferenceIdeal.Read.val_main_v28 (F := Ideal) (m ((c.tc : Thread nD τ).loc main_arg4)) (m ((c.tc : Thread nD τ).loc main_arg5)) (m ((c.tc : Thread nD τ).loc main_arg7)) : S8192x128.Idx → EReal) := by
    show StableHlo.after hostOps0 (fun b => m (c, b)) (Proc.devRef .tc main_v23) = _
    after_results_simp <;> rfl
  exact congrFun e i

end Cert.KernelIdeal.Value

end
-- ==== Proof.Bridge.lean ====
/-
  The idealized kernel's result array. After the run the result buffer holds the second product's array: E · (x_spec ⊙
  coefs), where x_spec is what the first product left, Eᵀ · xm, and xm and coefs are what the host stretch prepared — the
  reference's own terms for them. So the result is the diffusion of xm by coefs in the basis E, the two factors of each
  summand in the other order than the reference multiplies them: the commutativity of the product of extended reals is
  the one law that joins the two programs, and it holds at the infinities too, so finiteness of the inputs is not used.
-/
import proofs.«111915_j83854941487389_2_alg».proof.Proof.TwoProducts
import proofs.«111915_j83854941487389_2_alg».proof.Proof.ToBasisValue
import proofs.«111915_j83854941487389_2_alg».proof.Proof.FromBasisValue
import proofs.«111915_j83854941487389_2_alg».proof.Proof.HostChain
import proofs.«111915_j83854941487389_2_alg».proof.Proof.Basis

noncomputable section

namespace Cert.KernelIdeal.Value

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ) (ρ : Dev nD → PrngReg)

/-- evecs reaches the second product as launched. -/
theorem mid_evecs (c : Dev nD) : midV m ρ c main_arg6 = m ((c : Thread nD τ).loc main_arg6) :=
  calc atMid m ρ c (Proc.devRef .tc main_arg6)
    _ = atEntry m ρ c (Proc.devRef .tc main_arg6) := (atMid_arr m ρ c 0).trans (((dat0 (entryV m ρ) c).arrAt_in 0 rfl _).trans (A_eq0 (entryV m ρ) c 0))
    _ = m ((c : Thread nD τ).loc main_arg6) := Gen.V1_of m c main_arg6 (by decide)

theorem entry_evecs (c : Dev nD) : entryV m ρ c main_arg6 = m ((c : Thread nD τ).loc main_arg6) :=
  Gen.V1_of m c main_arg6 (by decide)

/-- The coefficients reach the second product as the host stretch left them. -/
theorem mid_coefs (c : Dev nD) : midV m ρ c main_v23 = entryV m ρ c main_v23 :=
  atMid_of_ne m ρ c main_v23 (by decide)

/-- x_spec as the second product finds it: what the first product's write-backs left. -/
theorem mid_xspec (c : Dev nD) : midV m ρ c main_v28 = (dat0 (entryV m ρ) c).arrAt 2 cfg0.N :=
  atMid_arr m ρ c 2

/-- x_spec as the second product finds it, from the arguments. -/
theorem mid_xspec_eq (c : Dev nD) :
    (midV m ρ c main_v28 : S8192x128.Idx → EReal)
      = fun i => Cert.Basis.toBasis (m ((c : Thread nD τ).loc main_arg6)) (entryV m ρ c main_v27) ⟨(i 0).val, (i 0).isLt⟩ ⟨(i 1).val, (i 1).isLt⟩ := by
  rw [mid_xspec m ρ c, toBasis_array, entry_evecs m ρ c]

/-- The result buffer after the run. -/
theorem result (c : Dev nD) :
    (atEnd m ρ c (Proc.devRef .tc main_v29) : S8192x128.Idx → EReal)
      = Cert.Basis.diffuse (m ((c.tc : Thread nD τ).loc main_arg6))
          (Cert.ReferenceIdeal.Read.val_main_v3 (F := Ideal) (m ((c.tc : Thread nD τ).loc main_arg0)) (m ((c.tc : Thread nD τ).loc main_arg3)))
          (Cert.ReferenceIdeal.Read.val_main_v28 (F := Ideal) (m ((c.tc : Thread nD τ).loc main_arg4)) (m ((c.tc : Thread nD τ).loc main_arg5)) (m ((c.tc : Thread nD τ).loc main_arg7))) := by
  have h1 : atEnd m ρ c (Proc.devRef .tc main_v29) = (dat1 (F := Ideal) (midV m ρ) c).arrAt 3 cfg1.N := atEnd_arr m ρ c 3
  refine (h1.trans (fromBasis_array (midV m ρ) c)).trans ?_
  funext i
  dsimp only [whole1, E1, S1, C1]
  rw [mid_evecs m ρ c, mid_xspec_eq m ρ c, mid_coefs m ρ c]
  unfold Cert.Basis.diffuse Cert.Basis.fromBasis
  refine Finset.sum_congr rfl fun K _ => congrArg _ ?_
  beta_reduce
  refine (mul_comm _ _).trans ?_
  refine congrArg₂ (· * ·) (entry_coefs m ρ c _) ?_
  unfold Cert.Basis.toBasis
  refine Finset.sum_congr rfl fun J _ => congrArg _ ?_
  exact entry_xm m ρ c _

end Cert.KernelIdeal.Value

end
-- ==== Proof.RefSide.lean ====
/-
  THE REFERENCE'S RESULT AS SPECTRAL DIFFUSION. The reference program computes, on the host, `xm = x ⊙ mass`,
  `x_spec = Eᵀ · xm` (a transpose of `E` and a contraction), `coefs` (a chain of host operations of the time and
  eigenvalue arguments), `coefs ⊙ x_spec`, and `E · (coefs ⊙ x_spec)` (a second contraction). At the ideal values — the
  extended reals, both contractions exact sums over the 8192 basis vectors — its result array is therefore
  `Basis.diffuse E xm coefs`, with `xm` and `coefs` the reference's own intermediate arrays, kept OPAQUE here: nothing
  about how they are computed matters, only where they enter. Read index by index: the outer contraction at (R, c) sums
  `E[R, K] · (coefs[K, c] · x_spec[K, c])` over `K`; `x_spec[K, c]` sums `Eᵀ[K, J] · xm[J, c] = E[J, K] · xm[J, c]`
  over `J`. The only work is to see that the index functions of the generated reading are the coordinate pairs.
-/
import proofs.«111915_j83854941487389_2_alg».proof.Defs
import proofs.«111915_j83854941487389_2_alg».proof.Proof.Gen.ReferenceIdeal.Read
import proofs.«111915_j83854941487389_2_alg».proof.Proof.Basis
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The spectral coefficients the reference computes: the transposed basis against `xm`, element (K, c), is
    `(Eᵀ·xm)[K, c]`. -/
theorem spec_eq (x0 : (⟨S8192x128, .f32⟩ : BufTy).Contents (Elt Ideal)) (x3 : (⟨S8192, .f32⟩ : BufTy).Contents (Elt Ideal))
    (x6 : (⟨S8192x8192, .f32⟩ : BufTy).Contents (Elt Ideal)) (i : S8192x128.Idx) :
    val_main_v4 (F := Ideal) x0 x3 x6 i
      = Cert.Basis.toBasis x6 (val_main_v3 (F := Ideal) x0 x3) ⟨(i 0).val, (i 0).isLt⟩ ⟨(i 1).val, (i 1).isLt⟩ := by
  rw [val_main_v4_apply]
  unfold Cert.Basis.toBasis
  refine Finset.sum_congr rfl fun k _ => ?_
  rw [val_main_v0_apply]
  have e0 : idx_main_v0 (lidx_main_v4 i k) = ValueIdx.ix2 k (⟨(i 0).val, (i 0).isLt⟩ : Fin 8192) :=
    funext fun a => Fin.ext (by match a with | ⟨0, _⟩ => rfl | ⟨1, _⟩ => rfl)
  have e1 : ridx_main_v4 i k = ValueIdx.ix2 k (⟨(i 1).val, (i 1).isLt⟩ : Fin 128) :=
    funext fun a => Fin.ext (by match a with | ⟨0, _⟩ => rfl | ⟨1, _⟩ => rfl)
  rw [e0, e1]

/-- The reference's result array is the diffusion of `xm` by `coefs` in the basis `E`. -/
theorem result_eq (x0 : (⟨S8192x128, .f32⟩ : BufTy).Contents (Elt Ideal)) (x3 : (⟨S8192, .f32⟩ : BufTy).Contents (Elt Ideal))
    (x4 : (⟨S64, .f32⟩ : BufTy).Contents (Elt Ideal)) (x5 : (⟨S128, .f32⟩ : BufTy).Contents (Elt Ideal))
    (x6 : (⟨S8192x8192, .f32⟩ : BufTy).Contents (Elt Ideal)) (x7 : (⟨S2x128, .f32⟩ : BufTy).Contents (Elt Ideal)) :
    Cert.ReferenceIdeal.Read.val_main_v30 (F := Ideal) x0 x3 x4 x5 x6 x7
      = Cert.Basis.diffuse x6 (Cert.ReferenceIdeal.Read.val_main_v3 (F := Ideal) x0 x3)
          (Cert.ReferenceIdeal.Read.val_main_v28 (F := Ideal) x4 x5 x7) := by
  funext i
  rw [val_main_v30_apply]
  unfold Cert.Basis.diffuse Cert.Basis.fromBasis
  refine Finset.sum_congr rfl fun k _ => ?_
  have el : lidx_main_v30 i k = ValueIdx.ix2 (⟨(i 0).val, (i 0).isLt⟩ : Fin 8192) k :=
    funext fun a => Fin.ext (by match a with | ⟨0, _⟩ => rfl | ⟨1, _⟩ => rfl)
  have er : ridx_main_v30 i k = ValueIdx.ix2 k (⟨(i 1).val, (i 1).isLt⟩ : Fin 128) :=
    funext fun a => Fin.ext (by match a with | ⟨0, _⟩ => rfl | ⟨1, _⟩ => rfl)
  rw [el, er, val_main_v29_apply, spec_eq]
  rfl

end Cert.ReferenceIdeal.RefValue

end
-- ==== Proof.Claims.lean ====
/-
  The five claims. The three frames: both readings of the kernel run @main as a host stretch and two pipelined
  products, and end with every unscoped buffer at contents under which no argument has changed; the reference is a
  line of host operations. The idealization rewrote nothing, so it preserves the kernel trivially. The value claim: at
  the exact instance the kernel's result buffer ends at the diffusion E · (coefs ⊙ (Eᵀ · xm)) of the argument arrays,
  which is what the reference's composed term is, index by index.
-/
import proofs.«111915_j83854941487389_2_alg».proof.Defs
import proofs.«111915_j83854941487389_2_alg».proof.Proof.WordTwoProducts
import proofs.«111915_j83854941487389_2_alg».proof.Proof.TwoProducts
import proofs.«111915_j83854941487389_2_alg».proof.Proof.Bridge
import proofs.«111915_j83854941487389_2_alg».proof.Proof.RefSide
import proofs.«111915_j83854941487389_2_alg».proof.Proof.Gen.Kernel
import proofs.«111915_j83854941487389_2_alg».proof.Proof.Gen.KernelIdeal
import proofs.«111915_j83854941487389_2_alg».proof.Proof.Gen.ReferenceIdeal
import proofs.«111915_j83854941487389_2_alg».proof.Proof.Gen.ReferenceIdeal.Run
import proofs.«111915_j83854941487389_2_alg».proof.Proof.Gen.Pre_finite_inputs

noncomputable section

namespace Cert.Proof.Claims

open Idealize.ShloMosaic Idealize.ShloMosaic.TcCoe Idealize.SL.Sem

theorem frame_k : Cert.frame_Kernel := fun m ρ _ => Cert.Kernel.Frame.frame (F := Bits) m ρ
theorem frame_ki : Cert.frame_KernelIdeal := fun m ρ _ => Cert.KernelIdeal.Frame.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Frame in
theorem algebraic : Cert.algebraic_KernelIdeal_ReferenceIdeal := by
  intro m ρ m' ρ' _ hagree
  refine ⟨fun c => Cert.Basis.diffuse (m ((c.tc : Thread nD τ).loc main_arg6))
      (Cert.ReferenceIdeal.Read.val_main_v3 (F := Ideal) (m ((c.tc : Thread nD τ).loc main_arg0)) (m ((c.tc : Thread nD τ).loc main_arg3)))
      (Cert.ReferenceIdeal.Read.val_main_v28 (F := Ideal) (m ((c.tc : Thread nD τ).loc main_arg4)) (m ((c.tc : Thread nD τ).loc main_arg5)) (m ((c.tc : Thread nD τ).loc main_arg7))), ?_, ?_⟩
  · exact (θ_run Cert.KernelIdeal.defs _ _).mono (fun _ h c => ⟨
      (h c _ (mem_uc main_v29 (by decide))).trans (Cert.KernelIdeal.Value.result m ρ c),
      (h c _ (mem_uc main_arg0 (by decide))).trans (atEnd_main_arg0 m ρ c),
      (h c _ (mem_uc main_arg1 (by decide))).trans (atEnd_main_arg1 m ρ c),
      (h c _ (mem_uc main_arg2 (by decide))).trans (atEnd_main_arg2 m ρ c),
      (h c _ (mem_uc main_arg3 (by decide))).trans (atEnd_main_arg3 m ρ c),
      (h c _ (mem_uc main_arg4 (by decide))).trans (atEnd_main_arg4 m ρ c),
      (h c _ (mem_uc main_arg5 (by decide))).trans (atEnd_main_arg5 m ρ c),
      (h c _ (mem_uc main_arg6 (by decide))).trans (atEnd_main_arg6 m ρ c),
      (h c _ (mem_uc main_arg7 (by decide))).trans (atEnd_main_arg7 m ρ c)⟩) (run_all (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v30_eq, Cert.ReferenceIdeal.RefValue.result_eq,
      (hagree c).1, (hagree c).2.2.2.1, (hagree c).2.2.2.2.1, (hagree c).2.2.2.2.2.1, (hagree c).2.2.2.2.2.2.1, (hagree c).2.2.2.2.2.2.2]

end Cert.Proof.Claims

end
-- ==== Proof.lean ====
/-
  Spectral heat diffusion on a product graph, x_diffuse = E · (coefs ⊙ (Eᵀ · (x ⊙ mass))), with E the 8192 × 8192
  eigenvector matrix and coefs the per-channel Kronecker product of exp(−evals₀ t₀) and exp(−evals₁ t₁). The kernel
  computes both products by Pallas matmuls accumulated over four blocks of 2048 of the contracted axis, eight row tiles
  of 1024 each; the reference by two whole contractions. On the extended reals a sum may be split into blocks and
  regrouped freely, and the product commutes, so the two agree entry by entry, for all inputs.
  Modules: ToBasis* / FromBasis* (the two pipelined products: the body's run per control case, the accumulator point by
  point, the region's invariant and the body obligation; the Word* copies are the same for the program as printed),
  TwoProducts (@main's run over the two regions), PayIdx / ToBasisPieces / ToBasisValue / FromBasisValue (what the
  products leave in their result arrays at the exact instance), Basis (the two contractions and the block-splitting
  law), RefSide (the reference read as the same diffusion), HostChain and Bridge (the kernel's result buffer),
  Claims (the five claims).
-/
import proofs.«111915_j83854941487389_2_alg».proof.Defs
import proofs.«111915_j83854941487389_2_alg».proof.Proof.Claims
import proofs.«111915_j83854941487389_2_alg».proof.Proof.Gen.Kernel
import proofs.«111915_j83854941487389_2_alg».proof.Proof.Gen.KernelIdeal
import proofs.«111915_j83854941487389_2_alg».proof.Proof.Gen.ReferenceIdeal
import proofs.«111915_j83854941487389_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
